-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59_2)) (v1 : (c : Dev Cert.KernelIdeal.nD) → Buf (Elt Ideal) ((c.tc : Thread Cert.KernelIdeal.nD Cert.KernelIdeal.τ).loc Cert.KernelIdeal.main_v59_0)) (v2 : (c : Dev Cert.KernelIdeal.nD) → Buf (Elt Ideal) ((c.tc : Thread Cert.KernelIdeal.nD Cert.KernelIdeal.τ).loc Cert.KernelIdeal.main_v59_1)) (v3 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59_2) = v0 c
          ∧ r.2.mem ((c.tc : Thread Cert.KernelIdeal.nD Cert.KernelIdeal.τ).loc Cert.KernelIdeal.main_v59_0) = v1 c
          ∧ r.2.mem ((c.tc : Thread Cert.KernelIdeal.nD Cert.KernelIdeal.τ).loc Cert.KernelIdeal.main_v59_1) = v2 c
          ∧ r.2.mem ((c.tc : Thread Cert.KernelIdeal.nD Cert.KernelIdeal.τ).loc Cert.KernelIdeal.main_v76) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v122) = v2 c
          ∧ r.2.mem ((c.tc : Thread Cert.ReferenceIdeal.nD Cert.ReferenceIdeal.τ).loc Cert.ReferenceIdeal.main_v149) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S100000x64 : Shape := ⟨2, ![100000, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x64 .f32) (main_arg6 : FVec F S64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S100000x256 .f32) (main_arg1 : IVec S2x1600000 32) (main_arg2 : FVec F S100000x64 .f32) (main_arg3 : FVec F S256x128 .f32) (main_arg4 : FVec F S128 .f32) (main_arg5 : FVec F S128x64 .f32) (main_arg6 : FVec F S64 .f32) (main_arg7 : FVec F S128x64 .f32) (main_arg8 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x256 : Shape := ⟨2, ![100000, 256]⟩
abbrev S2x1600000 : Shape := ⟨2, ![2, 1600000]⟩
abbrev S100000x64 : Shape := ⟨2, ![100000, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S4000x256 : Shape := ⟨2, ![4000, 256]⟩
abbrev S4000x128 : Shape := ⟨2, ![4000, 128]⟩
abbrev S1600000x128 : Shape := ⟨2, ![1600000, 128]⟩
abbrev S1x128 : Shape := ⟨2, ![1, 128]⟩
abbrev S4000x1 : Shape := ⟨2, ![4000, 1]⟩
abbrev S1x64 : Shape := ⟨2, ![1, 64]⟩
abbrev S4000x64 : Shape := ⟨2, ![4000, 64]⟩
abbrev S64x100000 : Shape := ⟨2, ![64, 100000]⟩
abbrev S64x1600000 : Shape := ⟨2, ![64, 1600000]⟩
abbrev S64x12800 : Shape := ⟨2, ![64, 12800]⟩
abbrev S1x12800 : Shape := ⟨2, ![1, 12800]⟩
abbrev S12800 : Shape := ⟨1, ![12800]⟩

abbrev nBuf : Space → Nat
  | .hbm => 105
  | .vmem => 38
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S100000x64, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S1600000x1, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S1600000x1, .f32⟩
  | .hbm, ⟨73, _⟩ => ⟨S1600000x128, .f32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S1x64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S100000x64, .f32⟩
  | .hbm, ⟨84, _⟩ => ⟨S64x100000, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S64x1600000, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S64x1600000, .f32⟩
  | .hbm, ⟨103, _⟩ => ⟨S1x1600000, .f32⟩
  | .hbm, ⟨104, _⟩ => ⟨S1600000, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | .local _ .vmem, ⟨20, _⟩ => ⟨S128x64, .f32⟩
  | .local _ .vmem, ⟨21, _⟩ => ⟨S128x64, .f32⟩
  | .local _ .vmem, ⟨22, _⟩ => ⟨S1x64, .f32⟩
  | .local _ .vmem, ⟨23, _⟩ => ⟨S1x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S64x12800, .f32⟩
  | .local _ .vmem, ⟨33, _⟩ => ⟨S64x12800, .f32⟩
  | .local _ .vmem, ⟨34, _⟩ => ⟨S64x12800, .f32⟩
  | .local _ .vmem, ⟨35, _⟩ => ⟨S64x12800, .f32⟩
  | .local _ .vmem, ⟨36, _⟩ => ⟨S1x12800, .f32⟩
  | .local _ .vmem, ⟨37, _⟩ => ⟨S1x12800, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_8 : Ref sig .tc := ⟨.hbm, 63, rfl⟩
abbrev main_v44 : Ref sig .tc := ⟨.hbm, 64, rfl⟩
abbrev main_v45 : Ref sig .tc := ⟨.hbm, 65, rfl⟩
abbrev main_c_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59_0 : Ref sig .tc := ⟨.hbm, 81, rfl⟩
abbrev main_v59_1 : Ref sig .tc := ⟨.hbm, 82, rfl⟩
abbrev main_v59_2 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_13 : Ref sig .tc := ⟨.hbm, 94, rfl⟩
abbrev main_v68 : Ref sig .tc := ⟨.hbm, 95, rfl⟩
abbrev main_v69 : Ref sig .tc := ⟨.hbm, 96, rfl⟩
abbrev main_c_14 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc2_stg8_0 : Ref sig .tc := ⟨.vmem, 26, rfl⟩
abbrev cc2_stg8_1 : Ref sig .tc := ⟨.vmem, 27, rfl⟩
abbrev cc2_stg9_0 : Ref sig .tc := ⟨.vmem, 28, rfl⟩
abbrev cc2_stg9_1 : Ref sig .tc := ⟨.vmem, 29, rfl⟩
abbrev cc2_stg10_0 : Ref sig .tc := ⟨.vmem, 30, rfl⟩
abbrev cc2_stg10_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25
abbrev cc2_sem8_0 : DmaSem sig := 26
abbrev cc2_sem8_1 : DmaSem sig := 27
abbrev cc2_sem9_0 : DmaSem sig := 28
abbrev cc2_sem9_1 : DmaSem sig := 29
abbrev cc2_sem10_0 : DmaSem sig := 30
abbrev cc2_sem10_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S4000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S4000x64 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S4000x64 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S64x12800 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x12800 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x12800 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  transposes_S100000x64_S64x100000_1_0 : S100000x64.Transposes [1, 0] S64x100000
  inb_S64x12800_S64x12800_0_0 : ∀ a, (![0, 0] : Fin 2 → Nat) a + S64x12800.size a ≤ S64x12800.size a
  h_S64x12800 : 0 < S64x12800.numel
  shapeCasts_S64x12800_S64x12800 : S64x12800.ShapeCasts S64x12800
  reduces_S64x12800_S12800 : S64x12800.Reduces [0] S12800
  shapeCasts_S12800_S1x12800 : S12800.ShapeCasts S1x12800
  inb_S1x12800_S1x12800_0_0 : ∀ a, (![0, 0] : Fin 2 → Nat) a + S1x12800.size a ≤ S1x12800.size a
  h_S1x12800 : 0 < S1x12800.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x64_S4000x64_1_0_0_1_n_n_wf : DotDims.WF S4000x128 S128x64 S4000x64 [1] [0] [0] [1] [] []
  gather_S64x100000_S1600000x1_S64x1600000_0_1_n_n_1_1_641_wf : GatherDims.WF S64x100000 S1600000x1 S64x1600000 [0] [1] [] [1] [] 1 ![64, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x64.size a ≤ S100000x64.size a
  hwx2_7 : ∀ i : grid2.Coords, EltTy.bits .f32 = 32 ∨ (Rect.block (s := S100000x64) S4000x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x64.size a ≤ S100000x64.size a
  hwx2_8 : ∀ i : grid2.Coords, EltTy.bits .f32 = 32 ∨ (Rect.block (s := S100000x64) S4000x64.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x64.size a ≤ S100000x64.size a
  hwx2_9 : ∀ i : grid2.Coords, EltTy.bits .f32 = 32 ∨ (Rect.block (s := S100000x64) S4000x64.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S4000x64.size a ≤ S100000x64.size a
  hwx2_10 : ∀ i : grid2.Coords, EltTy.bits .f32 = 32 ∨ (Rect.block (s := S100000x64) S4000x64.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x12800.size a ≤ S64x1600000.size a
  hwx3_0 : ∀ i : grid3.Coords, EltTy.bits .f32 = 32 ∨ (Rect.block (s := S64x1600000) S64x12800.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x12800.size a ≤ S64x1600000.size a
  hwx3_1 : ∀ i : grid3.Coords, EltTy.bits .f32 = 32 ∨ (Rect.block (s := S64x1600000) S64x12800.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x12800.size a ≤ S1x1600000.size a
  hwx3_2 : ∀ i : grid3.Coords, EltTy.bits .f32 = 32 ∨ (Rect.block (s := S1x1600000) S1x12800.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S64x100000_S1600000x1_S64x1600000_0_1_n_n_1_1_641 : GatherDims S64x100000 S1600000x1 S64x1600000 where
  offsetDims := [0]
  collapsedSliceDims := [1]
  operandBatchingDims := []
  startIndicesBatchingDims := []
  startIndexMap := [1]
  indexVectorDim := 1
  sliceSizes := ![64, 1]
  wf := gather_S64x100000_S1600000x1_S64x1600000_0_1_n_n_1_1_641_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v56) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg2) S4000x64.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v59_0) S4000x64.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v59_1) S4000x64.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v59_2) S4000x64.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v67) S64x12800.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S64x12800.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x12800.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S100000x64 : Shape := ⟨2, ![100000, 64]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S1600000x128 : Shape := ⟨2, ![1600000, 128]⟩
abbrev S100000x1 : Shape := ⟨2, ![100000, 1]⟩
abbrev S1x128 : Shape := ⟨2, ![1, 128]⟩
abbrev S1600000x64 : Shape := ⟨2, ![1600000, 64]⟩
abbrev S1x64 : Shape := ⟨2, ![1, 64]⟩

abbrev nBuf : Space → Nat
  | .hbm => 193
  | .vmem => 0
  | .smem => 0
  | _ => 0

abbrev hbmTy0_0 (i : Nat) : BufTy := match i % 128 with
  | 0 => ⟨S100000x256, .f32⟩
  | 1 => ⟨S2x1600000, .i32⟩
  | 2 => ⟨S100000x64, .f32⟩
  | 3 => ⟨S256x128, .f32⟩
  | 4 => ⟨S128, .f32⟩
  | 5 => ⟨S128x64, .f32⟩
  | 6 => ⟨S64, .f32⟩
  | 7 => ⟨S128x64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S100000x128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x128, .f32⟩
  | 52 => ⟨S1600000x1, .f32⟩
  | 53 => ⟨S1600000x128, .f32⟩
  | 54 => ⟨S1600000x128, .f32⟩
  | 55 => ⟨S_, .f32⟩
  | 56 => ⟨S100000x128, .f32⟩
  | 57 => ⟨S1600000x1, .i32⟩
  | 58 => ⟨S100000x128, .f32⟩
  | 59 => ⟨S100000, .f32⟩
  | 60 => ⟨S100000x1, .f32⟩
  | 61 => ⟨S100000x128, .f32⟩
  | 62 => ⟨S100000x128, .f32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S100000x64, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x64, .f32⟩
  | 99 => ⟨S1600000x1, .f32⟩
  | 100 => ⟨S1600000x64, .f32⟩
  | 101 => ⟨S1600000x64, .f32⟩
  | 102 => ⟨S_, .f32⟩
  | 103 => ⟨S100000x64, .f32⟩
  | 104 => ⟨S1600000x1, .i32⟩
  | 105 => ⟨S100000x64, .f32⟩
  | 106 => ⟨S100000, .f32⟩
  | 107 => ⟨S100000x1, .f32⟩
  | 108 => ⟨S100000x64, .f32⟩
  | 109 => ⟨S100000x64, .f32⟩
  | 110 => ⟨S100000x64, .f32⟩
  | 111 => ⟨S1x64, .f32⟩
  | 112 => ⟨S100000x64, .f32⟩
  | 113 => ⟨S100000x64, .f32⟩
  | 114 => ⟨S100000x64, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000, .f32⟩
  | 124 => ⟨S_, .i32⟩
  | 125 => ⟨S1600000, .i32⟩
  | 126 => ⟨S1600000, .i1⟩
  | 127 => ⟨S_, .i32⟩
  | _ => ⟨S100000x256, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000, .f32⟩
  | 5 => ⟨S1600000, .f32⟩
  | 6 => ⟨S_, .i32⟩
  | 7 => ⟨S1600000, .i32⟩
  | 8 => ⟨S1600000, .i1⟩
  | 9 => ⟨S_, .i32⟩
  | 10 => ⟨S1600000, .i32⟩
  | 11 => ⟨S1600000, .i32⟩
  | 12 => ⟨S1600000, .i32⟩
  | 13 => ⟨S1600000x1, .i32⟩
  | 14 => ⟨S1600000x64, .f32⟩
  | 15 => ⟨S1600000x1, .f32⟩
  | 16 => ⟨S1600000x64, .f32⟩
  | 17 => ⟨S1600000x64, .f32⟩
  | 18 => ⟨S_, .f32⟩
  | 19 => ⟨S100000x64, .f32⟩
  | 20 => ⟨S1600000x1, .i32⟩
  | 21 => ⟨S100000x64, .f32⟩
  | 22 => ⟨S100000, .f32⟩
  | 23 => ⟨S100000x1, .f32⟩
  | 24 => ⟨S100000x64, .f32⟩
  | 25 => ⟨S100000x64, .f32⟩
  | 26 => ⟨S100000x64, .f32⟩
  | 27 => ⟨S1x64, .f32⟩
  | 28 => ⟨S100000x64, .f32⟩
  | 29 => ⟨S100000x64, .f32⟩
  | 30 => ⟨S_, .f32⟩
  | 31 => ⟨S100000x64, .f32⟩
  | 32 => ⟨S100000x64, .f32⟩
  | 33 => ⟨S100000x64, .f32⟩
  | 34 => ⟨S100000x64, .f32⟩
  | 35 => ⟨S100000x64, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x64, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x64, .f32⟩
  | 55 => ⟨S_, .f32⟩
  | 56 => ⟨S1600000, .f32⟩
  | 57 => ⟨S1600000, .f32⟩
  | 58 => ⟨S1600000, .f32⟩
  | 59 => ⟨S_, .f32⟩
  | 60 => ⟨S1600000, .f32⟩
  | 61 => ⟨S1600000, .f32⟩
  | 62 => ⟨S_, .f32⟩
  | 63 => ⟨S1600000, .f32⟩
  | 64 => ⟨S1600000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_c_15 : Ref sig .tc := ⟨.hbm, 115, rfl⟩
abbrev main_v87 : Ref sig .tc := ⟨.hbm, 116, rfl⟩
abbrev main_v88 : Ref sig .tc := ⟨.hbm, 117, rfl⟩
abbrev main_c_16 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c_17 : Ref sig .tc := ⟨.hbm, 124, rfl⟩
abbrev main_v94 : Ref sig .tc := ⟨.hbm, 125, rfl⟩
abbrev main_v95 : Ref sig .tc := ⟨.hbm, 126, rfl⟩
abbrev main_c_18 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_c_19 : Ref sig .tc := ⟨.hbm, 134, rfl⟩
abbrev main_v102 : Ref sig .tc := ⟨.hbm, 135, rfl⟩
abbrev main_v103 : Ref sig .tc := ⟨.hbm, 136, rfl⟩
abbrev main_c_20 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_21 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_22 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_c_23 : Ref sig .tc := ⟨.hbm, 164, rfl⟩
abbrev main_v128 : Ref sig .tc := ⟨.hbm, 165, rfl⟩
abbrev main_v129 : Ref sig .tc := ⟨.hbm, 166, rfl⟩
abbrev main_c_24 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_c_25 : Ref sig .tc := ⟨.hbm, 173, rfl⟩
abbrev main_v135 : Ref sig .tc := ⟨.hbm, 174, rfl⟩
abbrev main_v136 : Ref sig .tc := ⟨.hbm, 175, rfl⟩
abbrev main_c_26 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_27 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_cst_28 : Ref sig .tc := ⟨.hbm, 187, rfl⟩
abbrev main_v146 : Ref sig .tc := ⟨.hbm, 188, rfl⟩
abbrev main_v147 : Ref sig .tc := ⟨.hbm, 189, rfl⟩
abbrev main_cst_29 : Ref sig .tc := ⟨.hbm, 190, rfl⟩
abbrev main_v148 : Ref sig .tc := ⟨.hbm, 191, rfl⟩
abbrev main_v149 : Ref sig .tc := ⟨.hbm, 192, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S1600000x64_S1600000_d1 : S1600000x64.ReducesTo [1] S1600000
  h_S_ : 0 < S_.numel
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KRun.lean ====
/-
  The idealized kernel's run, with its four result arrays named: every weakly fair execution of the program
  terminates, nothing faulting, and in the final state each result buffer (the code z, the mean, the log-variance,
  the edge scores) holds what the fold of the program's nine segments — five stretches of host operations around
  four kernel regions — leaves at that buffer, the nine argument arrays as launched.
  The segments, the thread states between them and the launch are those of the imported generated run; only the final
  reading differs: the last thread state holds every unscoped buffer at the last boundary's contents, and here the
  four result buffers are read there as well as the arguments.
-/
import proofs.«174899_j84129819394641_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, read at the last boundary: the four results at the fold's contents, the arguments unchanged. -/
theorem run_boundary : θ_run defs (onTc (τ := τ) (main (F := F))) ⟨m, fun _ => 0, ρ⟩ (fun r => ∀ c : Dev nD,
      r.2.mem ((c.tc : Thread nD τ).loc main_v59_2) = W9 m ρ c (Proc.devRef .tc main_v59_2)
      ∧ r.2.mem ((c.tc : Thread nD τ).loc main_v59_0) = W9 m ρ c (Proc.devRef .tc main_v59_0)
      ∧ r.2.mem ((c.tc : Thread nD τ).loc main_v59_1) = W9 m ρ c (Proc.devRef .tc main_v59_1)
      ∧ r.2.mem ((c.tc : Thread nD τ).loc main_v76) = W9 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v59_2 (by decide)),
       h c _ (mem_uc main_v59_0 (by decide)),
       h c _ (mem_uc main_v59_1 (by decide)),
       h c _ (mem_uc main_v76 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.KRun

end
-- ==== Proof.Spec.lean ====
/-
  The stages of the graph auto-encoder as whole-array functions on the extended reals, index by index.
  A node feature matrix has 100000 rows; an edge list has 1600000 entries.
  * `dense`      : a row of the left matrix against a column of the right one, summed over the shared axis.
  * `selfMix`    : the neighbour aggregate plus the node's own row scaled by its squared inverse root degree.
  * `reluLayer`  : `selfMix` plus the bias row, clipped below at the zero word's value.
  * `affine`     : `dense` plus a bias row.
  * `reparam`    : mean plus noise times exp (one half of the log-variance).
  * `edgeScore`  : the logistic of the inner product of the two endpoint columns.
  Float literals stay as the extended real their word denotes.
-/
import Idealize.ShloMosaic.PureOps.Ideal
import Idealize.ShloMosaic.Lib.ValueIdx

noncomputable section

open scoped BigOperators

namespace Cert.Spec

open Idealize.ShloMosaic Idealize.ShloMosaic.ValueIdx

abbrev T100000x256 : Shape := ⟨2, ![100000, 256]⟩
abbrev T256x128 : Shape := ⟨2, ![256, 128]⟩
abbrev T100000x128 : Shape := ⟨2, ![100000, 128]⟩
abbrev T100000x1 : Shape := ⟨2, ![100000, 1]⟩
abbrev T1x128 : Shape := ⟨2, ![1, 128]⟩
abbrev T128x64 : Shape := ⟨2, ![128, 64]⟩
abbrev T1x64 : Shape := ⟨2, ![1, 64]⟩
abbrev T100000x64 : Shape := ⟨2, ![100000, 64]⟩
abbrev T64x1600000 : Shape := ⟨2, ![64, 1600000]⟩
abbrev T1x1600000 : Shape := ⟨2, ![1, 1600000]⟩

/-- The first layer's transform: entry (r, c) is the sum over q of x(r, q) · w(q, c). -/
def dense1 (x : T100000x256.Idx → EReal) (w : T256x128.Idx → EReal) : T100000x128.Idx → EReal :=
  fun i => ∑ q : Fin 256, x (ix2 (i 0) q) * w (ix2 q (i 1))

/-- Aggregate plus self-loop term: agg(r, c) + h(r, c) · d2(r, 0). -/
def selfMix (agg h : T100000x128.Idx → EReal) (d2 : T100000x1.Idx → EReal) : T100000x128.Idx → EReal :=
  fun i => agg i + h i * d2 (ix2 (i 0) 0)

/-- The hidden layer: max (selfMix + bias row, value of the zero word). -/
def reluLayer (agg h : T100000x128.Idx → EReal) (d2 : T100000x1.Idx → EReal) (b : T1x128.Idx → EReal) :
    T100000x128.Idx → EReal :=
  fun i => max (selfMix agg h d2 i + b (ix2 0 (i 1))) (Ideal.ofBits .f32 0x00000000#32)

/-- A 128 → 64 transform plus a bias row: (sum over q of s(r, q) · w(q, c)) + b(0, c). -/
def affine (s : T100000x128.Idx → EReal) (w : T128x64.Idx → EReal) (b : T1x64.Idx → EReal) : T100000x64.Idx → EReal :=
  fun i => (∑ q : Fin 128, s (ix2 (i 0) q) * w (ix2 q (i 1))) + b (ix2 0 (i 1))

/-- The sampled code: mu + eps · exp (½ · logvar), ½ the value of the word 0x3F000000. -/
def reparam (mu lv eps : T100000x64.Idx → EReal) : T100000x64.Idx → EReal :=
  fun i => mu i + eps i * Ideal.exp (Ideal.ofBits .f32 0x3F000000#32 * lv i)

/-- The edge decoder on column-major endpoint slabs: logistic of the sum over the 64 code coordinates. -/
def edgeScore (zs zd : T64x1600000.Idx → EReal) : T1x1600000.Idx → EReal :=
  fun i => Ideal.logistic (∑ r : Fin 64, zs (ix2 r (i 1)) * zd (ix2 r (i 1)))

end Cert.Spec

end
-- ==== Proof.KStages.lean ====
/-
  The idealized kernel's values, stage by stage, as functions of the argument arrays.
  The edge list a1 : [2, 1600000] gives each edge a source (row 0) and a target (row 1). `wrap` adds the node
  count to a negative entry (the gathers read it so); `col` is the raw entry as a one-column array (the segment
  sums read it so). `dinv` is the inverse square root of 1 + the number of edges landing on a node; `coef` the
  product of the two endpoints' `dinv`; `aggregate rows` the segment sum, over the edges landing on a node, of the
  source's row times the edge's `coef`. The layers are the specification's functions of these.
-/
import proofs.«174899_j84129819394641_2_alg».proof.Proof.Gen.KernelIdeal
import proofs.«174899_j84129819394641_2_alg».proof.Proof.Spec

noncomputable section

namespace Cert.KernelIdeal.KVal

open Cert.KernelIdeal Cert.KernelIdeal.Facts₀ Cert.KernelIdeal.Facts Idealize.ShloMosaic

/-- The sources of the edges. -/
def src (a1 : IVec S2x1600000 32) : IVec S1600000 32 :=
  shapeCast _ (extractStridedSlice S1x1600000 ![0, 0] a1 slices_S2x1600000_S1x1600000_0_0) shapeCasts_S1x1600000_S1600000
/-- The targets of the edges. -/
def dst (a1 : IVec S2x1600000 32) : IVec S1600000 32 :=
  shapeCast _ (extractStridedSlice S1x1600000 ![1, 0] a1 slices_S2x1600000_S1x1600000_1_0) shapeCasts_S1x1600000_S1600000
/-- An index list with its negative entries raised by the node count, as one column. -/
def wrap (v : IVec S1600000 32) : IVec S1600000x1 32 :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)
/-- An index list as one column. -/
def col (v : IVec S1600000 32) : IVec S1600000x1 32 := broadcastInDim S1600000x1 ![0] bcast_S1600000_S1600000x1_0 v

/-- rsqrt (in-degree + 1), per node. -/
def dinv (a1 : IVec S2x1600000 32) : FVec Ideal S100000 .f32 :=
  Host.rsqrt (addf
    (Host.scatterAdd scatter_S100000_S1600000x1_S1600000_n_0_0_1
      (broadcastInDim S100000 ![] bcast_S_S100000 (constant (F := Ideal) S_ .f32 0x00000000#32)) (col (dst a1))
      (broadcastInDim S1600000 ![] bcast_S_S1600000 (constant (F := Ideal) S_ .f32 0x3F800000#32)))
    (broadcastInDim S100000 ![] bcast_S_S100000 (constant (F := Ideal) S_ .f32 0x3F800000#32)))
/-- dinv², as one column. -/
def d2col (a1 : IVec S2x1600000 32) : FVec Ideal S100000x1 .f32 :=
  shapeCast _ (mulf (dinv a1) (dinv a1)) shapeCasts_S100000_S100000x1
/-- dinv(source) · dinv(target), per edge. -/
def coef (a1 : IVec S2x1600000 32) : FVec Ideal S1600000 .f32 :=
  mulf (Host.gather gather_S100000_S1600000x1_S1600000_n_0_n_n_0_1_1 (dinv a1) (wrap (src a1)))
    (Host.gather gather_S100000_S1600000x1_S1600000_n_0_n_n_0_1_1 (dinv a1) (wrap (dst a1)))
/-- The neighbour aggregate of a 128-column row matrix. -/
def aggregate (rows : FVec Ideal S100000x128 .f32) (a1 : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32)) (col (dst a1))
    (mulf (Host.gather gather_S100000x128_S1600000x1_S1600000x128_1_0_n_n_0_1_1128 rows (wrap (src a1)))
      (broadcastInDim S1600000x128 ![0, 1] bcast_S1600000x1_S1600000x128_0_1
        (broadcastInDim S1600000x1 ![0] bcast_S1600000_S1600000x1_0 (coef a1))))

variable (x0 : FVec Ideal S100000x256 .f32) (a1 : IVec S2x1600000 32) (eps : FVec Ideal S100000x64 .f32)
  (w1 : FVec Ideal S256x128 .f32) (b1 : FVec Ideal S128 .f32) (wmu : FVec Ideal S128x64 .f32) (bmu : FVec Ideal S64 .f32)
  (wlv : FVec Ideal S128x64 .f32) (blv : FVec Ideal S64 .f32)

/-- The first layer's transform. -/
def h1 : FVec Ideal S100000x128 .f32 := Cert.Spec.dense1 x0 w1
/-- The hidden layer. -/
def hid : FVec Ideal S100000x128 .f32 :=
  Cert.Spec.reluLayer (aggregate (h1 x0 w1) a1) (h1 x0 w1) (d2col a1) (shapeCast _ b1 shapeCasts_S128_S1x128)
/-- The hidden layer's aggregate plus self-loop term, shared by the two heads. -/
def mix : FVec Ideal S100000x128 .f32 :=
  Cert.Spec.selfMix (aggregate (hid x0 a1 w1 b1) a1) (hid x0 a1 w1 b1) (d2col a1)
/-- The mean head. -/
def mu : FVec Ideal S100000x64 .f32 := Cert.Spec.affine (mix x0 a1 w1 b1) wmu (shapeCast _ bmu shapeCasts_S64_S1x64)
/-- The log-variance head. -/
def lv : FVec Ideal S100000x64 .f32 := Cert.Spec.affine (mix x0 a1 w1 b1) wlv (shapeCast _ blv shapeCasts_S64_S1x64)
/-- The sampled code. -/
def z : FVec Ideal S100000x64 .f32 := Cert.Spec.reparam (mu x0 a1 w1 b1 wmu bmu) (lv x0 a1 w1 b1 wlv blv) eps
/-- The code, nodes along the columns. -/
def zt : FVec Ideal S64x100000 .f32 :=
  transpose S64x100000 [1, 0] (z x0 a1 eps w1 b1 wmu bmu wlv blv) transposes_S100000x64_S64x100000_1_0
/-- The edge scores. -/
def dec : FVec Ideal S1600000 .f32 :=
  shapeCast _ (Cert.Spec.edgeScore
    (Host.gather gather_S64x100000_S1600000x1_S64x1600000_0_1_n_n_1_1_641 (zt x0 a1 eps w1 b1 wmu bmu wlv blv) (wrap (src a1)))
    (Host.gather gather_S64x100000_S1600000x1_S64x1600000_0_1_n_n_1_1_641 (zt x0 a1 eps w1 b1 wmu bmu wlv blv) (wrap (dst a1))))
    shapeCasts_S1x1600000_S1600000

end Cert.KernelIdeal.KVal

end
-- ==== Proof.Region0.lean ====
/-
  The first layer's transform, region by region: every grid point multiplies its 4000 rows of the node features by the
  whole weight matrix, and the 25 row blocks tile the result, so the output array is the matrix product index by index.
-/
import proofs.«174899_j84129819394641_2_alg».proof.Proof.Gen.KernelIdeal.Frame
import proofs.«174899_j84129819394641_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem Idealize.ShloMosaic.ValueIdx Idealize.ShloMosaic.Pipeline
open scoped BigOperators

/-- The origin of a rank-2 rectangle, as a constant function. -/
theorem origin0 : (![0, 0] : Fin 2 → Nat) = fun _ => 0 := funext fun a => by fin_cases a <;> rfl

/-- The left operand's row coordinate at an output position is the position's row. -/
theorem lhsRow0 (i : S4000x128.Idx) (u : dot_S4000x256_S256x128_S4000x128_1_0_0_1_n_n.contr.Idx) :
    (dot_S4000x256_S256x128_S4000x128_1_0_0_1_n_n.lhsIdx i u 0).val = (i 0).val := by
  unfold DotDims.lhsIdx
  rw [dif_neg (show ¬(0 : Fin S4000x256.rank) ∈ dot_S4000x256_S256x128_S4000x128_1_0_0_1_n_n.lhsBatch by decide),
    dif_pos (show (0 : Fin S4000x256.rank) ∈ dot_S4000x256_S256x128_S4000x128_1_0_0_1_n_n.lhsNonContracting by decide)]
  rfl
/-- The left operand's column coordinate is the shared coordinate. -/
theorem lhsCol0 (i : S4000x128.Idx) (u : dot_S4000x256_S256x128_S4000x128_1_0_0_1_n_n.contr.Idx) :
    (dot_S4000x256_S256x128_S4000x128_1_0_0_1_n_n.lhsIdx i u 1).val = (u ⟨0, by decide⟩).val :=
  dot_S4000x256_S256x128_S4000x128_1_0_0_1_n_n.lhsIdx_val_of_single rfl i u
/-- The right operand's row coordinate is the shared coordinate. -/
theorem rhsRow0 (i : S4000x128.Idx) (u : dot_S4000x256_S256x128_S4000x128_1_0_0_1_n_n.contr.Idx) :
    (dot_S4000x256_S256x128_S4000x128_1_0_0_1_n_n.rhsIdx i u 0).val = (u ⟨0, by decide⟩).val :=
  dot_S4000x256_S256x128_S4000x128_1_0_0_1_n_n.rhsIdx_val_of_single rfl i u
/-- The right operand's column coordinate at an output position is the position's column. -/
theorem rhsCol0 (i : S4000x128.Idx) (u : dot_S4000x256_S256x128_S4000x128_1_0_0_1_n_n.contr.Idx) :
    (dot_S4000x256_S256x128_S4000x128_1_0_0_1_n_n.rhsIdx i u 1).val = (i 1).val := by
  unfold DotDims.rhsIdx
  rw [dif_neg (show ¬(1 : Fin S256x128.rank) ∈ dot_S4000x256_S256x128_S4000x128_1_0_0_1_n_n.rhsBatch by decide),
    dif_pos (show (1 : Fin S256x128.rank) ∈ dot_S4000x256_S256x128_S4000x128_1_0_0_1_n_n.rhsNonContracting by decide)]
  rfl

/-- The block product at a position: at the extended reals the rounding to bf16 is the identity and the product onto
    the zero accumulator is the sum over the 256 shared coordinates of row p of the left block times column q of the
    right block. -/
theorem blockProduct_apply0 (x : Vec Ideal S4000x256 .f32) (w : Vec Ideal S256x128 .f32) (p : Fin 4000) (q : Fin 128) :
    k0_pay1 (F := Ideal) x w (ix2 p q) = ∑ k : Fin 256, x (ix2 p k) * w (ix2 k q) := by
  unfold k0_pay1
  show FloatOps.matmul dot_S4000x256_S256x128_S4000x128_1_0_0_1_n_n none
      (truncf .bf16 x bitsLt_bf16_f32 : FVec Ideal S4000x256 .bf16) (truncf .bf16 w bitsLt_bf16_f32 : FVec Ideal S256x128 .bf16)
      (constant S4000x128 .f32 0x00000000#32) (ix2 p q) = _
  rw [Ideal.matmul_constant_zero_apply,
    ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q)
      ((contrEquiv1 dot_S4000x256_S256x128_S4000x128_1_0_0_1_n_n 256 rfl rfl).symm k) = ix2 p k :=
    funext fun a => Fin.ext (by
      match a with
      | ⟨0, _⟩ => exact lhsRow0 _ _
      | ⟨1, _⟩ => exact (lhsCol0 _ _).trans hk)
  have er : dot_S4000x256_S256x128_S4000x128_1_0_0_1_n_n.rhsIdx (ix2 p q)
      ((contrEquiv1 dot_S4000x256_S256x128_S4000x128_1_0_0_1_n_n 256 rfl rfl).symm k) = ix2 k q :=
    funext fun a => Fin.ext (by
      match a with
      | ⟨0, _⟩ => exact (rhsRow0 _ _).trans hk
      | ⟨1, _⟩ => exact rhsCol0 _ _)
  rw [el, er]
  rfl

/-- A point's block product is the whole product at the block's place: when the left block's row p is row r of the
    left matrix and the right block's column q is column q of the right matrix. -/
theorem transform_point0 (x : Vec Ideal S4000x256 .f32) (w : Vec Ideal S256x128 .f32)
    (X : Cert.Spec.T100000x256.Idx → EReal) (W : Cert.Spec.T256x128.Idx → EReal) (p : Fin 4000) (q : Fin 128) (r : Fin 100000)
    (hx : ∀ k : Fin 256, x (ix2 p k) = X (ix2 r k)) (hw : ∀ k : Fin 256, w (ix2 k q) = W (ix2 k q)) :
    k0_pay1 (F := Ideal) x w (ix2 p q) = Cert.Spec.dense1 X W (ix2 r q) := by
  rw [blockProduct_apply0]
  unfold Cert.Spec.dense1
  exact Finset.sum_congr rfl fun k _ => by rw [hx k, hw k]

/-- The printed index maps over the 25 points: the rows' block moves with the point, every other block index is 0. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- WHAT POINT t WRITES BACK is block t of the matrix product of the two arrays as the region finds them: the left
    block is rows 4000·t … 4000·t + 3999 of the left array, the right block is the whole right array. -/
theorem flushed_eq0 (c : Dev nD) (t : Fin cfg0.N) :
    (dat0 (F := Ideal) V c).flushed 2 t
      = ((cfg0.win 2).blk t).view.read (Elt Ideal) (Cert.Spec.dense1 (V c main_arg0) (V c main_arg3)) := by
  show (cfg0.win 2).cut (grid0.coords t) ((dat0 (F := Ideal) V c).after 2 t) = _
  rw [after0_2]
  unfold out0_2
  rw [View.canon_unit_zero origin0]
  simp only [View.ld_unit_zero (S := S4000x256) origin0, View.ld_unit_zero (S := S256x128) origin0]
  obtain ⟨e00, e01, e10, e11, e20, e21⟩ := index_facts0 t
  have hN : t.val < 25 := lt_of_lt_of_eq t.isLt (show cfg0.N = 25 from N_0)
  funext j
  obtain ⟨p, q, rfl⟩ : ∃ (p : Fin 4000) (q : Fin 128), j = ix2 p q := ⟨j 0, j 1, eq_ix2 j⟩
  have hp : p.val < 4000 := p.isLt
  refine (transform_point0 (iblk0 V c 0 t) (iblk0 V c 1 t) (V c main_arg0) (V c main_arg3) p q
    ⟨t.val * 4000 + p.val, by omega⟩ (fun k => ?_) (fun k => ?_)).trans ?_
  · show V c main_arg0 (((cfg0.win 0).blk t).view.emb (ix2 p k)) = V c main_arg0 (ix2 ⟨t.val * 4000 + p.val, by omega⟩ k)
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 256 + 1 * k.val = k.val; omega
  · show V c main_arg3 (((cfg0.win 1).blk t).view.emb (ix2 k q)) = V c main_arg3 (ix2 k q)
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · show Cert.Spec.dense1 (V c main_arg0) (V c main_arg3) (ix2 ⟨t.val * 4000 + p.val, by omega⟩ q)
      = Cert.Spec.dense1 (V c main_arg0) (V c main_arg3) (((cfg0.win 2).blk t).view.emb (ix2 p q))
    refine congrArg _ (funext fun a => Fin.ext ?_)
    match a with
    | ⟨0, _⟩ => show t.val * 4000 + p.val = win0_2.index t (0 : Fin 2) * 4000 + 1 * p.val; omega
    | ⟨1, _⟩ => show q.val = win0_2.index t (1 : Fin 2) * 128 + 1 * q.val; omega

/-- An index of the output array is in point t's block iff each coordinate is in the block's range on its axis. -/
theorem mem_block0 (t : Fin cfg0.N) (i : S100000x128.Idx) :
    i ∈ ((cfg0.win 2).blk t).view.set ↔ ∀ a : Fin 2, win0_2.index t a * S4000x128.size a ≤ (i a).val
      ∧ (i a).val < win0_2.index t a * S4000x128.size a + S4000x128.size a := by
  show i ∈ ((View.whole main_v28).slice (win0_2.rect t)).set ↔ _
  rw [View.set_slice_whole, Rect.mem_set_unit]
  exact Iff.rfl

/-- The 25 row blocks tile the output: row r is in the block of point r / 4000, and every point writes back. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, e20, e21⟩ := index_facts0 t
  refine ⟨t, flush0_2 t, ?_⟩
  rw [mem_block0]
  intro a
  match a with
  | ⟨0, _⟩ =>
    show win0_2.index t (0 : Fin 2) * 4000 ≤ (i 0).val ∧ (i 0).val < win0_2.index t (0 : Fin 2) * 4000 + 4000
    omega
  | ⟨1, _⟩ =>
    show win0_2.index t (1 : Fin 2) * 128 ≤ (i 1).val ∧ (i 1).val < win0_2.index t (1 : Fin 2) * 128 + 128
    omega

/-- THE OUTPUT ARRAY after the region: the matrix product of the two input arrays, index by index. -/
theorem final0 (c : Dev nD) :
    (dat0 (F := Ideal) V c).arrAt 2 cfg0.N = Cert.Spec.dense1 (V c main_arg0) (V c main_arg3) :=
  (dat0 (F := Ideal) V c).arrAt_eq_of_cover 2 (Cert.Spec.dense1 (V c main_arg0) (V c main_arg3))
    (fun t _ => flushed_eq0 V c t) cover0

end Cert.KernelIdeal.RegionVal

end
-- ==== Proof.LibColumnSpread.lean ====
/-
  A column and a row spread over a matrix, read at an entry.

  Spreading a one-column array over b columns gives, at (p, q), the column's entry of row p; spreading a vector of
  length b over a rows (first viewed as one row, then repeated) gives, at (p, q), the vector's entry q. Both hold for
  any element type and any extents.
-/
import Idealize.ShloMosaic.Lib.Pipeline.Value
import Idealize.ShloMosaic.Lib.ValueIdx
import Idealize.ShloMosaic.Lib.ValueLayout

namespace Cert.LibColumnSpread

open Idealize.ShloMosaic Idealize.ShloMosaic.ValueIdx

variable {α : Type}

/-- A column [a, 1] spread to [a, b] reads, at (p, q), the column's entry of row p: on the row axis the coordinate is
    kept (also when a = 1, where it can only be 0), on the unit axis it is 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] viewed as one row [1, b] and spread to [a, b] reads, at (p, q), the vector's entry q: the repeated
    row is the vector, whatever the row p. -/
theorem broadcastTo_shapeCast_b_ab_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) := by
  rw [broadcastTo_1b_ab_apply, shapeCast_a_1a_apply]

end Cert.LibColumnSpread
-- ==== Proof.Region1.lean ====
/-
  The hidden layer, region by region: every grid point combines its 4000 rows — the neighbour aggregate, the node's own
  transformed row scaled by its degree factor, the bias row — and clips below at zero; the 25 row blocks tile the
  result, so the output array is the layer's formula index by index.
-/
import proofs.«174899_j84129819394641_2_alg».proof.Proof.Gen.KernelIdeal.Frame
import proofs.«174899_j84129819394641_2_alg».proof.Proof.Spec
import proofs.«174899_j84129819394641_2_alg».proof.Proof.LibColumnSpread
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionVal

open Cert.KernelIdeal Cert.KernelIdeal.Gen Idealize.ShloMosaic Idealize.ShloMosaic.TcCoe Idealize.SL.Sem Idealize.ShloMosaic.ValueIdx Idealize.ShloMosaic.Pipeline
open scoped BigOperators

/-- The origin of a rank-2 rectangle, as a constant function. -/
theorem origin1 : (![0, 0] : Fin 2 → Nat) = fun _ => 0 := funext fun a => by fin_cases a <;> rfl

/-- The block's combination at a position: the casts to the same shape are the identity, the degree column is spread
    along the row and the bias row along the column, and the clip is the maximum with the zero word's value. -/
theorem combine_apply1 (agg h : Vec Ideal S4000x128 .f32) (d : Vec Ideal S4000x1 .f32) (b : Vec Ideal S1x128 .f32)
    (p : Fin 4000) (q : Fin 128) :
    k1_pay1 (F := Ideal) agg h d b (ix2 p q)
      = max (agg (ix2 p q) + h (ix2 p q) * d (ix2 p (0 : Fin 1)) + b (ix2 (0 : Fin 1) q)) (Ideal.ofBits .f32 0x00000000#32) := by
  unfold k1_pay1
  simp only [shapeCast_self]
  rw [maximumf_apply, addf_apply, addf_apply, mulf_apply, broadcast_apply,
    Cert.LibColumnSpread.broadcastTo_a1_ab_apply, broadcastTo_1b_ab_apply]
  rfl

/-- A point's combination is the layer's formula at the block's place: when row p of each row block is row r of its
    array and the bias block is the bias array. -/
theorem combine_point1 (agg h : Vec Ideal S4000x128 .f32) (d : Vec Ideal S4000x1 .f32) (b : Vec Ideal S1x128 .f32)
    (A H : Cert.Spec.T100000x128.Idx → EReal) (D : Cert.Spec.T100000x1.Idx → EReal) (B : Cert.Spec.T1x128.Idx → EReal)
    (p : Fin 4000) (q : Fin 128) (r : Fin 100000)
    (ha : agg (ix2 p q) = A (ix2 r q)) (hh : h (ix2 p q) = H (ix2 r q))
    (hd : d (ix2 p (0 : Fin 1)) = D (ix2 r (0 : Fin 1))) (hb : b (ix2 (0 : Fin 1) q) = B (ix2 (0 : Fin 1) q)) :
    k1_pay1 (F := Ideal) agg h d b (ix2 p q) = Cert.Spec.reluLayer A H D B (ix2 r q) := by
  rw [combine_apply1, ha, hh, hd, hb]
  rfl

/-- The printed index maps over the 25 points: each row block moves with the point, every other block index is 0. -/
theorem index_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- WHAT POINT t WRITES BACK is block t of the layer's formula of the four arrays as the region finds them: each row
    block is rows 4000·t … 4000·t + 3999 of its array, the bias block is the whole bias row. -/
theorem flushed_eq1 (c : Dev nD) (t : Fin cfg1.N) :
    (dat1 (F := Ideal) V c).flushed 4 t
      = ((cfg1.win 4).blk t).view.read (Elt Ideal)
          (Cert.Spec.reluLayer (V c main_v41) (V c main_v28) (V c main_v12) (V c main_v42)) := by
  show (cfg1.win 4).cut (grid1.coords t) ((dat1 (F := Ideal) V c).after 4 t) = _
  rw [after1_4]
  unfold out1_4
  rw [View.canon_unit_zero origin1]
  simp only [View.ld_unit_zero (S := S4000x128) origin1, View.ld_unit_zero (S := S4000x1) origin1,
    View.ld_unit_zero (S := S1x128) origin1]
  obtain ⟨e00, e01, e10, e11, e20, e21, e30, e31, e40, e41⟩ := index_facts1 t
  have hN : t.val < 25 := lt_of_lt_of_eq t.isLt (show cfg1.N = 25 from N_1)
  funext j
  obtain ⟨p, q, rfl⟩ : ∃ (p : Fin 4000) (q : Fin 128), j = ix2 p q := ⟨j 0, j 1, eq_ix2 j⟩
  have hp : p.val < 4000 := p.isLt
  refine (combine_point1 (iblk1 V c 0 t) (iblk1 V c 1 t) (iblk1 V c 2 t) (iblk1 V c 3 t)
    (V c main_v41) (V c main_v28) (V c main_v12) (V c main_v42) p q
    ⟨t.val * 4000 + p.val, by omega⟩ ?_ ?_ ?_ ?_).trans ?_
  · show V c main_v41 (((cfg1.win 0).blk t).view.emb (ix2 p q)) = V c main_v41 (ix2 ⟨t.val * 4000 + p.val, by omega⟩ q)
    refine congrArg _ (funext fun a => Fin.ext ?_)
    match a with
    | ⟨0, _⟩ => show win1_0.index t (0 : Fin 2) * 4000 + 1 * p.val = t.val * 4000 + p.val; omega
    | ⟨1, _⟩ => show win1_0.index t (1 : Fin 2) * 128 + 1 * q.val = q.val; omega
  · show V c main_v28 (((cfg1.win 1).blk t).view.emb (ix2 p q)) = V c main_v28 (ix2 ⟨t.val * 4000 + p.val, by omega⟩ q)
    refine congrArg _ (funext fun a => Fin.ext ?_)
    match a with
    | ⟨0, _⟩ => show win1_1.index t (0 : Fin 2) * 4000 + 1 * p.val = t.val * 4000 + p.val; omega
    | ⟨1, _⟩ => show win1_1.index t (1 : Fin 2) * 128 + 1 * q.val = q.val; omega
  · show V c main_v12 (((cfg1.win 2).blk t).view.emb (ix2 p (0 : Fin 1)))
      = V c main_v12 (ix2 ⟨t.val * 4000 + p.val, by omega⟩ (0 : Fin 1))
    refine congrArg _ (funext fun a => Fin.ext ?_)
    match a with
    | ⟨0, _⟩ => show win1_2.index t (0 : Fin 2) * 4000 + 1 * p.val = t.val * 4000 + p.val; omega
    | ⟨1, _⟩ => show win1_2.index t (1 : Fin 2) * 1 + 1 * 0 = 0; omega
  · show V c main_v42 (((cfg1.win 3).blk t).view.emb (ix2 (0 : Fin 1) q)) = V c main_v42 (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · show Cert.Spec.reluLayer (V c main_v41) (V c main_v28) (V c main_v12) (V c main_v42) (ix2 ⟨t.val * 4000 + p.val, by omega⟩ q)
      = Cert.Spec.reluLayer (V c main_v41) (V c main_v28) (V c main_v12) (V c main_v42) (((cfg1.win 4).blk t).view.emb (ix2 p q))
    refine congrArg _ (funext fun a => Fin.ext ?_)
    match a with
    | ⟨0, _⟩ => show t.val * 4000 + p.val = win1_4.index t (0 : Fin 2) * 4000 + 1 * p.val; omega
    | ⟨1, _⟩ => show q.val = win1_4.index t (1 : Fin 2) * 128 + 1 * q.val; omega

/-- An index of the output array is in point t's block iff each coordinate is in the block's range on its axis. -/
theorem mem_block1 (t : Fin cfg1.N) (i : S100000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v43).slice (win1_4.rect t)).set ↔ _
  rw [View.set_slice_whole, Rect.mem_set_unit]
  exact Iff.rfl

/-- The 25 row blocks tile the output: row r is in the block of point r / 4000, and every point writes back. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, e40, e41⟩ := index_facts1 t
  refine ⟨t, flush1_4 t, ?_⟩
  rw [mem_block1]
  intro a
  match a with
  | ⟨0, _⟩ =>
    show win1_4.index t (0 : Fin 2) * 4000 ≤ (i 0).val ∧ (i 0).val < win1_4.index t (0 : Fin 2) * 4000 + 4000
    omega
  | ⟨1, _⟩ =>
    show win1_4.index t (1 : Fin 2) * 128 ≤ (i 1).val ∧ (i 1).val < win1_4.index t (1 : Fin 2) * 128 + 128
    omega

/-- THE OUTPUT ARRAY after the region: the hidden layer's formula of the four input arrays, index by index. -/
theorem final1 (c : Dev nD) :
    (dat1 (F := Ideal) V c).arrAt 4 cfg1.N
      = Cert.Spec.reluLayer (V c main_v41) (V c main_v28) (V c main_v12) (V c main_v42) :=
  (dat1 (F := Ideal) V c).arrAt_eq_of_cover 4
    (Cert.Spec.reluLayer (V c main_v41) (V c main_v28) (V c main_v12) (V c main_v42))
    (fun t _ => flushed_eq1 V c t) cover1

end Cert.KernelIdeal.RegionVal

end
-- ==== Proof.Region2.lean ====
/-
  The third region of the graph auto-encoder: from the neighbour aggregate, the hidden rows and the squared inverse root
  degrees, the mean, the log-variance and the sampled code, as whole-array functions.

  Each grid point t owns rows 4000·t … 4000·t + 3999. Its body mixes the aggregate block with the hidden block scaled
  row by row, multiplies the mixed rows by each of two 128 × 64 matrices onto zero, adds the matrix's bias row, and
  forms mean + noise · exp (½ · log-variance). Read at one entry over the extended reals, these are the functions
  affine (selfMix …) and reparam of the specification, at the entry's row of the array; the 25 blocks tile the
  100000 rows, so each output array ends as that function of the input arrays.
-/
import proofs.«174899_j84129819394641_2_alg».proof.Proof.Gen.KernelIdeal.Frame
import proofs.«174899_j84129819394641_2_alg».proof.Proof.Spec
import proofs.«174899_j84129819394641_2_alg».proof.Proof.LibColumnSpread
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionVal

open Cert.KernelIdeal Cert.KernelIdeal.Gen Idealize.ShloMosaic Idealize.ShloMosaic.TcCoe Idealize.SL.Sem Idealize.ShloMosaic.ValueIdx Idealize.ShloMosaic.Pipeline

/-! ## The body's arithmetic at one entry of a block

Rows of the block are indexed by p < 4000; the hidden width is 128, the code width 64. -/

/-- The zero offsets of an access to a whole buffer, as the constant function. -/
theorem zero_offsets2 : (![0, 0] : Fin 2 → Nat) = fun _ => 0 := funext fun a => by fin_cases a <;> rfl

/-- The mixed rows: aggregate plus own row times the row's scale, at (p, q). -/
theorem mixed_apply2 (x0 x1 : FVec Ideal S4000x128 .f32) (x2 : FVec Ideal S4000x1 .f32) (p : Fin 4000) (q : Fin 128) :
    k2_pay1 (F := Ideal) x0 x1 x2 (ix2 p q) = x0 (ix2 p q) + x1 (ix2 p q) * x2 (ix2 p (0 : Fin 1)) := by
  unfold k2_pay1
  simp only [shapeCast_self]
  exact congrArg (fun z => x0 (ix2 p q) + x1 (ix2 p q) * z)
    (Cert.LibColumnSpread.broadcastTo_a1_ab_apply x2 broadcasts_S4000x1_S4000x128 p q)

/-- The left operand of the contraction is read at the output's row … -/
theorem contract_lhs_row2 (i : S4000x64.Idx) (k : dot_S4000x128_S128x64_S4000x64_1_0_0_1_n_n.contr.Idx) :
    (dot_S4000x128_S128x64_S4000x64_1_0_0_1_n_n.lhsIdx i k 0).val = (i 0).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl

/-- … and the right operand at the output's column. -/
theorem contract_rhs_col2 (i : S4000x64.Idx) (k : dot_S4000x128_S128x64_S4000x64_1_0_0_1_n_n.contr.Idx) :
    (dot_S4000x128_S128x64_S4000x64_1_0_0_1_n_n.rhsIdx i k 1).val = (i 1).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

/-- The matrix product onto zero at (p, q): the sum over the shared axis of row p times column q. -/
theorem contract_apply2 (s : FVec Ideal S4000x128 .bf16) (w : FVec Ideal S128x64 .bf16) (p : Fin 4000) (q : Fin 64) :
    matmul dot_S4000x128_S128x64_S4000x64_1_0_0_1_n_n none s w (constant (F := Ideal) S4000x64 .f32 0x00000000#32) (ix2 p q)
      = ∑ k : Fin 128, s (ix2 p k) * w (ix2 k q) := by
  refine (Ideal.matmul_constant_zero_apply dot_S4000x128_S128x64_S4000x64_1_0_0_1_n_n none s w (ix2 p q)).trans ?_
  rw [← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q)
      ((contrEquiv1 dot_S4000x128_S128x64_S4000x64_1_0_0_1_n_n 128 rfl rfl).symm k) = ix2 p k := funext fun a => Fin.ext (by
    match a with
    | ⟨0, _⟩ => exact contract_lhs_row2 _ _
    | ⟨1, _⟩ => exact (dot_S4000x128_S128x64_S4000x64_1_0_0_1_n_n.lhsIdx_val_of_single rfl _ _).trans hk)
  have er : dot_S4000x128_S128x64_S4000x64_1_0_0_1_n_n.rhsIdx (ix2 p q)
      ((contrEquiv1 dot_S4000x128_S128x64_S4000x64_1_0_0_1_n_n 128 rfl rfl).symm k) = ix2 k q := funext fun a => Fin.ext (by
    match a with
    | ⟨0, _⟩ => exact (dot_S4000x128_S128x64_S4000x64_1_0_0_1_n_n.rhsIdx_val_of_single rfl _ _).trans hk
    | ⟨1, _⟩ => exact contract_rhs_col2 _ _)
  rw [el, er]

/-- The transformed rows plus the bias row, at (p, q): the body's first output. -/
theorem affine_block_apply2 (x0 x1 : FVec Ideal S4000x128 .f32) (x2 : FVec Ideal S4000x1 .f32)
    (w : FVec Ideal S128x64 .f32) (b : FVec Ideal S1x64 .f32) (p : Fin 4000) (q : Fin 64) :
    k2_pay2 (F := Ideal) x0 x1 x2 w b (ix2 p q)
      = (∑ k : Fin 128, (x0 (ix2 p k) + x1 (ix2 p k) * x2 (ix2 p (0 : Fin 1))) * w (ix2 k q)) + b (ix2 (0 : Fin 1) q) := by
  unfold k2_pay2
  simp only [shapeCast_self]
  refine (congrArg₂ (· + ·)
    (contract_apply2 (k2_pay1 (F := Ideal) x0 x1 x2) (truncf .bf16 w bitsLt_bf16_f32) p q)
    (broadcastTo_1b_ab_apply b broadcasts_S1x64_S4000x64 p q)).trans ?_
  refine congrArg (· + b (ix2 (0 : Fin 1) q)) (Finset.sum_congr rfl fun k _ => ?_)
  rw [mixed_apply2]
  rfl

/-- The body's second output is the same function of its own matrix and bias row. -/
theorem second_eq_first2 (x0 x1 : FVec Ideal S4000x128 .f32) (x2 : FVec Ideal S4000x1 .f32)
    (w : FVec Ideal S128x64 .f32) (b : FVec Ideal S1x64 .f32) :
    k2_pay3 (F := Ideal) x0 x1 x2 w b = k2_pay2 (F := Ideal) x0 x1 x2 w b := rfl

/-- The body's third output at (p, q): the first plus the noise times exp of half the second. -/
theorem sample_block_apply2 (x0 x1 : FVec Ideal S4000x128 .f32) (x2 : FVec Ideal S4000x1 .f32)
    (wm wl : FVec Ideal S128x64 .f32) (bm bl : FVec Ideal S1x64 .f32) (e : FVec Ideal S4000x64 .f32) (p : Fin 4000) (q : Fin 64) :
    k2_pay4 (F := Ideal) x0 x1 x2 wm wl bm bl e (ix2 p q)
      = k2_pay2 (F := Ideal) x0 x1 x2 wm bm (ix2 p q)
        + e (ix2 p q) * Ideal.exp (Ideal.ofBits .f32 0x3F000000#32 * k2_pay2 (F := Ideal) x0 x1 x2 wl bl (ix2 p q)) := by
  unfold k2_pay4
  rw [second_eq_first2]
  rfl

/-! ## One entry of the body's outputs from the whole arrays

Entry (p, q) of the block at rows 4000·t … is entry (r, q) of the array, r the block's row p: stated over the loaded
blocks as variables, each tied to its array by what it holds at the entries the output entry reads. -/

/-- The first (or second) output at (p, q) is the transform of the mixed rows plus the bias, at (r, q). -/
theorem affine_of_blocks2 (A H : Cert.Spec.T100000x128.Idx → EReal) (D : Cert.Spec.T100000x1.Idx → EReal)
    (W : Cert.Spec.T128x64.Idx → EReal) (B : Cert.Spec.T1x64.Idx → EReal)
    (x0 x1 : FVec Ideal S4000x128 .f32) (x2 : FVec Ideal S4000x1 .f32) (w : FVec Ideal S128x64 .f32) (b : FVec Ideal S1x64 .f32)
    (p : Fin 4000) (q : Fin 64) (r : Fin 100000)
    (h0 : ∀ k : Fin 128, x0 (ix2 p k) = A (ix2 r k)) (h1 : ∀ k : Fin 128, x1 (ix2 p k) = H (ix2 r k))
    (h2 : x2 (ix2 p (0 : Fin 1)) = D (ix2 r (0 : Fin 1)))
    (h3 : ∀ k : Fin 128, w (ix2 k q) = W (ix2 k q)) (h4 : b (ix2 (0 : Fin 1) q) = B (ix2 (0 : Fin 1) q)) :
    k2_pay2 (F := Ideal) x0 x1 x2 w b (ix2 p q) = Cert.Spec.affine (Cert.Spec.selfMix A H D) W B (ix2 r q) := by
  rw [affine_block_apply2, h2, h4]
  show _ = (∑ k : Fin 128, (A (ix2 r k) + H (ix2 r k) * D (ix2 r (0 : Fin 1))) * W (ix2 k q)) + B (ix2 (0 : Fin 1) q)
  refine congrArg (· + B (ix2 (0 : Fin 1) q)) (Finset.sum_congr rfl fun k _ => ?_)
  rw [h0, h1, h3]

/-- The third output at (p, q) is the sampled code at (r, q). -/
theorem sample_of_blocks2 (A H : Cert.Spec.T100000x128.Idx → EReal) (D : Cert.Spec.T100000x1.Idx → EReal)
    (Wm Wl : Cert.Spec.T128x64.Idx → EReal) (Bm Bl : Cert.Spec.T1x64.Idx → EReal) (E : Cert.Spec.T100000x64.Idx → EReal)
    (x0 x1 : FVec Ideal S4000x128 .f32) (x2 : FVec Ideal S4000x1 .f32) (wm wl : FVec Ideal S128x64 .f32)
    (bm bl : FVec Ideal S1x64 .f32) (e : FVec Ideal S4000x64 .f32)
    (p : Fin 4000) (q : Fin 64) (r : Fin 100000)
    (h0 : ∀ k : Fin 128, x0 (ix2 p k) = A (ix2 r k)) (h1 : ∀ k : Fin 128, x1 (ix2 p k) = H (ix2 r k))
    (h2 : x2 (ix2 p (0 : Fin 1)) = D (ix2 r (0 : Fin 1)))
    (h3 : ∀ k : Fin 128, wm (ix2 k q) = Wm (ix2 k q)) (h4 : bm (ix2 (0 : Fin 1) q) = Bm (ix2 (0 : Fin 1) q))
    (h5 : ∀ k : Fin 128, wl (ix2 k q) = Wl (ix2 k q)) (h6 : bl (ix2 (0 : Fin 1) q) = Bl (ix2 (0 : Fin 1) q))
    (h7 : e (ix2 p q) = E (ix2 r q)) :
    k2_pay4 (F := Ideal) x0 x1 x2 wm wl bm bl e (ix2 p q)
      = Cert.Spec.reparam (Cert.Spec.affine (Cert.Spec.selfMix A H D) Wm Bm) (Cert.Spec.affine (Cert.Spec.selfMix A H D) Wl Bl) E (ix2 r q) := by
  rw [sample_block_apply2, affine_of_blocks2 A H D Wm Bm x0 x1 x2 wm bm p q r h0 h1 h2 h3 h4,
    affine_of_blocks2 A H D Wl Bl x0 x1 x2 wl bl p q r h0 h1 h2 h5 h6, h7]
  rfl

/-! ## Where the windows' blocks sit

Grid point t moves the row windows to block t and leaves the whole-array windows at block 0. -/

theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0
    ∧ win2_9.index t (0 : Fin 2) = t.val ∧ win2_9.index t (1 : Fin 2) = 0
    ∧ win2_10.index t (0 : Fin 2) = t.val ∧ win2_10.index t (1 : Fin 2) = 0 :=
  (by decide +kernel : ∀ t : Fin grid2.N, _)

section Blocks
variable (V : (c : Dev nD) → (b : Ref sig .tc) → Buf (Elt Ideal) ((c : Thread nD τ).loc b)) (c : Dev nD) (t : Fin cfg2.N)

/-- The aggregate's block at t holds rows 4000·t … of the aggregate. -/
theorem agg_block2 (p : Fin 4000) (k : Fin 128) (r : Fin 100000) (hr : r.val = 4000 * t.val + p.val) :
    (iblk2 (F := Ideal) V c 0 t : FVec Ideal S4000x128 .f32) (ix2 p k) = (V c main_v56 : S100000x128.Idx → EReal) (ix2 r k) := by
  obtain ⟨e0, e1, -⟩ := block_index2 t
  have he : ((cfg2.win 0).blk t).view.emb (ix2 p k) = (ix2 r k : S100000x128.Idx) := by
    funext a; apply Fin.ext
    match a with
    | ⟨0, _⟩ => show win2_0.index t (0 : Fin 2) * 4000 + 1 * p.val = r.val; rw [e0, hr]; omega
    | ⟨1, _⟩ => show win2_0.index t (1 : Fin 2) * 128 + 1 * k.val = k.val; rw [e1]; omega
  show V c main_v56 (((cfg2.win 0).blk t).view.emb (ix2 p k)) = _
  rw [he]

/-- The hidden rows' block at t holds rows 4000·t … of the hidden rows. -/
theorem hid_block2 (p : Fin 4000) (k : Fin 128) (r : Fin 100000) (hr : r.val = 4000 * t.val + p.val) :
    (iblk2 (F := Ideal) V c 1 t : FVec Ideal S4000x128 .f32) (ix2 p k) = (V c main_v43 : S100000x128.Idx → EReal) (ix2 r k) := by
  obtain ⟨-, -, e0, e1, -⟩ := block_index2 t
  have he : ((cfg2.win 1).blk t).view.emb (ix2 p k) = (ix2 r k : S100000x128.Idx) := by
    funext a; apply Fin.ext
    match a with
    | ⟨0, _⟩ => show win2_1.index t (0 : Fin 2) * 4000 + 1 * p.val = r.val; rw [e0, hr]; omega
    | ⟨1, _⟩ => show win2_1.index t (1 : Fin 2) * 128 + 1 * k.val = k.val; rw [e1]; omega
  show V c main_v43 (((cfg2.win 1).blk t).view.emb (ix2 p k)) = _
  rw [he]

/-- The scale column's block at t holds rows 4000·t … of the scale column. -/
theorem scale_block2 (p : Fin 4000) (r : Fin 100000) (hr : r.val = 4000 * t.val + p.val) :
    (iblk2 (F := Ideal) V c 2 t : FVec Ideal S4000x1 .f32) (ix2 p (0 : Fin 1)) = (V c main_v12 : S100000x1.Idx → EReal) (ix2 r (0 : Fin 1)) := by
  obtain ⟨-, -, -, -, e0, e1, -⟩ := block_index2 t
  have he : ((cfg2.win 2).blk t).view.emb (ix2 p (0 : Fin 1)) = (ix2 r (0 : Fin 1) : S100000x1.Idx) := by
    funext a; apply Fin.ext
    match a with
    | ⟨0, _⟩ => show win2_2.index t (0 : Fin 2) * 4000 + 1 * p.val = r.val; rw [e0, hr]; omega
    | ⟨1, _⟩ => show win2_2.index t (1 : Fin 2) * 1 + 1 * 0 = 0; rw [e1]
  show V c main_v12 (((cfg2.win 2).blk t).view.emb (ix2 p (0 : Fin 1))) = _
  rw [he]

/-- The first matrix's block is the matrix at every point. -/
theorem wmu_block2 (k : Fin 128) (q : Fin 64) :
    (iblk2 (F := Ideal) V c 3 t : FVec Ideal S128x64 .f32) (ix2 k q) = (V c main_arg5 : S128x64.Idx → EReal) (ix2 k q) := by
  obtain ⟨-, -, -, -, -, -, e0, e1, -⟩ := block_index2 t
  have he : ((cfg2.win 3).blk t).view.emb (ix2 k q) = (ix2 k q : S128x64.Idx) := by
    funext a; apply Fin.ext
    match a with
    | ⟨0, _⟩ => show win2_3.index t (0 : Fin 2) * 128 + 1 * k.val = k.val; rw [e0]; omega
    | ⟨1, _⟩ => show win2_3.index t (1 : Fin 2) * 64 + 1 * q.val = q.val; rw [e1]; omega
  show V c main_arg5 (((cfg2.win 3).blk t).view.emb (ix2 k q)) = _
  rw [he]

/-- The second matrix's block is the matrix at every point. -/
theorem wlv_block2 (k : Fin 128) (q : Fin 64) :
    (iblk2 (F := Ideal) V c 4 t : FVec Ideal S128x64 .f32) (ix2 k q) = (V c main_arg7 : S128x64.Idx → EReal) (ix2 k q) := by
  obtain ⟨-, -, -, -, -, -, -, -, e0, e1, -⟩ := block_index2 t
  have he : ((cfg2.win 4).blk t).view.emb (ix2 k q) = (ix2 k q : S128x64.Idx) := by
    funext a; apply Fin.ext
    match a with
    | ⟨0, _⟩ => show win2_4.index t (0 : Fin 2) * 128 + 1 * k.val = k.val; rw [e0]; omega
    | ⟨1, _⟩ => show win2_4.index t (1 : Fin 2) * 64 + 1 * q.val = q.val; rw [e1]; omega
  show V c main_arg7 (((cfg2.win 4).blk t).view.emb (ix2 k q)) = _
  rw [he]

/-- The first bias row's block is the row at every point. -/
theorem bmu_block2 (q : Fin 64) :
    (iblk2 (F := Ideal) V c 5 t : FVec Ideal S1x64 .f32) (ix2 (0 : Fin 1) q) = (V c main_v57 : S1x64.Idx → EReal) (ix2 (0 : Fin 1) q) := by
  obtain ⟨-, -, -, -, -, -, -, -, -, -, e0, e1, -⟩ := block_index2 t
  have he : ((cfg2.win 5).blk t).view.emb (ix2 (0 : Fin 1) q) = (ix2 (0 : Fin 1) q : S1x64.Idx) := by
    funext a; apply Fin.ext
    match a with
    | ⟨0, _⟩ => show win2_5.index t (0 : Fin 2) * 1 + 1 * 0 = 0; rw [e0]
    | ⟨1, _⟩ => show win2_5.index t (1 : Fin 2) * 64 + 1 * q.val = q.val; rw [e1]; omega
  show V c main_v57 (((cfg2.win 5).blk t).view.emb (ix2 (0 : Fin 1) q)) = _
  rw [he]

/-- The second bias row's block is the row at every point. -/
theorem blv_block2 (q : Fin 64) :
    (iblk2 (F := Ideal) V c 6 t : FVec Ideal S1x64 .f32) (ix2 (0 : Fin 1) q) = (V c main_v58 : S1x64.Idx → EReal) (ix2 (0 : Fin 1) q) := by
  obtain ⟨-, -, -, -, -, -, -, -, -, -, -, -, e0, e1, -⟩ := block_index2 t
  have he : ((cfg2.win 6).blk t).view.emb (ix2 (0 : Fin 1) q) = (ix2 (0 : Fin 1) q : S1x64.Idx) := by
    funext a; apply Fin.ext
    match a with
    | ⟨0, _⟩ => show win2_6.index t (0 : Fin 2) * 1 + 1 * 0 = 0; rw [e0]
    | ⟨1, _⟩ => show win2_6.index t (1 : Fin 2) * 64 + 1 * q.val = q.val; rw [e1]; omega
  show V c main_v58 (((cfg2.win 6).blk t).view.emb (ix2 (0 : Fin 1) q)) = _
  rw [he]

/-- The noise's block at t holds rows 4000·t … of the noise. -/
theorem noise_block2 (p : Fin 4000) (q : Fin 64) (r : Fin 100000) (hr : r.val = 4000 * t.val + p.val) :
    (iblk2 (F := Ideal) V c 7 t : FVec Ideal S4000x64 .f32) (ix2 p q) = (V c main_arg2 : S100000x64.Idx → EReal) (ix2 r q) := by
  obtain ⟨-, -, -, -, -, -, -, -, -, -, -, -, -, -, e0, e1, -⟩ := block_index2 t
  have he : ((cfg2.win 7).blk t).view.emb (ix2 p q) = (ix2 r q : S100000x64.Idx) := by
    funext a; apply Fin.ext
    match a with
    | ⟨0, _⟩ => show win2_7.index t (0 : Fin 2) * 4000 + 1 * p.val = r.val; rw [e0, hr]; omega
    | ⟨1, _⟩ => show win2_7.index t (1 : Fin 2) * 64 + 1 * q.val = q.val; rw [e1]; omega
  show V c main_arg2 (((cfg2.win 7).blk t).view.emb (ix2 p q)) = _
  rw [he]

end Blocks

/-! ## What each grid point writes back -/

section Flushed
variable (V : (c : Dev nD) → (b : Ref sig .tc) → Buf (Elt Ideal) ((c : Thread nD τ).loc b)) (c : Dev nD) (t : Fin cfg2.N)

/-- Point t writes back block t of the mean: the transform of the mixed rows by the first matrix plus its bias. -/
theorem mu_flushed2 :
    (dat2 (F := Ideal) V c).flushed 8 t = ((cfg2.win 8).blk t).view.read (Elt Ideal)
      (Cert.Spec.affine (Cert.Spec.selfMix (V c main_v56) (V c main_v43) (V c main_v12)) (V c main_arg5) (V c main_v57)) := by
  show (cfg2.win 8).cut (grid2.coords t) ((dat2 V c).after 8 t) = _
  rw [after2_8]
  unfold out2_8
  rw [View.canon_unit_zero zero_offsets2]
  simp only [View.ld_unit_zero (S := S4000x128) zero_offsets2, View.ld_unit_zero (S := S4000x1) zero_offsets2,
    View.ld_unit_zero (S := S128x64) zero_offsets2, View.ld_unit_zero (S := S1x64) zero_offsets2,
    View.ld_unit_zero (S := S4000x64) zero_offsets2]
  funext j
  obtain ⟨p, q, rfl⟩ : ∃ (p : Fin 4000) (q : Fin 64), j = ix2 p q := ⟨j 0, j 1, eq_ix2 (n0 := 4000) (n1 := 64) j⟩
  have hN : t.val < 25 := Nat.lt_of_lt_of_eq t.isLt N_2
  obtain ⟨r, hr⟩ : ∃ r : Fin 100000, r.val = 4000 * t.val + p.val := ⟨⟨4000 * t.val + p.val, by have := p.isLt; omega⟩, rfl⟩
  have he : ((cfg2.win 8).blk t).view.emb (ix2 p q) = (ix2 r q : S100000x64.Idx) := by
    obtain ⟨-, -, -, -, -, -, -, -, -, -, -, -, -, -, -, -, e0, e1, -⟩ := block_index2 t
    funext a; apply Fin.ext
    match a with
    | ⟨0, _⟩ => show win2_8.index t (0 : Fin 2) * 4000 + 1 * p.val = r.val; rw [e0, hr]; omega
    | ⟨1, _⟩ => show win2_8.index t (1 : Fin 2) * 64 + 1 * q.val = q.val; rw [e1]; omega
  show k2_pay2 (F := Ideal) _ _ _ _ _ (ix2 p q) = (Cert.Spec.affine (Cert.Spec.selfMix (V c main_v56) (V c main_v43) (V c main_v12)) (V c main_arg5) (V c main_v57)) (((cfg2.win 8).blk t).view.emb (ix2 p q))
  rw [he]
  exact affine_of_blocks2 _ _ _ _ _ _ _ _ _ _ p q r (fun k => agg_block2 V c t p k r hr) (fun k => hid_block2 V c t p k r hr)
    (scale_block2 V c t p r hr) (fun k => wmu_block2 V c t k q) (bmu_block2 V c t q)

/-- Point t writes back block t of the log-variance: the same with the second matrix and bias. -/
theorem lv_flushed2 :
    (dat2 (F := Ideal) V c).flushed 9 t = ((cfg2.win 9).blk t).view.read (Elt Ideal)
      (Cert.Spec.affine (Cert.Spec.selfMix (V c main_v56) (V c main_v43) (V c main_v12)) (V c main_arg7) (V c main_v58)) := by
  show (cfg2.win 9).cut (grid2.coords t) ((dat2 V c).after 9 t) = _
  rw [after2_9]
  unfold out2_9
  rw [View.canon_unit_zero zero_offsets2]
  simp only [View.ld_unit_zero (S := S4000x128) zero_offsets2, View.ld_unit_zero (S := S4000x1) zero_offsets2,
    View.ld_unit_zero (S := S128x64) zero_offsets2, View.ld_unit_zero (S := S1x64) zero_offsets2,
    View.ld_unit_zero (S := S4000x64) zero_offsets2]
  funext j
  obtain ⟨p, q, rfl⟩ : ∃ (p : Fin 4000) (q : Fin 64), j = ix2 p q := ⟨j 0, j 1, eq_ix2 (n0 := 4000) (n1 := 64) j⟩
  have hN : t.val < 25 := Nat.lt_of_lt_of_eq t.isLt N_2
  obtain ⟨r, hr⟩ : ∃ r : Fin 100000, r.val = 4000 * t.val + p.val := ⟨⟨4000 * t.val + p.val, by have := p.isLt; omega⟩, rfl⟩
  have he : ((cfg2.win 9).blk t).view.emb (ix2 p q) = (ix2 r q : S100000x64.Idx) := by
    obtain ⟨-, -, -, -, -, -, -, -, -, -, -, -, -, -, -, -, -, -, e0, e1, -⟩ := block_index2 t
    funext a; apply Fin.ext
    match a with
    | ⟨0, _⟩ => show win2_9.index t (0 : Fin 2) * 4000 + 1 * p.val = r.val; rw [e0, hr]; omega
    | ⟨1, _⟩ => show win2_9.index t (1 : Fin 2) * 64 + 1 * q.val = q.val; rw [e1]; omega
  show k2_pay3 (F := Ideal) _ _ _ _ _ (ix2 p q) = (Cert.Spec.affine (Cert.Spec.selfMix (V c main_v56) (V c main_v43) (V c main_v12)) (V c main_arg7) (V c main_v58)) (((cfg2.win 9).blk t).view.emb (ix2 p q))
  rw [he, second_eq_first2]
  exact affine_of_blocks2 _ _ _ _ _ _ _ _ _ _ p q r (fun k => agg_block2 V c t p k r hr) (fun k => hid_block2 V c t p k r hr)
    (scale_block2 V c t p r hr) (fun k => wlv_block2 V c t k q) (blv_block2 V c t q)

/-- Point t writes back block t of the sampled code. -/
theorem z_flushed2 :
    (dat2 (F := Ideal) V c).flushed 10 t = ((cfg2.win 10).blk t).view.read (Elt Ideal)
      (Cert.Spec.reparam
      (Cert.Spec.affine (Cert.Spec.selfMix (V c main_v56) (V c main_v43) (V c main_v12)) (V c main_arg5) (V c main_v57))
      (Cert.Spec.affine (Cert.Spec.selfMix (V c main_v56) (V c main_v43) (V c main_v12)) (V c main_arg7) (V c main_v58))
      (V c main_arg2)) := by
  show (cfg2.win 10).cut (grid2.coords t) ((dat2 V c).after 10 t) = _
  rw [after2_10]
  unfold out2_10
  rw [View.canon_unit_zero zero_offsets2]
  simp only [View.ld_unit_zero (S := S4000x128) zero_offsets2, View.ld_unit_zero (S := S4000x1) zero_offsets2,
    View.ld_unit_zero (S := S128x64) zero_offsets2, View.ld_unit_zero (S := S1x64) zero_offsets2,
    View.ld_unit_zero (S := S4000x64) zero_offsets2]
  funext j
  obtain ⟨p, q, rfl⟩ : ∃ (p : Fin 4000) (q : Fin 64), j = ix2 p q := ⟨j 0, j 1, eq_ix2 (n0 := 4000) (n1 := 64) j⟩
  have hN : t.val < 25 := Nat.lt_of_lt_of_eq t.isLt N_2
  obtain ⟨r, hr⟩ : ∃ r : Fin 100000, r.val = 4000 * t.val + p.val := ⟨⟨4000 * t.val + p.val, by have := p.isLt; omega⟩, rfl⟩
  have he : ((cfg2.win 10).blk t).view.emb (ix2 p q) = (ix2 r q : S100000x64.Idx) := by
    obtain ⟨-, -, -, -, -, -, -, -, -, -, -, -, -, -, -, -, -, -, -, -, e0, e1⟩ := block_index2 t
    funext a; apply Fin.ext
    match a with
    | ⟨0, _⟩ => show win2_10.index t (0 : Fin 2) * 4000 + 1 * p.val = r.val; rw [e0, hr]; omega
    | ⟨1, _⟩ => show win2_10.index t (1 : Fin 2) * 64 + 1 * q.val = q.val; rw [e1]; omega
  show k2_pay4 (F := Ideal) _ _ _ _ _ _ _ _ (ix2 p q) = (Cert.Spec.reparam
      (Cert.Spec.affine (Cert.Spec.selfMix (V c main_v56) (V c main_v43) (V c main_v12)) (V c main_arg5) (V c main_v57))
      (Cert.Spec.affine (Cert.Spec.selfMix (V c main_v56) (V c main_v43) (V c main_v12)) (V c main_arg7) (V c main_v58))
      (V c main_arg2)) (((cfg2.win 10).blk t).view.emb (ix2 p q))
  rw [he]
  exact sample_of_blocks2 _ _ _ _ _ _ _ _ _ _ _ _ _ _ _ _ p q r (fun k => agg_block2 V c t p k r hr) (fun k => hid_block2 V c t p k r hr)
    (scale_block2 V c t p r hr) (fun k => wmu_block2 V c t k q) (bmu_block2 V c t q) (fun k => wlv_block2 V c t k q) (blv_block2 V c t q)
    (noise_block2 V c t p q r hr)

end Flushed

/-! ## The blocks tile the arrays

Row i of an output is in the block of point i / 4000, and every point writes its block back. -/

/-- An entry is in point t's block of the mean iff each coordinate is in the block's range. -/
theorem mem_mu_block2 (t : Fin cfg2.N) (i : S100000x64.Idx) :
    i ∈ ((cfg2.win 8).blk t).view.set ↔ ∀ a : Fin 2, win2_8.index t a * S4000x64.size a ≤ (i a).val ∧ (i a).val < win2_8.index t a * S4000x64.size a + S4000x64.size a := by
  show i ∈ ((View.whole main_v59_0).slice (win2_8.rect t)).set ↔ _
  rw [View.set_slice_whole, Rect.mem_set_unit]
  exact Iff.rfl

/-- The same for the log-variance … -/
theorem mem_lv_block2 (t : Fin cfg2.N) (i : S100000x64.Idx) :
    i ∈ ((cfg2.win 9).blk t).view.set ↔ ∀ a : Fin 2, win2_9.index t a * S4000x64.size a ≤ (i a).val ∧ (i a).val < win2_9.index t a * S4000x64.size a + S4000x64.size a := by
  show i ∈ ((View.whole main_v59_1).slice (win2_9.rect t)).set ↔ _
  rw [View.set_slice_whole, Rect.mem_set_unit]
  exact Iff.rfl

/-- … and for the sampled code. -/
theorem mem_z_block2 (t : Fin cfg2.N) (i : S100000x64.Idx) :
    i ∈ ((cfg2.win 10).blk t).view.set ↔ ∀ a : Fin 2, win2_10.index t a * S4000x64.size a ≤ (i a).val ∧ (i a).val < win2_10.index t a * S4000x64.size a + S4000x64.size a := by
  show i ∈ ((View.whole main_v59_2).slice (win2_10.rect t)).set ↔ _
  rw [View.set_slice_whole, Rect.mem_set_unit]
  exact Iff.rfl

/-- The point whose block holds row i. -/
theorem point_of_row2 (i : S100000x64.Idx) : ∃ t : Fin cfg2.N, t.val = (i 0).val / 4000 :=
  ⟨⟨(i 0).val / 4000, by rw [show cfg2.N = 25 from N_2]; have h : (i 0).val < 100000 := (i 0).isLt; show (i 0).val / 4000 < 25; omega⟩, rfl⟩

theorem mu_cover2 (i : S100000x64.Idx) : ∃ t : Fin cfg2.N, (cfg2.win 8).flush t = true ∧ i ∈ ((cfg2.win 8).blk t).view.set := by
  obtain ⟨t, ht⟩ := point_of_row2 i
  obtain ⟨-, -, -, -, -, -, -, -, -, -, -, -, -, -, -, -, e0, e1, -⟩ := block_index2 t
  have hi0 : (i 0).val < 100000 := (i 0).isLt
  have hi1 : (i 1).val < 64 := (i 1).isLt
  refine ⟨t, flush2_8 t, ?_⟩
  rw [mem_mu_block2]
  intro a
  match a with
  | ⟨0, _⟩ => show win2_8.index t (0 : Fin 2) * 4000 ≤ (i 0).val ∧ (i 0).val < win2_8.index t (0 : Fin 2) * 4000 + 4000; rw [e0, ht]; omega
  | ⟨1, _⟩ => show win2_8.index t (1 : Fin 2) * 64 ≤ (i 1).val ∧ (i 1).val < win2_8.index t (1 : Fin 2) * 64 + 64; rw [e1]; omega

theorem lv_cover2 (i : S100000x64.Idx) : ∃ t : Fin cfg2.N, (cfg2.win 9).flush t = true ∧ i ∈ ((cfg2.win 9).blk t).view.set := by
  obtain ⟨t, ht⟩ := point_of_row2 i
  obtain ⟨-, -, -, -, -, -, -, -, -, -, -, -, -, -, -, -, -, -, e0, e1, -⟩ := block_index2 t
  have hi0 : (i 0).val < 100000 := (i 0).isLt
  have hi1 : (i 1).val < 64 := (i 1).isLt
  refine ⟨t, flush2_9 t, ?_⟩
  rw [mem_lv_block2]
  intro a
  match a with
  | ⟨0, _⟩ => show win2_9.index t (0 : Fin 2) * 4000 ≤ (i 0).val ∧ (i 0).val < win2_9.index t (0 : Fin 2) * 4000 + 4000; rw [e0, ht]; omega
  | ⟨1, _⟩ => show win2_9.index t (1 : Fin 2) * 64 ≤ (i 1).val ∧ (i 1).val < win2_9.index t (1 : Fin 2) * 64 + 64; rw [e1]; omega

theorem z_cover2 (i : S100000x64.Idx) : ∃ t : Fin cfg2.N, (cfg2.win 10).flush t = true ∧ i ∈ ((cfg2.win 10).blk t).view.set := by
  obtain ⟨t, ht⟩ := point_of_row2 i
  obtain ⟨-, -, -, -, -, -, -, -, -, -, -, -, -, -, -, -, -, -, -, -, e0, e1⟩ := block_index2 t
  have hi0 : (i 0).val < 100000 := (i 0).isLt
  have hi1 : (i 1).val < 64 := (i 1).isLt
  refine ⟨t, flush2_10 t, ?_⟩
  rw [mem_z_block2]
  intro a
  match a with
  | ⟨0, _⟩ => show win2_10.index t (0 : Fin 2) * 4000 ≤ (i 0).val ∧ (i 0).val < win2_10.index t (0 : Fin 2) * 4000 + 4000; rw [e0, ht]; omega
  | ⟨1, _⟩ => show win2_10.index t (1 : Fin 2) * 64 ≤ (i 1).val ∧ (i 1).val < win2_10.index t (1 : Fin 2) * 64 + 64; rw [e1]; omega

/-! ## The three output arrays after the region -/

/-- The mean: the transform of the mixed rows by the first matrix plus its bias row. -/
theorem final2_mu (V : (c : Dev nD) → (b : Ref sig .tc) → Buf (Elt Ideal) ((c : Thread nD τ).loc b)) (c : Dev nD) :
    (dat2 (F := Ideal) V c).arrAt 8 cfg2.N = Cert.Spec.affine (Cert.Spec.selfMix (V c main_v56) (V c main_v43) (V c main_v12)) (V c main_arg5) (V c main_v57) :=
  (dat2 (F := Ideal) V c).arrAt_eq_of_cover 8 _ (fun t _ => mu_flushed2 V c t) mu_cover2

/-- The log-variance: the same with the second matrix and bias row. -/
theorem final2_lv (V : (c : Dev nD) → (b : Ref sig .tc) → Buf (Elt Ideal) ((c : Thread nD τ).loc b)) (c : Dev nD) :
    (dat2 (F := Ideal) V c).arrAt 9 cfg2.N = Cert.Spec.affine (Cert.Spec.selfMix (V c main_v56) (V c main_v43) (V c main_v12)) (V c main_arg7) (V c main_v58) :=
  (dat2 (F := Ideal) V c).arrAt_eq_of_cover 9 _ (fun t _ => lv_flushed2 V c t) lv_cover2

/-- The sampled code: mean plus noise times exp of half the log-variance. -/
theorem final2_z (V : (c : Dev nD) → (b : Ref sig .tc) → Buf (Elt Ideal) ((c : Thread nD τ).loc b)) (c : Dev nD) :
    (dat2 (F := Ideal) V c).arrAt 10 cfg2.N = Cert.Spec.reparam
      (Cert.Spec.affine (Cert.Spec.selfMix (V c main_v56) (V c main_v43) (V c main_v12)) (V c main_arg5) (V c main_v57))
      (Cert.Spec.affine (Cert.Spec.selfMix (V c main_v56) (V c main_v43) (V c main_v12)) (V c main_arg7) (V c main_v58))
      (V c main_arg2) :=
  (dat2 (F := Ideal) V c).arrAt_eq_of_cover 10 _ (fun t _ => z_flushed2 V c t) z_cover2

end Cert.KernelIdeal.RegionVal

end
-- ==== Proof.Region3.lean ====
/-
  Region 3, the edge decoder. The grid has 125 points; point t owns columns 12800·t … 12800·t + 12799 of the two
  [64, 1600000] endpoint slabs and of the [1, 1600000] output row. The body multiplies the two [64, 12800] blocks entry
  by entry, sums the products over the 64 rows, and applies the logistic function. Hence the output array, after all
  write-backs, holds at column n the logistic of the inner product of the two slabs' columns n.
-/
import proofs.«174899_j84129819394641_2_alg».proof.Proof.Gen.KernelIdeal.Frame
import proofs.«174899_j84129819394641_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionVal

open Cert.KernelIdeal Cert.KernelIdeal.Gen Idealize.ShloMosaic Idealize.ShloMosaic.TcCoe Idealize.SL.Sem Idealize.ShloMosaic.ValueIdx Idealize.ShloMosaic.Pipeline

/-! ## The body's payload at an index -/

/-- The reduction over the 64 rows, read at column q: the sum over the rows of the entries of that column. -/
theorem colsum3_at (v : FVec Ideal S64x12800 .f32) (h : S64x12800.Reduces [0] S12800) (hφ : FKind.Formats .f32)
    (hacc : (0x00000000#32 : BitVec 32) = FKind.add.neutral .f32 hφ) (q : Fin 12800) :
    multiReduction .add [0] S12800 v 0x00000000#32 h hφ hacc (ix1 q) = ∑ r : Fin 64, v (ix2 r q) := by
  refine (Ideal.multiReduction_add_single v 0x00000000#32 h hφ hacc (ix1 q)).trans ?_
  refine Finset.sum_congr rfl fun r _ => congrArg v ?_
  funext a; apply Fin.ext
  match a with
  | ⟨0, _⟩ => rfl
  | ⟨1, _⟩ => rfl

/-- The body's payload at column q of its one row: the logistic of the inner product of the two blocks' columns q. -/
theorem decode3_at (x0 x1 : Vec Ideal S64x12800 .f32) (q : Fin 12800) :
    k3_pay1 (F := Ideal) x0 x1 (ix2 (0 : Fin 1) q) = Ideal.logistic (∑ r : Fin 64, x0 (ix2 r q) * x1 (ix2 r q)) := by
  unfold k3_pay1
  dsimp only
  refine congrArg Ideal.logistic ?_
  refine (shapeCast_addUnit_apply ![12800] _ _ (ix2 (0 : Fin 1) q)).trans ?_
  have e : (fun a : Fin 1 => (ix2 (0 : Fin 1) q : S1x12800.Idx) a.succ) = (ix1 q : S12800.Idx) := by
    funext a; match a with | ⟨0, _⟩ => rfl
  refine (congrArg _ e).trans ?_
  refine (colsum3_at _ _ _ _ q).trans ?_
  refine Finset.sum_congr rfl fun r _ => ?_
  show shapeCast S64x12800 x0 _ (ix2 r q) * shapeCast S64x12800 x1 _ (ix2 r q) = _
  rw [shapeCast_self, shapeCast_self]

/-- The payload of two blocks that are columns of two slabs A and B: if column (j 1) of each block is column (i 1)
    of its slab, the payload at j is the edge score of A and B at i. -/
theorem decode3_block (x0 x1 : Vec Ideal S64x12800 .f32) (A B : Cert.Spec.T64x1600000.Idx → EReal)
    (j : S1x12800.Idx) (i : Cert.Spec.T1x1600000.Idx)
    (h0 : ∀ r : Fin 64, x0 (ix2 r (j 1)) = A (ix2 r (i 1))) (h1 : ∀ r : Fin 64, x1 (ix2 r (j 1)) = B (ix2 r (i 1))) :
    k3_pay1 (F := Ideal) x0 x1 j = Cert.Spec.edgeScore A B i := by
  obtain ⟨p, q, rfl⟩ : ∃ (p : Fin 1) (q : Fin 12800), j = ix2 p q := ⟨j 0, j 1, eq_ix2 j⟩
  obtain rfl : p = 0 := Subsingleton.elim _ _
  refine (decode3_at x0 x1 q).trans ?_
  unfold Cert.Spec.edgeScore
  refine congrArg Ideal.logistic (Finset.sum_congr rfl fun r _ => ?_)
  rw [← h0 r, ← h1 r]

/-! ## The index maps, decided over the grid -/

theorem hz3 : (![0, 0] : Fin 2 → Nat) = fun _ => 0 := funext fun a => by fin_cases a <;> rfl

/-- At point t every window's block index is (0, t). -/
theorem idx_facts3 : ∀ t : Fin cfg3.N, win3_0.index t (0 : Fin 2) = 0 ∧ win3_0.index t (1 : Fin 2) = t.val
    ∧ win3_1.index t (0 : Fin 2) = 0 ∧ win3_1.index t (1 : Fin 2) = t.val
    ∧ win3_2.index t (0 : Fin 2) = 0 ∧ win3_2.index t (1 : Fin 2) = t.val :=
  (by decide +kernel : ∀ t : Fin grid3.N, _)

/-! ## What a point writes back -/

variable (V : (c : Dev nD) → (b : Ref sig .tc) → Buf (Elt Ideal) ((c : Thread nD τ).loc b))

/-- What point t writes back is block t of the edge score of the two slabs as the region finds them. -/
theorem flushed3_eq (c : Dev nD) (t : Fin cfg3.N) :
    (dat3 (F := Ideal) V c).flushed 2 t
      = ((cfg3.win 2).blk t).view.read (Elt Ideal) (Cert.Spec.edgeScore (V c main_v67) (V c main_v74)) := by
  show (cfg3.win 2).cut (grid3.coords t) ((dat3 (F := Ideal) V c).after 2 t) = _
  rw [after3_2]
  unfold out3_2
  rw [View.canon_unit_zero hz3]
  simp only [View.ld_unit_zero (S := S64x12800) hz3]
  obtain ⟨e00, e01, e10, e11, e20, e21⟩ := idx_facts3 t
  funext j
  refine decode3_block (iblk3 V c 0 t) (iblk3 V c 1 t) (V c main_v67) (V c main_v74) j (((cfg3.win 2).blk t).view.emb j)
    (fun r => ?_) (fun r => ?_)
  · show V c main_v67 (((cfg3.win 0).blk t).view.emb (ix2 r (j 1))) = V c main_v67 (ix2 r (((cfg3.win 2).blk t).view.emb j 1))
    refine congrArg (V c main_v67) ?_
    funext a; apply Fin.ext
    match a with
    | ⟨0, _⟩ => show win3_0.index t (0 : Fin 2) * 64 + 1 * r.val = r.val; omega
    | ⟨1, _⟩ => show win3_0.index t (1 : Fin 2) * 12800 + 1 * (j 1).val = win3_2.index t (1 : Fin 2) * 12800 + 1 * (j 1).val; omega
  · show V c main_v74 (((cfg3.win 1).blk t).view.emb (ix2 r (j 1))) = V c main_v74 (ix2 r (((cfg3.win 2).blk t).view.emb j 1))
    refine congrArg (V c main_v74) ?_
    funext a; apply Fin.ext
    match a with
    | ⟨0, _⟩ => show win3_1.index t (0 : Fin 2) * 64 + 1 * r.val = r.val; omega
    | ⟨1, _⟩ => show win3_1.index t (1 : Fin 2) * 12800 + 1 * (j 1).val = win3_2.index t (1 : Fin 2) * 12800 + 1 * (j 1).val; omega

/-! ## The blocks cover the row -/

/-- An index of the output row is in point t's block iff each coordinate is in the block's range on its axis. -/
theorem mem_blk3 (t : Fin cfg3.N) (i : S1x1600000.Idx) :
    i ∈ ((cfg3.win 2).blk t).view.set ↔ ∀ a : Fin 2, win3_2.index t a * S1x12800.size a ≤ (i a).val ∧ (i a).val < win3_2.index t a * S1x12800.size a + S1x12800.size a := by
  show i ∈ ((View.whole main_v75).slice (win3_2.rect t)).set ↔ _
  rw [View.set_slice_whole, Rect.mem_set_unit]
  exact Iff.rfl

/-- Column n lies in the block of point n / 12800, and every point writes back. -/
theorem cover3 (i : S1x1600000.Idx) :
    ∃ t : Fin cfg3.N, (cfg3.win 2).flush t = true ∧ i ∈ ((cfg3.win 2).blk t).view.set := by
  have hi0 : (i 0).val < 1 := (i 0).isLt
  have hi1 : (i 1).val < 1600000 := (i 1).isLt
  have hN : cfg3.N = 125 := N_3
  obtain ⟨t, ht⟩ : ∃ t : Fin cfg3.N, t.val = (i 1).val / 12800 := ⟨⟨(i 1).val / 12800, by rw [hN]; omega⟩, rfl⟩
  obtain ⟨-, -, -, -, e20, e21⟩ := idx_facts3 t
  refine ⟨t, flush3_2 t, ?_⟩
  rw [mem_blk3]
  intro a
  match a with
  | ⟨0, _⟩ => show win3_2.index t (0 : Fin 2) * 1 ≤ (i 0).val ∧ (i 0).val < win3_2.index t (0 : Fin 2) * 1 + 1; omega
  | ⟨1, _⟩ => show win3_2.index t (1 : Fin 2) * 12800 ≤ (i 1).val ∧ (i 1).val < win3_2.index t (1 : Fin 2) * 12800 + 12800; omega

/-! ## The array after the run -/

/-- After all write-backs the output row holds the edge score of the two slabs the region found. -/
theorem final3 (c : Dev nD) :
    (dat3 (F := Ideal) V c).arrAt 2 cfg3.N = Cert.Spec.edgeScore (V c main_v67) (V c main_v74) :=
  (dat3 (F := Ideal) V c).arrAt_eq_of_cover 2 (Cert.Spec.edgeScore (V c main_v67) (V c main_v74))
    (fun t _ => flushed3_eq V c t) cover3

end Cert.KernelIdeal.RegionVal

end
-- ==== Proof.KChain.lean ====
/-
  The contents of the idealized kernel's buffers at each boundary between its segments, read back to the
  argument arrays: a stretch of host operations applies its operations to what the previous boundary holds; a kernel
  region leaves each output array at its whole-array function of the region's input arrays and every other buffer
  as it was. Followed from the launch to the return this gives the four results as the stage functions of the
  arguments (the code z, the mean, the log-variance, the edge scores).
-/
import proofs.«174899_j84129819394641_2_alg».proof.Proof.Gen.KernelIdeal.Frame
import proofs.«174899_j84129819394641_2_alg».proof.Proof.KStages
import proofs.«174899_j84129819394641_2_alg».proof.Proof.Region0
import proofs.«174899_j84129819394641_2_alg».proof.Proof.Region1
import proofs.«174899_j84129819394641_2_alg».proof.Proof.Region2
import proofs.«174899_j84129819394641_2_alg».proof.Proof.Region3
import Idealize.ShloMosaic.Lib.StableHlo.Run

set_option maxRecDepth 16384

noncomputable section

namespace Cert.KernelIdeal.KChain

open Cert.KernelIdeal Cert.KernelIdeal.Gen Cert.KernelIdeal.KVal
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem k1_v1 : W1 m ρ c (Proc.devRef .tc main_v1) = src (m ((c : Thread nD τ).loc main_arg1)) :=
  by
  show StableHlo.after hostOps0 (W0 m ρ c) (Proc.devRef .tc main_v1) = _
  after_results_simp <;> rfl

theorem k1_v3 : W1 m ρ c (Proc.devRef .tc main_v3) = dst (m ((c : Thread nD τ).loc main_arg1)) :=
  by
  show StableHlo.after hostOps0 (W0 m ρ c) (Proc.devRef .tc main_v3) = _
  after_results_simp <;> rfl

theorem k1_v27 : W1 m ρ c (Proc.devRef .tc main_v27) = coef (m ((c : Thread nD τ).loc main_arg1)) :=
  by
  show StableHlo.after hostOps0 (W0 m ρ c) (Proc.devRef .tc main_v27) = _
  after_results_simp <;> rfl

theorem k1_v12 : W1 m ρ c (Proc.devRef .tc main_v12) = d2col (m ((c : Thread nD τ).loc main_arg1)) :=
  by
  show StableHlo.after hostOps0 (W0 m ρ c) (Proc.devRef .tc main_v12) = _
  after_results_simp <;> rfl

theorem k1_arg0 : W1 m ρ c (Proc.devRef .tc main_arg0) = m ((c : Thread nD τ).loc main_arg0) :=
  by
  show StableHlo.after hostOps0 (W0 m ρ c) (Proc.devRef .tc main_arg0) = _
  after_results_simp <;> rfl

theorem k1_arg2 : W1 m ρ c (Proc.devRef .tc main_arg2) = m ((c : Thread nD τ).loc main_arg2) :=
  by
  show StableHlo.after hostOps0 (W0 m ρ c) (Proc.devRef .tc main_arg2) = _
  after_results_simp <;> rfl

theorem k1_arg3 : W1 m ρ c (Proc.devRef .tc main_arg3) = m ((c : Thread nD τ).loc main_arg3) :=
  by
  show StableHlo.after hostOps0 (W0 m ρ c) (Proc.devRef .tc main_arg3) = _
  after_results_simp <;> rfl

theorem k1_arg4 : W1 m ρ c (Proc.devRef .tc main_arg4) = m ((c : Thread nD τ).loc main_arg4) :=
  by
  show StableHlo.after hostOps0 (W0 m ρ c) (Proc.devRef .tc main_arg4) = _
  after_results_simp <;> rfl

theorem k1_arg5 : W1 m ρ c (Proc.devRef .tc main_arg5) = m ((c : Thread nD τ).loc main_arg5) :=
  by
  show StableHlo.after hostOps0 (W0 m ρ c) (Proc.devRef .tc main_arg5) = _
  after_results_simp <;> rfl

theorem k1_arg6 : W1 m ρ c (Proc.devRef .tc main_arg6) = m ((c : Thread nD τ).loc main_arg6) :=
  by
  show StableHlo.after hostOps0 (W0 m ρ c) (Proc.devRef .tc main_arg6) = _
  after_results_simp <;> rfl

theorem k1_arg7 : W1 m ρ c (Proc.devRef .tc main_arg7) = m ((c : Thread nD τ).loc main_arg7) :=
  by
  show StableHlo.after hostOps0 (W0 m ρ c) (Proc.devRef .tc main_arg7) = _
  after_results_simp <;> rfl

theorem k1_arg8 : W1 m ρ c (Proc.devRef .tc main_arg8) = m ((c : Thread nD τ).loc main_arg8) :=
  by
  show StableHlo.after hostOps0 (W0 m ρ c) (Proc.devRef .tc main_arg8) = _
  after_results_simp <;> rfl

theorem k2_v1 : W2 m ρ c (Proc.devRef .tc main_v1) = src (m ((c : Thread nD τ).loc main_arg1)) :=
  (W2_of_ne m ρ c main_v1 (by decide)).trans (k1_v1 m ρ c)

theorem k2_v3 : W2 m ρ c (Proc.devRef .tc main_v3) = dst (m ((c : Thread nD τ).loc main_arg1)) :=
  (W2_of_ne m ρ c main_v3 (by decide)).trans (k1_v3 m ρ c)

theorem k2_v27 : W2 m ρ c (Proc.devRef .tc main_v27) = coef (m ((c : Thread nD τ).loc main_arg1)) :=
  (W2_of_ne m ρ c main_v27 (by decide)).trans (k1_v27 m ρ c)

theorem k2_v12 : W2 m ρ c (Proc.devRef .tc main_v12) = d2col (m ((c : Thread nD τ).loc main_arg1)) :=
  (W2_of_ne m ρ c main_v12 (by decide)).trans (k1_v12 m ρ c)

theorem k2_arg2 : W2 m ρ c (Proc.devRef .tc main_arg2) = m ((c : Thread nD τ).loc main_arg2) :=
  (W2_of_ne m ρ c main_arg2 (by decide)).trans (k1_arg2 m ρ c)

theorem k2_arg4 : W2 m ρ c (Proc.devRef .tc main_arg4) = m ((c : Thread nD τ).loc main_arg4) :=
  (W2_of_ne m ρ c main_arg4 (by decide)).trans (k1_arg4 m ρ c)

theorem k2_arg5 : W2 m ρ c (Proc.devRef .tc main_arg5) = m ((c : Thread nD τ).loc main_arg5) :=
  (W2_of_ne m ρ c main_arg5 (by decide)).trans (k1_arg5 m ρ c)

theorem k2_arg6 : W2 m ρ c (Proc.devRef .tc main_arg6) = m ((c : Thread nD τ).loc main_arg6) :=
  (W2_of_ne m ρ c main_arg6 (by decide)).trans (k1_arg6 m ρ c)

theorem k2_arg7 : W2 m ρ c (Proc.devRef .tc main_arg7) = m ((c : Thread nD τ).loc main_arg7) :=
  (W2_of_ne m ρ c main_arg7 (by decide)).trans (k1_arg7 m ρ c)

theorem k2_arg8 : W2 m ρ c (Proc.devRef .tc main_arg8) = m ((c : Thread nD τ).loc main_arg8) :=
  (W2_of_ne m ρ c main_arg8 (by decide)).trans (k1_arg8 m ρ c)

theorem k2_v28 : W2 m ρ c (Proc.devRef .tc main_v28) = h1 (m ((c : Thread nD τ).loc main_arg0)) (m ((c : Thread nD τ).loc main_arg3)) :=
  (W2_arr m ρ c 2).trans ((Cert.KernelIdeal.RegionVal.final0 (V1 m ρ) c).trans (congrArg₂ Cert.Spec.dense1 (k1_arg0 m ρ c) (k1_arg3 m ρ c)))

theorem k3_v1 : W3 m ρ c (Proc.devRef .tc main_v1) = src (m ((c : Thread nD τ).loc main_arg1)) :=
  (show StableHlo.after hostOps1 (W2 m ρ c) (Proc.devRef .tc main_v1) = W2 m ρ c (Proc.devRef .tc main_v1) by after_results_simp <;> rfl).trans (k2_v1 m ρ c)

theorem k3_v3 : W3 m ρ c (Proc.devRef .tc main_v3) = dst (m ((c : Thread nD τ).loc main_arg1)) :=
  (show StableHlo.after hostOps1 (W2 m ρ c) (Proc.devRef .tc main_v3) = W2 m ρ c (Proc.devRef .tc main_v3) by after_results_simp <;> rfl).trans (k2_v3 m ρ c)

theorem k3_v27 : W3 m ρ c (Proc.devRef .tc main_v27) = coef (m ((c : Thread nD τ).loc main_arg1)) :=
  (show StableHlo.after hostOps1 (W2 m ρ c) (Proc.devRef .tc main_v27) = W2 m ρ c (Proc.devRef .tc main_v27) by after_results_simp <;> rfl).trans (k2_v27 m ρ c)

theorem k3_v12 : W3 m ρ c (Proc.devRef .tc main_v12) = d2col (m ((c : Thread nD τ).loc main_arg1)) :=
  (show StableHlo.after hostOps1 (W2 m ρ c) (Proc.devRef .tc main_v12) = W2 m ρ c (Proc.devRef .tc main_v12) by after_results_simp <;> rfl).trans (k2_v12 m ρ c)

theorem k3_arg2 : W3 m ρ c (Proc.devRef .tc main_arg2) = m ((c : Thread nD τ).loc main_arg2) :=
  (show StableHlo.after hostOps1 (W2 m ρ c) (Proc.devRef .tc main_arg2) = W2 m ρ c (Proc.devRef .tc main_arg2) by after_results_simp <;> rfl).trans (k2_arg2 m ρ c)

theorem k3_arg5 : W3 m ρ c (Proc.devRef .tc main_arg5) = m ((c : Thread nD τ).loc main_arg5) :=
  (show StableHlo.after hostOps1 (W2 m ρ c) (Proc.devRef .tc main_arg5) = W2 m ρ c (Proc.devRef .tc main_arg5) by after_results_simp <;> rfl).trans (k2_arg5 m ρ c)

theorem k3_arg6 : W3 m ρ c (Proc.devRef .tc main_arg6) = m ((c : Thread nD τ).loc main_arg6) :=
  (show StableHlo.after hostOps1 (W2 m ρ c) (Proc.devRef .tc main_arg6) = W2 m ρ c (Proc.devRef .tc main_arg6) by after_results_simp <;> rfl).trans (k2_arg6 m ρ c)

theorem k3_arg7 : W3 m ρ c (Proc.devRef .tc main_arg7) = m ((c : Thread nD τ).loc main_arg7) :=
  (show StableHlo.after hostOps1 (W2 m ρ c) (Proc.devRef .tc main_arg7) = W2 m ρ c (Proc.devRef .tc main_arg7) by after_results_simp <;> rfl).trans (k2_arg7 m ρ c)

theorem k3_arg8 : W3 m ρ c (Proc.devRef .tc main_arg8) = m ((c : Thread nD τ).loc main_arg8) :=
  (show StableHlo.after hostOps1 (W2 m ρ c) (Proc.devRef .tc main_arg8) = W2 m ρ c (Proc.devRef .tc main_arg8) by after_results_simp <;> rfl).trans (k2_arg8 m ρ c)

theorem k3_v28 : W3 m ρ c (Proc.devRef .tc main_v28) = h1 (m ((c : Thread nD τ).loc main_arg0)) (m ((c : Thread nD τ).loc main_arg3)) :=
  (show StableHlo.after hostOps1 (W2 m ρ c) (Proc.devRef .tc main_v28) = W2 m ρ c (Proc.devRef .tc main_v28) by after_results_simp <;> rfl).trans (k2_v28 m ρ c)

theorem k3_v41 : W3 m ρ c (Proc.devRef .tc main_v41) = aggregate (h1 (m ((c : Thread nD τ).loc main_arg0)) (m ((c : Thread nD τ).loc main_arg3))) (m ((c : Thread nD τ).loc main_arg1)) := by
  show StableHlo.after hostOps1 (W2 m ρ c) (Proc.devRef .tc main_v41) = _
  after_results_simp
  rw [k2_v28, k2_v1, k2_v3, k2_v27]
  rfl

theorem k3_v42 : W3 m ρ c (Proc.devRef .tc main_v42) = shapeCast _ (m ((c : Thread nD τ).loc main_arg4)) Facts₀.shapeCasts_S128_S1x128 := by
  show StableHlo.after hostOps1 (W2 m ρ c) (Proc.devRef .tc main_v42) = _
  after_results_simp
  rw [k2_arg4]
  rfl

theorem k4_v1 : W4 m ρ c (Proc.devRef .tc main_v1) = src (m ((c : Thread nD τ).loc main_arg1)) :=
  (W4_of_ne m ρ c main_v1 (by decide)).trans (k3_v1 m ρ c)

theorem k4_v3 : W4 m ρ c (Proc.devRef .tc main_v3) = dst (m ((c : Thread nD τ).loc main_arg1)) :=
  (W4_of_ne m ρ c main_v3 (by decide)).trans (k3_v3 m ρ c)

theorem k4_v27 : W4 m ρ c (Proc.devRef .tc main_v27) = coef (m ((c : Thread nD τ).loc main_arg1)) :=
  (W4_of_ne m ρ c main_v27 (by decide)).trans (k3_v27 m ρ c)

theorem k4_arg2 : W4 m ρ c (Proc.devRef .tc main_arg2) = m ((c : Thread nD τ).loc main_arg2) :=
  (W4_of_ne m ρ c main_arg2 (by decide)).trans (k3_arg2 m ρ c)

theorem k4_arg5 : W4 m ρ c (Proc.devRef .tc main_arg5) = m ((c : Thread nD τ).loc main_arg5) :=
  (W4_of_ne m ρ c main_arg5 (by decide)).trans (k3_arg5 m ρ c)

theorem k4_arg6 : W4 m ρ c (Proc.devRef .tc main_arg6) = m ((c : Thread nD τ).loc main_arg6) :=
  (W4_of_ne m ρ c main_arg6 (by decide)).trans (k3_arg6 m ρ c)

theorem k4_arg7 : W4 m ρ c (Proc.devRef .tc main_arg7) = m ((c : Thread nD τ).loc main_arg7) :=
  (W4_of_ne m ρ c main_arg7 (by decide)).trans (k3_arg7 m ρ c)

theorem k4_arg8 : W4 m ρ c (Proc.devRef .tc main_arg8) = m ((c : Thread nD τ).loc main_arg8) :=
  (W4_of_ne m ρ c main_arg8 (by decide)).trans (k3_arg8 m ρ c)

theorem k4_v12 : W4 m ρ c (Proc.devRef .tc main_v12) = d2col (m ((c : Thread nD τ).loc main_arg1)) :=
  ((W4_arr m ρ c 2).trans (((dat1 (V3 m ρ) c).arrAt_in 2 rfl _).trans (A_eq1 (V3 m ρ) c 2))).trans (k3_v12 m ρ c)

theorem k4_v43 : W4 m ρ c (Proc.devRef .tc main_v43) = hid (m ((c : Thread nD τ).loc main_arg0)) (m ((c : Thread nD τ).loc main_arg1)) (m ((c : Thread nD τ).loc main_arg3)) (m ((c : Thread nD τ).loc main_arg4)) :=
  (W4_arr m ρ c 4).trans ((Cert.KernelIdeal.RegionVal.final1 (V3 m ρ) c).trans (by
    rw [show V3 m ρ c main_v41 = _ from k3_v41 m ρ c, show V3 m ρ c main_v28 = _ from k3_v28 m ρ c, show V3 m ρ c main_v12 = _ from k3_v12 m ρ c, show V3 m ρ c main_v42 = _ from k3_v42 m ρ c]
    rfl))

theorem k5_v1 : W5 m ρ c (Proc.devRef .tc main_v1) = src (m ((c : Thread nD τ).loc main_arg1)) :=
  (show StableHlo.after hostOps2 (W4 m ρ c) (Proc.devRef .tc main_v1) = W4 m ρ c (Proc.devRef .tc main_v1) by after_results_simp <;> rfl).trans (k4_v1 m ρ c)

theorem k5_v3 : W5 m ρ c (Proc.devRef .tc main_v3) = dst (m ((c : Thread nD τ).loc main_arg1)) :=
  (show StableHlo.after hostOps2 (W4 m ρ c) (Proc.devRef .tc main_v3) = W4 m ρ c (Proc.devRef .tc main_v3) by after_results_simp <;> rfl).trans (k4_v3 m ρ c)

theorem k5_v12 : W5 m ρ c (Proc.devRef .tc main_v12) = d2col (m ((c : Thread nD τ).loc main_arg1)) :=
  (show StableHlo.after hostOps2 (W4 m ρ c) (Proc.devRef .tc main_v12) = W4 m ρ c (Proc.devRef .tc main_v12) by after_results_simp <;> rfl).trans (k4_v12 m ρ c)

theorem k5_arg2 : W5 m ρ c (Proc.devRef .tc main_arg2) = m ((c : Thread nD τ).loc main_arg2) :=
  (show StableHlo.after hostOps2 (W4 m ρ c) (Proc.devRef .tc main_arg2) = W4 m ρ c (Proc.devRef .tc main_arg2) by after_results_simp <;> rfl).trans (k4_arg2 m ρ c)

theorem k5_arg5 : W5 m ρ c (Proc.devRef .tc main_arg5) = m ((c : Thread nD τ).loc main_arg5) :=
  (show StableHlo.after hostOps2 (W4 m ρ c) (Proc.devRef .tc main_arg5) = W4 m ρ c (Proc.devRef .tc main_arg5) by after_results_simp <;> rfl).trans (k4_arg5 m ρ c)

theorem k5_arg7 : W5 m ρ c (Proc.devRef .tc main_arg7) = m ((c : Thread nD τ).loc main_arg7) :=
  (show StableHlo.after hostOps2 (W4 m ρ c) (Proc.devRef .tc main_arg7) = W4 m ρ c (Proc.devRef .tc main_arg7) by after_results_simp <;> rfl).trans (k4_arg7 m ρ c)

theorem k5_v43 : W5 m ρ c (Proc.devRef .tc main_v43) = hid (m ((c : Thread nD τ).loc main_arg0)) (m ((c : Thread nD τ).loc main_arg1)) (m ((c : Thread nD τ).loc main_arg3)) (m ((c : Thread nD τ).loc main_arg4)) :=
  (show StableHlo.after hostOps2 (W4 m ρ c) (Proc.devRef .tc main_v43) = W4 m ρ c (Proc.devRef .tc main_v43) by after_results_simp <;> rfl).trans (k4_v43 m ρ c)

theorem k5_v56 : W5 m ρ c (Proc.devRef .tc main_v56) = aggregate (hid (m ((c : Thread nD τ).loc main_arg0)) (m ((c : Thread nD τ).loc main_arg1)) (m ((c : Thread nD τ).loc main_arg3)) (m ((c : Thread nD τ).loc main_arg4))) (m ((c : Thread nD τ).loc main_arg1)) := by
  show StableHlo.after hostOps2 (W4 m ρ c) (Proc.devRef .tc main_v56) = _
  after_results_simp
  rw [k4_v43, k4_v1, k4_v3, k4_v27]
  rfl

theorem k5_v57 : W5 m ρ c (Proc.devRef .tc main_v57) = shapeCast _ (m ((c : Thread nD τ).loc main_arg6)) Facts₀.shapeCasts_S64_S1x64 := by
  show StableHlo.after hostOps2 (W4 m ρ c) (Proc.devRef .tc main_v57) = _
  after_results_simp
  rw [k4_arg6]
  rfl

theorem k5_v58 : W5 m ρ c (Proc.devRef .tc main_v58) = shapeCast _ (m ((c : Thread nD τ).loc main_arg8)) Facts₀.shapeCasts_S64_S1x64 := by
  show StableHlo.after hostOps2 (W4 m ρ c) (Proc.devRef .tc main_v58) = _
  after_results_simp
  rw [k4_arg8]
  rfl

theorem k6_mu : W6 m ρ c (Proc.devRef .tc main_v59_0) = mu (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W6_arr m ρ c 8).trans ((Cert.KernelIdeal.RegionVal.final2_mu (V5 m ρ) c).trans (by
    rw [show V5 m ρ c main_v56 = _ from k5_v56 m ρ c, show V5 m ρ c main_v43 = _ from k5_v43 m ρ c, show V5 m ρ c main_v12 = _ from k5_v12 m ρ c, show V5 m ρ c main_arg5 = _ from k5_arg5 m ρ c, show V5 m ρ c main_v57 = _ from k5_v57 m ρ c]
    rfl))

theorem k6_lv : W6 m ρ c (Proc.devRef .tc main_v59_1) = lv (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) :=
  (W6_arr m ρ c 9).trans ((Cert.KernelIdeal.RegionVal.final2_lv (V5 m ρ) c).trans (by
    rw [show V5 m ρ c main_v56 = _ from k5_v56 m ρ c, show V5 m ρ c main_v43 = _ from k5_v43 m ρ c, show V5 m ρ c main_v12 = _ from k5_v12 m ρ c, show V5 m ρ c main_arg7 = _ from k5_arg7 m ρ c, show V5 m ρ c main_v58 = _ from k5_v58 m ρ c]
    rfl))

theorem k6_z : W6 m ρ c (Proc.devRef .tc main_v59_2) = z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W6_arr m ρ c 10).trans ((Cert.KernelIdeal.RegionVal.final2_z (V5 m ρ) c).trans (by
    rw [show V5 m ρ c main_v56 = _ from k5_v56 m ρ c, show V5 m ρ c main_v43 = _ from k5_v43 m ρ c, show V5 m ρ c main_v12 = _ from k5_v12 m ρ c, show V5 m ρ c main_arg5 = _ from k5_arg5 m ρ c, show V5 m ρ c main_v57 = _ from k5_v57 m ρ c, show V5 m ρ c main_arg7 = _ from k5_arg7 m ρ c, show V5 m ρ c main_v58 = _ from k5_v58 m ρ c, show V5 m ρ c main_arg2 = _ from k5_arg2 m ρ c]
    rfl))

theorem k6_v1 : W6 m ρ c (Proc.devRef .tc main_v1) = src (m ((c : Thread nD τ).loc main_arg1)) :=
  (W6_of_ne m ρ c main_v1 (by decide)).trans (k5_v1 m ρ c)

theorem k6_v3 : W6 m ρ c (Proc.devRef .tc main_v3) = dst (m ((c : Thread nD τ).loc main_arg1)) :=
  (W6_of_ne m ρ c main_v3 (by decide)).trans (k5_v3 m ρ c)

theorem k7_v67 : W7 m ρ c (Proc.devRef .tc main_v67) = Host.gather gather_S64x100000_S1600000x1_S64x1600000_0_1_n_n_1_1_641 (zt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (wrap (src (m ((c : Thread nD τ).loc main_arg1)))) := by
  show StableHlo.after hostOps3 (W6 m ρ c) (Proc.devRef .tc main_v67) = _
  after_results_simp
  rw [k6_z, k6_v1]
  rfl

theorem k7_v74 : W7 m ρ c (Proc.devRef .tc main_v74) = Host.gather gather_S64x100000_S1600000x1_S64x1600000_0_1_n_n_1_1_641 (zt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (wrap (dst (m ((c : Thread nD τ).loc main_arg1)))) := by
  show StableHlo.after hostOps3 (W6 m ρ c) (Proc.devRef .tc main_v74) = _
  after_results_simp
  rw [k6_z, k6_v3]
  rfl

theorem k7_mu : W7 m ρ c (Proc.devRef .tc main_v59_0) = mu (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (show StableHlo.after hostOps3 (W6 m ρ c) (Proc.devRef .tc main_v59_0) = W6 m ρ c (Proc.devRef .tc main_v59_0) by after_results_simp <;> rfl).trans (k6_mu m ρ c)

theorem k7_lv : W7 m ρ c (Proc.devRef .tc main_v59_1) = lv (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) :=
  (show StableHlo.after hostOps3 (W6 m ρ c) (Proc.devRef .tc main_v59_1) = W6 m ρ c (Proc.devRef .tc main_v59_1) by after_results_simp <;> rfl).trans (k6_lv m ρ c)

theorem k7_z : W7 m ρ c (Proc.devRef .tc main_v59_2) = z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (show StableHlo.after hostOps3 (W6 m ρ c) (Proc.devRef .tc main_v59_2) = W6 m ρ c (Proc.devRef .tc main_v59_2) by after_results_simp <;> rfl).trans (k6_z m ρ c)

theorem k8_mu : W8 m ρ c (Proc.devRef .tc main_v59_0) = mu (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (W8_of_ne m ρ c main_v59_0 (by decide)).trans (k7_mu m ρ c)

theorem k8_lv : W8 m ρ c (Proc.devRef .tc main_v59_1) = lv (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) :=
  (W8_of_ne m ρ c main_v59_1 (by decide)).trans (k7_lv m ρ c)

theorem k8_z : W8 m ρ c (Proc.devRef .tc main_v59_2) = z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W8_of_ne m ρ c main_v59_2 (by decide)).trans (k7_z m ρ c)

theorem k8_v75 : W8 m ρ c (Proc.devRef .tc main_v75) = Cert.Spec.edgeScore (Host.gather gather_S64x100000_S1600000x1_S64x1600000_0_1_n_n_1_1_641 (zt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (wrap (src (m ((c : Thread nD τ).loc main_arg1))))) (Host.gather gather_S64x100000_S1600000x1_S64x1600000_0_1_n_n_1_1_641 (zt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (wrap (dst (m ((c : Thread nD τ).loc main_arg1))))) :=
  (W8_arr m ρ c 2).trans ((Cert.KernelIdeal.RegionVal.final3 (V7 m ρ) c).trans (by
    rw [show V7 m ρ c main_v67 = _ from k7_v67 m ρ c, show V7 m ρ c main_v74 = _ from k7_v74 m ρ c]))

theorem k9_mu : W9 m ρ c (Proc.devRef .tc main_v59_0) = mu (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  (show StableHlo.after hostOps4 (W8 m ρ c) (Proc.devRef .tc main_v59_0) = W8 m ρ c (Proc.devRef .tc main_v59_0) by after_results_simp <;> rfl).trans (k8_mu m ρ c)

theorem k9_lv : W9 m ρ c (Proc.devRef .tc main_v59_1) = lv (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) :=
  (show StableHlo.after hostOps4 (W8 m ρ c) (Proc.devRef .tc main_v59_1) = W8 m ρ c (Proc.devRef .tc main_v59_1) by after_results_simp <;> rfl).trans (k8_lv m ρ c)

theorem k9_z : W9 m ρ c (Proc.devRef .tc main_v59_2) = z (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (show StableHlo.after hostOps4 (W8 m ρ c) (Proc.devRef .tc main_v59_2) = W8 m ρ c (Proc.devRef .tc main_v59_2) by after_results_simp <;> rfl).trans (k8_z m ρ c)

theorem k9_dec : W9 m ρ c (Proc.devRef .tc main_v76) = dec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4 (W8 m ρ c) (Proc.devRef .tc main_v76) = _
  after_results_simp
  rw [k8_v75]
  rfl

end Cert.KernelIdeal.KChain

end
-- ==== Proof.LibEdgeRead.lean ====
/-
  Reading an edge list's gathers and accumulating scatters at an index, by coordinates.

  An edge list `idx : [E, 1]` of integer words names rows (or columns) of a node matrix. This file reads three host
  operations at an index, for any extents and any element type:
  * `gather_rows` / `rowGather_apply`: the gather `x[idx]` along the leading axis of `x : [N, C]` at `(e, k)` is
    `x (r, k)` with `r` the word `idx (e, 0)` read as a signed integer and clamped into `[0, N − 1]`;
  * `gather_cols` / `colGather_apply`: the gather along the trailing axis of `x : [R, N]` at `(r, e)` is `x (r, c)`
    with `c` that same clamped read;
  * `scatter_rows` / `rowScatter_apply` (with `rowScatter_resultIdx_iff`): the accumulating scatter of update rows
    `upd : [E, C]` into `x : [N, C]`, on the extended reals, at `(r, k)` is `x (r, k)` plus the sum of `upd (e, k)`
    over the edges `e` whose word `idx (e, 0)`, read signed, EQUALS `r` — no clamping: a negative or too large
    index names no row and its update is dropped.
  Then the corollaries for the dimension-number records of the two programs compared (kernel and reference), at
  100000 nodes and 1600000 edges, with the clamped row written `gRow idx e`.
-/
import proofs.«174899_j84129819394641_2_alg».proof.KernelIdeal
import proofs.«174899_j84129819394641_2_alg».proof.ReferenceIdeal
import Idealize.ShloMosaic.PureOps.Ideal
import Idealize.ShloMosaic.Lib.ValueIdx

noncomputable section

open scoped BigOperators

namespace Cert.EdgeRead

open Idealize.ShloMosaic Idealize.ShloMosaic.ValueIdx

/-- The two axes of a matrix are distinct. -/
theorem one_not_mem_zero : (1 : Fin 2) ∉ [(0 : Fin 2)] := by decide
theorem zero_not_mem_one : (0 : Fin 2) ∉ [(1 : Fin 2)] := by decide

/-! ## Gathering rows: `x[idx]` along the leading axis of a matrix -/

section RowGather
variable {α : Type} {N C E w : Nat}

/-- The dimension numbers of a row gather: operand `[N, C]`, start indices `[E, 1]`, result `[E, C]`; the result's
    second axis is the offset axis, the operand's first axis is collapsed and is the one the start index names,
    each slice is one whole row. -/
abbrev rowGather (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row gather at `(e, k)`: the operand at row `idx[e, 0]`, read signed and clamped into `[0, N − 1]`, column `k`. -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N C E wf) x idx (ix2 e k)
      = x (ix2 (⟨min (idx (ix2 e 0)).toInt.toNat (N - 1), by omega⟩ : Fin N) k) := by
  unfold Host.gather
  congr 1
  funext a
  refine Fin.ext ?_
  match a with
  | ⟨0, _⟩ =>
    show (rowGather N C E wf).start (ix2 e k) idx 0 + (rowGather N C E wf).batchCoord (ix2 e k) 0
      + (rowGather N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N C E wf).startIndexMap from List.mem_singleton.mpr rfl)]
    have hsi : (rowGather N C E wf).siIdx (ix2 e k) ⟨List.idxOf (0 : Fin 2) (rowGather N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N C E wf).start (ix2 e k) idx 1 + (rowGather N C E wf).batchCoord (ix2 e k) 1
      + (rowGather N C E wf).offCoord (ix2 e k) 1 = k.val
    rw [GatherDims.batchCoord_eq_zero _ _ _ List.not_mem_nil]
    have hs : (rowGather N C E wf).start (ix2 e k) idx 1 = 0 := by
      unfold GatherDims.start
      have hn : (1 : Fin 2) ∉ (rowGather N C E wf).startIndexMap := one_not_mem_zero
      rw [dif_neg hn]
    have ho : (rowGather N C E wf).offCoord (ix2 e k) 1 = k.val := by
      unfold GatherDims.offCoord
      have hm : (1 : Fin 2) ∈ (rowGather N C E wf).sKept :=
        (GatherDims.mem_sKept _ _).mpr ⟨one_not_mem_zero, List.not_mem_nil⟩
      rw [dif_pos hm]
      rfl
    rw [hs, ho]
    omega

/-- The same for any dimension-number record with those fields. -/
theorem gather_rows (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (k : Fin C) :
    Host.gather d x idx (ix2 e k)
      = x (ix2 (⟨min (idx (ix2 e 0)).toInt.toNat (N - 1), by omega⟩ : Fin N) k) := by
  cases d with
  | mk od cd ob sb sm iv ss wf =>
  simp only at h1 h2 h3 h4 h5 h6 h7
  subst h1 h2 h3 h4 h5 h6 h7
  exact rowGather_apply hN wf x idx e k

end RowGather

/-! ## Gathering columns: the same read along the trailing axis of a matrix -/

section ColGather
variable {α : Type} {R N E w : Nat}

/-- The dimension numbers of a column gather: operand `[R, N]`, start indices `[E, 1]`, result `[R, E]`; the result's
    first axis is the offset axis, the operand's second axis is collapsed and is the one the start index names,
    each slice is one whole column. -/
abbrev colGather (R N E : Nat)
    (wf : GatherDims.WF ⟨2, ![R, N]⟩ ⟨2, ![E, 1]⟩ ⟨2, ![R, E]⟩ [0] [1] [] [1] [] 1 ![R, 1]) :
    GatherDims ⟨2, ![R, N]⟩ ⟨2, ![E, 1]⟩ ⟨2, ![R, E]⟩ where
  offsetDims := [0]
  collapsedSliceDims := [1]
  operandBatchingDims := []
  startIndicesBatchingDims := []
  startIndexMap := [1]
  indexVectorDim := 1
  sliceSizes := ![R, 1]
  wf := wf

/-- The column gather at `(r, e)`: the operand at row `r`, column `idx[e, 0]` read signed and clamped into `[0, N − 1]`. -/
theorem colGather_apply (hN : 0 < N)
    (wf : GatherDims.WF ⟨2, ![R, N]⟩ ⟨2, ![E, 1]⟩ ⟨2, ![R, E]⟩ [0] [1] [] [1] [] 1 ![R, 1])
    (x : (⟨2, ![R, N]⟩ : Shape).Idx → α) (idx : IVec ⟨2, ![E, 1]⟩ w) (r : Fin R) (e : Fin E) :
    Host.gather (colGather R N E wf) x idx (ix2 r e)
      = x (ix2 r (⟨min (idx (ix2 e 0)).toInt.toNat (N - 1), by omega⟩ : Fin N)) := by
  unfold Host.gather
  congr 1
  funext a
  refine Fin.ext ?_
  match a with
  | ⟨0, _⟩ =>
    show (colGather R N E wf).start (ix2 r e) idx 0 + (colGather R N E wf).batchCoord (ix2 r e) 0
      + (colGather R N E wf).offCoord (ix2 r e) 0 = r.val
    rw [GatherDims.batchCoord_eq_zero _ _ _ List.not_mem_nil]
    have hs : (colGather R N E wf).start (ix2 r e) idx 0 = 0 := by
      unfold GatherDims.start
      have hn : (0 : Fin 2) ∉ (colGather R N E wf).startIndexMap := zero_not_mem_one
      rw [dif_neg hn]
    have ho : (colGather R N E wf).offCoord (ix2 r e) 0 = r.val := by
      unfold GatherDims.offCoord
      have hm : (0 : Fin 2) ∈ (colGather R N E wf).sKept :=
        (GatherDims.mem_sKept _ _).mpr ⟨zero_not_mem_one, List.not_mem_nil⟩
      rw [dif_pos hm]
      rfl
    rw [hs, ho]
    omega
  | ⟨1, _⟩ =>
    show (colGather R N E wf).start (ix2 r e) idx 1 + (colGather R N E wf).batchCoord (ix2 r e) 1
      + (colGather R N E wf).offCoord (ix2 r e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGather R N E wf).startIndexMap from List.mem_singleton.mpr rfl)]
    have hsi : (colGather R N E wf).siIdx (ix2 r e) ⟨List.idxOf (1 : Fin 2) (colGather R N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- The same for any dimension-number record with those fields. -/
theorem gather_cols (hN : 0 < N) (d : GatherDims ⟨2, ![R, N]⟩ ⟨2, ![E, 1]⟩ ⟨2, ![R, E]⟩)
    (h1 : d.offsetDims = [0]) (h2 : d.collapsedSliceDims = [1]) (h3 : d.operandBatchingDims = [])
    (h4 : d.startIndicesBatchingDims = []) (h5 : d.startIndexMap = [1]) (h6 : d.indexVectorDim = 1)
    (h7 : d.sliceSizes = ![R, 1])
    (x : (⟨2, ![R, N]⟩ : Shape).Idx → α) (idx : IVec ⟨2, ![E, 1]⟩ w) (r : Fin R) (e : Fin E) :
    Host.gather d x idx (ix2 r e)
      = x (ix2 r (⟨min (idx (ix2 e 0)).toInt.toNat (N - 1), by omega⟩ : Fin N)) := by
  cases d with
  | mk od cd ob sb sm iv ss wf =>
  simp only at h1 h2 h3 h4 h5 h6 h7
  subst h1 h2 h3 h4 h5 h6 h7
  exact colGather_apply hN wf x idx r e

end ColGather

/-! ## Accumulating rows: the segment sum along the leading axis of a matrix -/

/-- An axis is kept exactly when it is not listed. -/
theorem mem_kept {s : Shape} (l : List (Fin s.rank)) (a : Fin s.rank) : a ∈ s.kept l ↔ a ∉ l := by
  simp [Shape.kept, List.mem_filter, List.mem_finRange]

section RowScatter
variable {N C E w : Nat}

/-- The dimension numbers of a row scatter: operand `[N, C]`, scatter indices `[E, 1]`, updates `[E, C]`; the
    updates' second axis is the window axis, the operand's first axis is inserted and is the one the scatter index
    names: update row `e` goes, whole, to the operand row its index names. -/
abbrev rowScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the row axis the window starts at the scatter index, read signed. -/
theorem rowScatter_start0 : (rowScatter N C E wf).start (ix2 e k') idx 0 = (idx (ix2 e 0)).toInt := by
  unfold ScatterDims.start
  rw [dif_pos (show (0 : Fin 2) ∈ (rowScatter N C E wf).scatterDimsToOperandDims from List.mem_singleton.mpr rfl)]
  have hsi : (rowScatter N C E wf).siIdx (ix2 e k')
      ⟨List.idxOf (0 : Fin 2) (rowScatter N C E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis the window starts at zero. -/
theorem rowScatter_start1 : (rowScatter N C E wf).start (ix2 e k') idx 1 = 0 := by
  unfold ScatterDims.start
  have hn : (1 : Fin 2) ∉ (rowScatter N C E wf).scatterDimsToOperandDims := one_not_mem_zero
  rw [dif_neg hn]

/-- The row axis is inserted: no window coordinate. -/
theorem rowScatter_window0 : (rowScatter N C E wf).window (ix2 e k') 0 = 0 := by
  unfold ScatterDims.window
  have hn : (0 : Fin 2) ∉ (rowScatter N C E wf).sKept := fun h => (mem_kept _ _).mp h (List.mem_singleton.mpr rfl)
  rw [dif_neg hn]

/-- The column axis carries the update's column. -/
theorem rowScatter_window1 : (rowScatter N C E wf).window (ix2 e k') 1 = k'.val := by
  unfold ScatterDims.window
  have hm : (1 : Fin 2) ∈ (rowScatter N C E wf).sKept := (mem_kept _ _).mpr one_not_mem_zero
  rw [dif_pos hm]
  rfl

/-- Update `(e, k')` lands on `(r, k)` exactly when its index, read signed, is `r` and the columns agree. -/
theorem rowScatter_resultIdx_iff (r : Fin N) (k : Fin C) :
    (rowScatter N C E wf).resultIdx? (ix2 e k') idx = some (ix2 r k)
      ↔ (idx (ix2 e 0)).toInt = (r.val : Int) ∧ k' = k := by
  unfold ScatterDims.resultIdx?
  constructor
  · intro h
    split at h
    · rename_i hall
      have hf := Option.some.inj h
      have e0 : ((rowScatter N C E wf).start (ix2 e k') idx 0 + ((rowScatter N C E wf).window (ix2 e k') 0 : Nat)).toNat
          = r.val := congrArg Fin.val (congrFun hf 0)
      have e1 : ((rowScatter N C E wf).start (ix2 e k') idx 1 + ((rowScatter N C E wf).window (ix2 e k') 1 : Nat)).toNat
          = k.val := congrArg Fin.val (congrFun hf 1)
      have b0 := (hall 0).1
      rw [rowScatter_start0, rowScatter_window0] at e0 b0
      rw [rowScatter_start1, rowScatter_window1] at e1
      exact ⟨by omega, Fin.ext (by omega)⟩
    · exact absurd h (by simp)
  · rintro ⟨hr, rfl⟩
    have hall : ∀ a, 0 ≤ (rowScatter N C E wf).start (ix2 e k') idx a + ((rowScatter N C E wf).window (ix2 e k') a : Nat)
        ∧ (rowScatter N C E wf).start (ix2 e k') idx a + ((rowScatter N C E wf).window (ix2 e k') a : Nat)
          < ((⟨2, ![N, C]⟩ : Shape).size a : Nat) := by
      intro a
      match a with
      | ⟨0, _⟩ =>
        show 0 ≤ (rowScatter N C E wf).start (ix2 e k') idx 0 + ((rowScatter N C E wf).window (ix2 e k') 0 : Nat)
          ∧ (rowScatter N C E wf).start (ix2 e k') idx 0 + ((rowScatter N C E wf).window (ix2 e k') 0 : Nat) < (N : Int)
        rw [rowScatter_start0, rowScatter_window0]
        have := r.isLt
        omega
      | ⟨1, _⟩ =>
        show 0 ≤ (rowScatter N C E wf).start (ix2 e k') idx 1 + ((rowScatter N C E wf).window (ix2 e k') 1 : Nat)
          ∧ (rowScatter N C E wf).start (ix2 e k') idx 1 + ((rowScatter N C E wf).window (ix2 e k') 1 : Nat) < (C : Int)
        rw [rowScatter_start1, rowScatter_window1]
        have := k'.isLt
        omega
    rw [dif_pos hall]
    congr 1
    funext a
    refine Fin.ext ?_
    match a with
    | ⟨0, _⟩ =>
      show ((rowScatter N C E wf).start (ix2 e k') idx 0 + ((rowScatter N C E wf).window (ix2 e k') 0 : Nat)).toNat = r.val
      rw [rowScatter_start0, rowScatter_window0]
      omega
    | ⟨1, _⟩ =>
      show ((rowScatter N C E wf).start (ix2 e k') idx 1 + ((rowScatter N C E wf).window (ix2 e k') 1 : Nat)).toNat = k'.val
      rw [rowScatter_start1, rowScatter_window1]
      omega

/-- The accumulating row scatter at `(r, k)`: the operand's element plus the updates' column `k` over the edges whose
    index, read signed, is `r`. An index that is negative or at least `N` equals no row: its update is dropped. -/
theorem rowScatter_apply {φ : FTy} (x : FVec Ideal ⟨2, ![N, C]⟩ φ) (upd : FVec Ideal ⟨2, ![E, C]⟩ φ) (r : Fin N) (k : Fin C) :
    Host.scatterAdd (F := Ideal) (rowScatter N C E wf) x idx upd (ix2 r k)
      = x (ix2 r k)
        + ∑ e ∈ Finset.univ.filter (fun e : Fin E => (idx (ix2 e 0)).toInt = (r.val : Int)), upd (ix2 e k) := by
  show Ideal.hostScatterAdd (rowScatter N C E wf) x idx upd (ix2 r k) = _
  unfold Ideal.hostScatterAdd
  congr 1
  rw [Finset.sum_filter, Finset.sum_filter, sum_idx2]
  refine Finset.sum_congr rfl fun e _ => ?_
  rw [Finset.sum_eq_single k]
  · refine if_congr ?_ rfl rfl
    rw [rowScatter_resultIdx_iff]
    exact ⟨fun h => h.1, fun h => ⟨h, rfl⟩⟩
  · intro k' _ hk
    rw [if_neg]
    rw [rowScatter_resultIdx_iff]
    exact fun h => hk h.2
  · intro h
    exact absurd (Finset.mem_univ k) h

/-- The same for any dimension-number record with those fields. -/
theorem scatter_rows {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ φ) (upd : FVec Ideal ⟨2, ![E, C]⟩ φ) (r : Fin N) (k : Fin C) :
    Host.scatterAdd (F := Ideal) d x idx upd (ix2 r k)
      = x (ix2 r k)
        + ∑ e ∈ Finset.univ.filter (fun e : Fin E => (idx (ix2 e 0)).toInt = (r.val : Int)), upd (ix2 e k) := by
  cases d with
  | mk uw iw sd iv wf' =>
  simp only at h1 h2 h3 h4
  subst h1 h2 h3 h4
  exact rowScatter_apply wf' idx x upd r k

end RowScatter

/-! ## The kernel's and the reference's records, at 100000 nodes and 1600000 edges -/

/-- The node an edge's word names when a gather reads it: the word read signed, clamped into `[0, 99999]`. -/
def gRow (idx : IVec (⟨2, ![1600000, 1]⟩ : Shape) 32) (e : Fin 1600000) : Fin 100000 :=
  ⟨min (idx (ix2 e 0)).toInt.toNat 99999, by omega⟩

section Kernel
variable [Cert.KernelIdeal.Facts₀]

theorem gather_rows128_K {α : Type} (x : (⟨2, ![100000, 128]⟩ : Shape).Idx → α)
    (idx : IVec (⟨2, ![1600000, 1]⟩ : Shape) 32) (e : Fin 1600000) (k : Fin 128) :
    Host.gather Cert.KernelIdeal.gather_S100000x128_S1600000x1_S1600000x128_1_0_n_n_0_1_1128 x idx (ix2 e k)
      = x (ix2 (gRow idx e) k) :=
  gather_rows (by norm_num) _ rfl rfl rfl rfl rfl rfl rfl x idx e k

theorem gather_cols64_K {α : Type} (x : (⟨2, ![64, 100000]⟩ : Shape).Idx → α)
    (idx : IVec (⟨2, ![1600000, 1]⟩ : Shape) 32) (r : Fin 64) (e : Fin 1600000) :
    Host.gather Cert.KernelIdeal.gather_S64x100000_S1600000x1_S64x1600000_0_1_n_n_1_1_641 x idx (ix2 r e)
      = x (ix2 r (gRow idx e)) :=
  gather_cols (by norm_num) _ rfl rfl rfl rfl rfl rfl rfl x idx r e

theorem scatter_rows128_K (x : FVec Ideal (⟨2, ![100000, 128]⟩ : Shape) .f32)
    (idx : IVec (⟨2, ![1600000, 1]⟩ : Shape) 32) (upd : FVec Ideal (⟨2, ![1600000, 128]⟩ : Shape) .f32)
    (r : Fin 100000) (k : Fin 128) :
    Host.scatterAdd (F := Ideal) Cert.KernelIdeal.scatter_S100000x128_S1600000x1_S1600000x128_1_0_0_1 x idx upd (ix2 r k)
      = x (ix2 r k)
        + ∑ e ∈ Finset.univ.filter (fun e : Fin 1600000 => (idx (ix2 e 0)).toInt = (r.val : Int)), upd (ix2 e k) :=
  scatter_rows idx _ rfl rfl rfl rfl x upd r k

end Kernel

section Reference
variable [Cert.ReferenceIdeal.Facts₀]

theorem gather_rows128_R {α : Type} (x : (⟨2, ![100000, 128]⟩ : Shape).Idx → α)
    (idx : IVec (⟨2, ![1600000, 1]⟩ : Shape) 32) (e : Fin 1600000) (k : Fin 128) :
    Host.gather Cert.ReferenceIdeal.gather_S100000x128_S1600000x1_S1600000x128_1_0_n_n_0_1_1128 x idx (ix2 e k)
      = x (ix2 (gRow idx e) k) :=
  gather_rows (by norm_num) _ rfl rfl rfl rfl rfl rfl rfl x idx e k

theorem gather_rows64_R {α : Type} (x : (⟨2, ![100000, 64]⟩ : Shape).Idx → α)
    (idx : IVec (⟨2, ![1600000, 1]⟩ : Shape) 32) (e : Fin 1600000) (k : Fin 64) :
    Host.gather Cert.ReferenceIdeal.gather_S100000x64_S1600000x1_S1600000x64_1_0_n_n_0_1_164 x idx (ix2 e k)
      = x (ix2 (gRow idx e) k) :=
  gather_rows (by norm_num) _ rfl rfl rfl rfl rfl rfl rfl x idx e k

theorem scatter_rows128_R (x : FVec Ideal (⟨2, ![100000, 128]⟩ : Shape) .f32)
    (idx : IVec (⟨2, ![1600000, 1]⟩ : Shape) 32) (upd : FVec Ideal (⟨2, ![1600000, 128]⟩ : Shape) .f32)
    (r : Fin 100000) (k : Fin 128) :
    Host.scatterAdd (F := Ideal) Cert.ReferenceIdeal.scatter_S100000x128_S1600000x1_S1600000x128_1_0_0_1 x idx upd (ix2 r k)
      = x (ix2 r k)
        + ∑ e ∈ Finset.univ.filter (fun e : Fin 1600000 => (idx (ix2 e 0)).toInt = (r.val : Int)), upd (ix2 e k) :=
  scatter_rows idx _ rfl rfl rfl rfl x upd r k

theorem scatter_rows64_R (x : FVec Ideal (⟨2, ![100000, 64]⟩ : Shape) .f32)
    (idx : IVec (⟨2, ![1600000, 1]⟩ : Shape) 32) (upd : FVec Ideal (⟨2, ![1600000, 64]⟩ : Shape) .f32)
    (r : Fin 100000) (k : Fin 64) :
    Host.scatterAdd (F := Ideal) Cert.ReferenceIdeal.scatter_S100000x64_S1600000x1_S1600000x64_1_0_0_1 x idx upd (ix2 r k)
      = x (ix2 r k)
        + ∑ e ∈ Finset.univ.filter (fun e : Fin 1600000 => (idx (ix2 e 0)).toInt = (r.val : Int)), upd (ix2 e k) :=
  scatter_rows idx _ rfl rfl rfl rfl x upd r k

end Reference

end Cert.EdgeRead

end
-- ==== Proof.LibAggLinear.lean ====
/-
  Aggregating before or after a linear map gives the same result on finite data.

  Over the extended reals, for a finite set L of edges, rows hs e (the source row of edge e) and hi (the node's own row)
  over a finite column type, a weight column w, edge coefficients cf and a self coefficient d, all FINITE:
    sum over k of ((sum over e in L of hs e k · cf e) + hi k · d) · w k
      = (sum over e in L of (sum over k of hs e k · w k) · cf e) + (sum over k of hi k · w k) · d .
  The identity is distributivity and an exchange of two finite sums; on the extended reals distributivity needs every
  factor finite, which is why the hypotheses ask for it. Both sides may carry a leading zero summand (the segment sum's
  zero operand), as the programs write it.
-/
import Idealize.ShloMosaic.PureOps.Ideal

open scoped BigOperators

namespace Cert.LibAggLinear

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the reals. -/
theorem real_identity {κ ε : Type*} [Fintype κ] (L : Finset ε) (hs : ε → κ → ℝ) (hi w : κ → ℝ) (cf : ε → ℝ) (d : ℝ) :
    ∑ k, ((∑ e ∈ L, hs e k * cf e) + hi k * d) * w k
      = (∑ e ∈ L, (∑ k, hs e k * w k) * cf e) + (∑ k, hi k * w k) * d := by
  simp only [add_mul, Finset.sum_add_distrib, Finset.sum_mul]
  congr 1
  · rw [Finset.sum_comm]
    refine Finset.sum_congr rfl fun e _ => Finset.sum_congr rfl fun k _ => ?_
    ring
  · refine Finset.sum_congr rfl fun k _ => ?_
    ring

/-- The identity over the extended reals, every factor the coercion of a real. -/
theorem ereal_identity {κ ε : Type*} [Fintype κ] (L : Finset ε) (hs : ε → κ → EReal) (hi w : κ → EReal) (cf : ε → EReal)
    (d : EReal) (h1 : ∀ e k, ∃ r : ℝ, hs e k = (r : EReal)) (h2 : ∀ k, ∃ r : ℝ, hi k = (r : EReal))
    (h3 : ∀ k, ∃ r : ℝ, w k = (r : EReal)) (h4 : ∀ e, ∃ r : ℝ, cf e = (r : EReal)) (h5 : ∃ r : ℝ, d = (r : EReal)) :
    ∑ k, ((0 + ∑ e ∈ L, hs e k * cf e) + hi k * d) * w k
      = (0 + ∑ e ∈ L, (∑ k, hs e k * w k) * cf e) + (∑ k, hi k * w k) * d := by
  choose hs' ehs using h1
  choose hi' ehi using h2
  choose w' ew using h3
  choose cf' ecf using h4
  obtain ⟨d', rfl⟩ := h5
  simp only [ehs, ehi, ew, ecf, zero_add, ← EReal.coe_mul, ← coe_sum, ← EReal.coe_add]
  exact congrArg _ (real_identity L hs' hi' w' cf' d')

end Cert.LibAggLinear
-- ==== Proof.LibColumn.lean ====
/-
  A vector read as a column. For a vector x of length a, the cast of x to shape [a, 1] and the broadcast of x
  along axis 0 into shape [a, 1] are the same array: entry (r, 0) of either is x(r). Stated for any element
  type and any length.
-/
import Idealize.ShloMosaic.Lib.Pipeline.Value
import Idealize.ShloMosaic.Lib.ValueIdx

namespace Cert.LibColumn

open Idealize.ShloMosaic Idealize.ShloMosaic.ValueIdx

variable {α : Type}

/-- Entry (r, 0) of the cast of a length-a vector to shape [a, 1] is the vector's entry r. -/
theorem shapeCast_col_apply {a : ℕ} (x : (⟨1, ![a]⟩ : Shape).Idx → α)
    (h : (⟨1, ![a]⟩ : Shape).ShapeCasts ⟨2, ![a, 1]⟩) (j : (⟨2, ![a, 1]⟩ : Shape).Idx) :
    shapeCast ⟨2, ![a, 1]⟩ x h j = x (ix1 (j 0)) := by
  have h1 : (j 1).val = 0 := by
    have := (j 1).isLt
    simp only [Matrix.cons_val_one, Matrix.cons_val_zero] at this
    omega
  refine shapeCast_apply x h j (ix1 (j 0)) ?_
  rw [Shape.rowMajor_val_one, Shape.rowMajor_val_two, h1]
  simp
  rfl

/-- Entry (r, 0) of the broadcast of a length-a vector along axis 0 into shape [a, 1] is the vector's entry r. -/
theorem broadcastInDim_col_apply {a : ℕ} (x : (⟨1, ![a]⟩ : Shape).Idx → α)
    (hb : (⟨1, ![a]⟩ : Shape).BroadcastsInDim ⟨2, ![a, 1]⟩ ![0]) (j : (⟨2, ![a, 1]⟩ : Shape).Idx) :
    broadcastInDim ⟨2, ![a, 1]⟩ ![0] hb x j = x (ix1 (j 0)) := by
  refine broadcastInDim_apply ![0] hb x j (ix1 (j 0)) ?_
  intro d
  match d with
  | ⟨0, _⟩ =>
    show (j 0).val = if a = 1 then 0 else (j 0).val
    split_ifs with ha
    · have := (j 0).isLt
      simp only [Matrix.cons_val_zero] at this
      omega
    · rfl

/-- The cast to a column and the broadcast to a column are one array. -/
theorem shapeCast_col_eq_broadcastInDim {a : ℕ} (x : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ ![0]) :
    shapeCast ⟨2, ![a, 1]⟩ x h = broadcastInDim ⟨2, ![a, 1]⟩ ![0] hb x :=
  funext fun j => (shapeCast_col_apply x h j).trans (broadcastInDim_col_apply x hb j).symm

end Cert.LibColumn
-- ==== Proof.LibRow.lean ====
/-
  A vector read as a row. For a vector x of length b, the cast of x to shape [1, b] and the broadcast of x
  along axis 1 into shape [1, b] are the same array: entry (0, q) of either is x(q). Stated for any element
  type and any length.
-/
import Idealize.ShloMosaic.Lib.Pipeline.Value
import Idealize.ShloMosaic.Lib.ValueIdx

namespace Cert.LibRow

open Idealize.ShloMosaic Idealize.ShloMosaic.ValueIdx

variable {α : Type}

/-- Entry (0, q) of the cast of a length-b vector to shape [1, b] is the vector's entry q. -/
theorem shapeCast_row_apply {b : ℕ} (x : (⟨1, ![b]⟩ : Shape).Idx → α)
    (h : (⟨1, ![b]⟩ : Shape).ShapeCasts ⟨2, ![1, b]⟩) (j : (⟨2, ![1, b]⟩ : Shape).Idx) :
    shapeCast ⟨2, ![1, b]⟩ x h j = x (fun a => j a.succ) :=
  shapeCast_addUnit_apply ![b] x h j

/-- Entry (0, q) of the broadcast of a length-b vector along axis 1 into shape [1, b] is the vector's entry q. -/
theorem broadcastInDim_row_apply {b : ℕ} (x : (⟨1, ![b]⟩ : Shape).Idx → α)
    (hb : (⟨1, ![b]⟩ : Shape).BroadcastsInDim ⟨2, ![1, b]⟩ ![1]) (j : (⟨2, ![1, b]⟩ : Shape).Idx) :
    broadcastInDim ⟨2, ![1, b]⟩ ![1] hb x j = x (fun a => j a.succ) := by
  refine broadcastInDim_apply ![1] hb x j (fun a => j a.succ) ?_
  intro d
  match d with
  | ⟨0, _⟩ =>
    show (j 1).val = if b = 1 then 0 else (j 1).val
    split_ifs with hb1
    · have := (j 1).isLt
      simp only [Matrix.cons_val_one, Matrix.cons_val_zero] at this
      omega
    · rfl

/-- The cast to a row and the broadcast to a row are one array. -/
theorem shapeCast_row_eq_broadcastInDim {b : ℕ} (x : (⟨1, ![b]⟩ : Shape).Idx → α)
    (h : (⟨1, ![b]⟩ : Shape).ShapeCasts ⟨2, ![1, b]⟩)
    (hb : (⟨1, ![b]⟩ : Shape).BroadcastsInDim ⟨2, ![1, b]⟩ ![1]) :
    shapeCast ⟨2, ![1, b]⟩ x h = broadcastInDim ⟨2, ![1, b]⟩ ![1] hb x :=
  funext fun j => (shapeCast_row_apply x h j).trans (broadcastInDim_row_apply x hb j).symm

end Cert.LibRow
-- ==== Proof.HeadsDef.lean ====
/-
  The two 64-column heads (mean and log-variance) of the graph auto-encoder, against the reference's.
  The kernel aggregates the hidden rows over the edges FIRST and applies the 128 → 64 weight matrix after; the
  reference applies the weight matrix to every row first and aggregates the transformed rows. With
  L r the edges landing on node r, g e the source row of edge e, cf e the edge's coefficient and d r the node's squared
  inverse root degree, entry (r, c) of the kernel's head is
      sum over k of ((sum over e in L r of h(g e, k) · cf e) + h(r, k) · d r) · w(k, c)  +  b c
  and of the reference's
      (sum over e in L r of (sum over k of h(g e, k) · w(k, c)) · cf e) + (sum over k of h(r, k) · w(k, c)) · d r  +  b c .
  They agree when h, w, cf and d are finite: distributivity and an exchange of the two finite sums.
-/
import proofs.«174899_j84129819394641_2_alg».proof.Proof.Gen.ReferenceIdeal.Read
import proofs.«174899_j84129819394641_2_alg».proof.Proof.KStages
import proofs.«174899_j84129819394641_2_alg».proof.Proof.LibEdgeRead
import proofs.«174899_j84129819394641_2_alg».proof.Proof.LibAggLinear
import proofs.«174899_j84129819394641_2_alg».proof.Proof.LibColumn
import proofs.«174899_j84129819394641_2_alg».proof.Proof.LibRow
import Idealize.ShloMosaic.PureOps.Ideal.Laws

set_option maxRecDepth 16384

noncomputable section

open scoped BigOperators

namespace Cert.Bridge

open Idealize.ShloMosaic Idealize.ShloMosaic.ValueIdx
open Cert.KernelIdeal.KVal

/-- The reference's head as a function of the hidden layer h: transform every row, aggregate the transformed rows over
    the edges, add the self-loop term and the bias. -/
def refHead (h : FVec Ideal Cert.ReferenceIdeal.S100000x128 .f32) (x1 : IVec Cert.ReferenceIdeal.S2x1600000 32) (w : FVec Ideal Cert.ReferenceIdeal.S128x64 .f32)
    (b : FVec Ideal Cert.ReferenceIdeal.S64 .f32) : FVec Ideal Cert.ReferenceIdeal.S100000x64 .f32 :=
  addf (addf
    (Host.scatterAdd Cert.ReferenceIdeal.scatter_S100000x64_S1600000x1_S1600000x64_1_0_0_1 (Cert.ReferenceIdeal.Read.val_main_v75 (F := Ideal)) (Cert.ReferenceIdeal.Read.val_main_v76 (F := Ideal) x1)
      (mulf (Host.gather Cert.ReferenceIdeal.gather_S100000x64_S1600000x1_S1600000x64_1_0_n_n_0_1_164
          (Host.dotGeneral Cert.ReferenceIdeal.dot_S100000x128_S128x64_S100000x64_1_0_0_1_n_n none h w) (Cert.ReferenceIdeal.Read.val_main_v70 (F := Ideal) x1))
        (Cert.ReferenceIdeal.Read.val_main_v73 (F := Ideal) x1)))
    (mulf (Host.dotGeneral Cert.ReferenceIdeal.dot_S100000x128_S128x64_S100000x64_1_0_0_1_n_n none h w) (Cert.ReferenceIdeal.Read.val_main_v80 (F := Ideal) x1)))
    (Cert.ReferenceIdeal.Read.val_main_v84 (F := Ideal) b)

variable (x0 : FVec Ideal Cert.ReferenceIdeal.S100000x256 .f32) (x1 : IVec Cert.ReferenceIdeal.S2x1600000 32) (x3 : FVec Ideal Cert.ReferenceIdeal.S256x128 .f32)
  (x4 : FVec Ideal Cert.ReferenceIdeal.S128 .f32)

/-- The reference's mean is its head at the mean's weights. -/
theorem r_mu (x5 : FVec Ideal Cert.ReferenceIdeal.S128x64 .f32) (x6 : FVec Ideal Cert.ReferenceIdeal.S64 .f32) :
    Cert.ReferenceIdeal.Read.val_main_v85 (F := Ideal) x0 x1 x3 x4 x5 x6 = refHead (Cert.ReferenceIdeal.Read.val_main_v48 (F := Ideal) x0 x1 x3 x4) x1 x5 x6 := rfl
/-- The reference's log-variance is its head at the log-variance's weights. -/
theorem r_lv (x7 : FVec Ideal Cert.ReferenceIdeal.S128x64 .f32) (x8 : FVec Ideal Cert.ReferenceIdeal.S64 .f32) :
    Cert.ReferenceIdeal.Read.val_main_v122 (F := Ideal) x0 x1 x3 x4 x7 x8 = refHead (Cert.ReferenceIdeal.Read.val_main_v48 (F := Ideal) x0 x1 x3 x4) x1 x7 x8 := rfl

end Cert.Bridge

end
-- ==== Proof.HeadsRead.lean ====
/-
  The two 64-column heads (mean and log-variance) of the graph auto-encoder, against the reference's.
  The kernel aggregates the hidden rows over the edges FIRST and applies the 128 → 64 weight matrix after; the
  reference applies the weight matrix to every row first and aggregates the transformed rows. With
  L r the edges landing on node r, g e the source row of edge e, cf e the edge's coefficient and d r the node's squared
  inverse root degree, entry (r, c) of the kernel's head is
      sum over k of ((sum over e in L r of h(g e, k) · cf e) + h(r, k) · d r) · w(k, c)  +  b c
  and of the reference's
      (sum over e in L r of (sum over k of h(g e, k) · w(k, c)) · cf e) + (sum over k of h(r, k) · w(k, c)) · d r  +  b c .
  They agree when h, w, cf and d are finite: distributivity and an exchange of the two finite sums.
-/
import proofs.«174899_j84129819394641_2_alg».proof.Proof.Gen.ReferenceIdeal.Read
import proofs.«174899_j84129819394641_2_alg».proof.Proof.KStages
import proofs.«174899_j84129819394641_2_alg».proof.Proof.LibEdgeRead
import proofs.«174899_j84129819394641_2_alg».proof.Proof.LibAggLinear
import proofs.«174899_j84129819394641_2_alg».proof.Proof.LibColumn
import proofs.«174899_j84129819394641_2_alg».proof.Proof.LibRow
import Idealize.ShloMosaic.PureOps.Ideal.Laws

set_option maxRecDepth 16384

noncomputable section

open scoped BigOperators

namespace Cert.Bridge

open Idealize.ShloMosaic Idealize.ShloMosaic.ValueIdx
open Cert.KernelIdeal.KVal

variable (x0 : FVec Ideal Cert.ReferenceIdeal.S100000x256 .f32) (x1 : IVec Cert.ReferenceIdeal.S2x1600000 32) (x3 : FVec Ideal Cert.ReferenceIdeal.S256x128 .f32)
  (x4 : FVec Ideal Cert.ReferenceIdeal.S128 .f32)

/-- A row of the hidden layer against a column of the weights: the host's product read at an entry. -/
theorem dot_at (h : FVec Ideal Cert.ReferenceIdeal.S100000x128 .f32) (w : FVec Ideal Cert.ReferenceIdeal.S128x64 .f32) (p : Fin 100000) (c : Fin 64) :
    Host.dotGeneral Cert.ReferenceIdeal.dot_S100000x128_S128x64_S100000x64_1_0_0_1_n_n none h w (ix2 p c)
      = ∑ k : Fin 128, h (ix2 p k) * w (ix2 k c) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 p c) ((ValueIdx.contrEquiv1 Cert.ReferenceIdeal.dot_S100000x128_S128x64_S100000x64_1_0_0_1_n_n 128 rfl rfl).symm k) = ix2 p k := funext fun a => Fin.ext (by
    match a with
    | ⟨0, _⟩ => exact Cert.ReferenceIdeal.Read.lhs_main_v49_0 _ _
    | ⟨1, _⟩ => exact (Cert.ReferenceIdeal.Read.lhs_main_v49_1 _ _).trans hk)
  have er : Cert.ReferenceIdeal.dot_S100000x128_S128x64_S100000x64_1_0_0_1_n_n.rhsIdx (ix2 p c) ((ValueIdx.contrEquiv1 Cert.ReferenceIdeal.dot_S100000x128_S128x64_S100000x64_1_0_0_1_n_n 128 rfl rfl).symm k) = ix2 k c := funext fun a => Fin.ext (by
    match a with
    | ⟨0, _⟩ => exact (Cert.ReferenceIdeal.Read.rhs_main_v49_0 _ _).trans hk
    | ⟨1, _⟩ => exact Cert.ReferenceIdeal.Read.rhs_main_v49_1 _ _)
  rw [el, er]

/-- The edge coefficient spread over the 64 columns reads the edge's coefficient. -/
theorem coef64_at (e : Fin 1600000) (c : Fin 64) : Cert.ReferenceIdeal.Read.val_main_v73 (F := Ideal) x1 (ix2 e c) = coef x1 (ix1 e) := by
  rw [Cert.ReferenceIdeal.Read.val_main_v73_apply, Cert.ReferenceIdeal.Read.val_main_v72_apply]
  exact congrArg (coef x1) (funext fun a => by match a with | ⟨0, _⟩ => rfl)
/-- The edge coefficient spread over the 128 columns reads the edge's coefficient. -/
theorem coef128_at (e : Fin 1600000) (q : Fin 128) : Cert.ReferenceIdeal.Read.val_main_v35 (F := Ideal) x1 (ix2 e q) = coef x1 (ix1 e) := by
  rw [Cert.ReferenceIdeal.Read.val_main_v35_apply, Cert.ReferenceIdeal.Read.val_main_v34_apply]
  exact congrArg (coef x1) (funext fun a => by match a with | ⟨0, _⟩ => rfl)
/-- The squared inverse root degree spread over the 64 columns reads the node's. -/
theorem d2_64_at (r : Fin 100000) (c : Fin 64) :
    Cert.ReferenceIdeal.Read.val_main_v80 (F := Ideal) x1 (ix2 r c) = dinv x1 (ix1 r) * dinv x1 (ix1 r) := by
  rw [Cert.ReferenceIdeal.Read.val_main_v80_apply, Cert.ReferenceIdeal.Read.val_main_v79_apply, Cert.ReferenceIdeal.Read.val_main_v78_apply]
  have e : Cert.ReferenceIdeal.Read.idx_main_v79 (Cert.ReferenceIdeal.Read.idx_main_v80 (ix2 r c)) = ix1 r := funext fun a => by match a with | ⟨0, _⟩ => rfl
  rw [e]
  rfl
/-- The bias spread over the rows reads the column's bias. -/
theorem bias64_at (b : FVec Ideal Cert.ReferenceIdeal.S64 .f32) (r : Fin 100000) (c : Fin 64) : Cert.ReferenceIdeal.Read.val_main_v84 (F := Ideal) b (ix2 r c) = b (ix1 c) := by
  rw [Cert.ReferenceIdeal.Read.val_main_v84_apply, Cert.ReferenceIdeal.Read.val_main_v83_apply]
  exact congrArg b (funext fun a => by match a with | ⟨0, _⟩ => rfl)
/-- The segment sums start from zero. -/
theorem zero64_at (i : Cert.ReferenceIdeal.S100000x64.Idx) : Cert.ReferenceIdeal.Read.val_main_v75 (F := Ideal) i = 0 := by
  rw [Cert.ReferenceIdeal.Read.val_main_v75_apply, Cert.ReferenceIdeal.Read.val_main_cst_14_apply]
  exact Ideal.ofBits_zero_f32
theorem zero128_at (i : Cert.ReferenceIdeal.S100000x128.Idx) : Cert.ReferenceIdeal.Read.val_main_v37 (F := Ideal) i = 0 := by
  rw [Cert.ReferenceIdeal.Read.val_main_v37_apply, Cert.ReferenceIdeal.Read.val_main_cst_7_apply]
  exact Ideal.ofBits_zero_f32

/-- The kernel's aggregate, in the reference's spelling of its constant operands. -/
theorem aggregate_eq (h : FVec Ideal Cert.ReferenceIdeal.S100000x128 .f32) :
    aggregate h x1 = Host.scatterAdd Cert.KernelIdeal.scatter_S100000x128_S1600000x1_S1600000x128_1_0_0_1 (Cert.ReferenceIdeal.Read.val_main_v37 (F := Ideal)) (Cert.ReferenceIdeal.Read.val_main_v76 (F := Ideal) x1)
      (mulf (Host.gather Cert.KernelIdeal.gather_S100000x128_S1600000x1_S1600000x128_1_0_n_n_0_1_1128 h (Cert.ReferenceIdeal.Read.val_main_v70 (F := Ideal) x1)) (Cert.ReferenceIdeal.Read.val_main_v35 (F := Ideal) x1)) := rfl

end Cert.Bridge

end
-- ==== Proof.RefHidden.lean ====
/-
  The reference program's hidden layer, read entry by entry, is the hidden layer of the stage-by-stage description.

  The reference's first transform is the sum over the shared axis of products, entry by entry: the dense transform.
  Its hidden layer adds, to the neighbour aggregate, the transform scaled by the squared inverse root degree spread
  along each row, and the bias spread along each column, then clips at zero.  The description casts the squared
  inverse root degree to a column and the bias to a row where the reference broadcasts them; a cast to a column
  (row) and a broadcast to a column (row) read the same entry of the vector, so the two layers agree entry by entry.
-/
import proofs.«174899_j84129819394641_2_alg».proof.Proof.Gen.ReferenceIdeal.Read
import proofs.«174899_j84129819394641_2_alg».proof.Proof.KStages
import proofs.«174899_j84129819394641_2_alg».proof.Proof.Spec
import proofs.«174899_j84129819394641_2_alg».proof.Proof.LibColumn
import proofs.«174899_j84129819394641_2_alg».proof.Proof.LibRow

noncomputable section

open scoped BigOperators

namespace Cert.Bridge

open Cert.KernelIdeal.KVal Idealize.ShloMosaic Idealize.ShloMosaic.ValueIdx

/-- Entry (r, 0) of the square of a vector cast to a column is the square of the vector's entry r. -/
theorem col_sq {a : ℕ} (v : FVec Ideal (⟨1, ![a]⟩ : Shape) .f32)
    (h : (⟨1, ![a]⟩ : Shape).ShapeCasts ⟨2, ![a, 1]⟩) (r : Fin a) :
    shapeCast ⟨2, ![a, 1]⟩ (mulf v v) h (ix2 r 0) = v (ix1 r) * v (ix1 r) := by
  rw [Cert.LibColumn.shapeCast_col_apply]
  rfl

/-- Entry (0, q) of a vector cast to a row is the vector's entry q. -/
theorem row_entry {α : Type} {b : ℕ} (v : (⟨1, ![b]⟩ : Shape).Idx → α)
    (h : (⟨1, ![b]⟩ : Shape).ShapeCasts ⟨2, ![1, b]⟩) (q : Fin b) :
    shapeCast ⟨2, ![1, b]⟩ v h (ix2 0 q) = v (ix1 q) := by
  rw [Cert.LibRow.shapeCast_row_apply]
  congr 1
  funext a
  match a with
  | ⟨0, _⟩ => rfl

/-- The reference's first transform is the dense transform. -/
theorem r_h1 (x0 : FVec Ideal Cert.KernelIdeal.S100000x256 .f32) (x3 : FVec Ideal Cert.KernelIdeal.S256x128 .f32) :
    Cert.ReferenceIdeal.Read.val_main_v11 (F := Ideal) x0 x3 = h1 x0 x3 := by
  funext i
  rw [Cert.ReferenceIdeal.Read.val_main_v11_apply]
  unfold h1 Cert.Spec.dense1
  refine Finset.sum_congr rfl fun k _ => ?_
  have el : Cert.ReferenceIdeal.Read.lidx_main_v11 i k = ix2 (i 0) k := by
    funext a
    match a with
    | ⟨0, _⟩ => rfl
    | ⟨1, _⟩ => rfl
  have er : Cert.ReferenceIdeal.Read.ridx_main_v11 i k = ix2 k (i 1) := by
    funext a
    match a with
    | ⟨0, _⟩ => rfl
    | ⟨1, _⟩ => rfl
  rw [el, er]
  rfl

/-- The reference's inverse root degree is the description's, term for term. -/
theorem r_dinv (x1 : IVec Cert.KernelIdeal.S2x1600000 32) :
    Cert.ReferenceIdeal.Read.val_main_v10 (F := Ideal) x1 = dinv x1 := rfl

/-- The reference's first aggregate is the description's aggregate of the reference's transform, term for term. -/
theorem r_agg (x0 : FVec Ideal Cert.KernelIdeal.S100000x256 .f32) (x1 : IVec Cert.KernelIdeal.S2x1600000 32)
    (x3 : FVec Ideal Cert.KernelIdeal.S256x128 .f32) :
    Cert.ReferenceIdeal.Read.val_main_v39 (F := Ideal) x0 x1 x3
      = aggregate (Cert.ReferenceIdeal.Read.val_main_v11 (F := Ideal) x0 x3) x1 := rfl

/-- The reference's hidden layer is the hidden layer. -/
theorem r_hid (x0 : FVec Ideal Cert.KernelIdeal.S100000x256 .f32) (x1 : IVec Cert.KernelIdeal.S2x1600000 32)
    (x3 : FVec Ideal Cert.KernelIdeal.S256x128 .f32) (x4 : FVec Ideal Cert.KernelIdeal.S128 .f32) :
    Cert.ReferenceIdeal.Read.val_main_v48 (F := Ideal) x0 x1 x3 x4 = hid x0 x1 x3 x4 := by
  funext i
  have e41 : Cert.ReferenceIdeal.Read.idx_main_v41 (Cert.ReferenceIdeal.Read.idx_main_v42 i) = ix1 (i 0) := by
    funext a
    match a with
    | ⟨0, _⟩ => rfl
  have e45 : Cert.ReferenceIdeal.Read.idx_main_v45 (Cert.ReferenceIdeal.Read.idx_main_v46 i) = ix1 (i 1) := by
    funext a
    match a with
    | ⟨0, _⟩ => rfl
  have hcol : d2col x1 (ix2 (i 0) 0) = dinv x1 (ix1 (i 0)) * dinv x1 (ix1 (i 0)) := by
    unfold d2col
    exact col_sq (dinv x1) _ (i 0)
  have hrow : shapeCast Cert.KernelIdeal.S1x128 x4 Cert.KernelIdeal.Facts₀.shapeCasts_S128_S1x128 (ix2 0 (i 1))
      = x4 (ix1 (i 1)) := row_entry x4 _ (i 1)
  rw [Cert.ReferenceIdeal.Read.val_main_v48_apply, Cert.ReferenceIdeal.Read.val_main_v47_apply,
    Cert.ReferenceIdeal.Read.val_main_v44_apply, Cert.ReferenceIdeal.Read.val_main_v43_apply,
    Cert.ReferenceIdeal.Read.val_main_v46_apply, Cert.ReferenceIdeal.Read.val_main_v45_apply,
    Cert.ReferenceIdeal.Read.val_main_v42_apply, Cert.ReferenceIdeal.Read.val_main_v41_apply,
    Cert.ReferenceIdeal.Read.val_main_v40_apply, Cert.ReferenceIdeal.Read.val_main_call0_v0_apply,
    Cert.ReferenceIdeal.Read.val_main_call0_cst_apply, e41, e45, r_agg, r_h1, r_dinv]
  simp only [Ideal.maximumf_def, Ideal.addf_def, Ideal.mulf_def, Ideal.ofBits_def]
  unfold hid Cert.Spec.reluLayer Cert.Spec.selfMix
  rw [hcol, hrow]
  rfl

end Cert.Bridge

end
-- ==== Proof.Heads.lean ====
/-
  The two 64-column heads (mean and log-variance) of the graph auto-encoder, against the reference's.
  The kernel aggregates the hidden rows over the edges FIRST and applies the 128 → 64 weight matrix after; the
  reference applies the weight matrix to every row first and aggregates the transformed rows. With
  L r the edges landing on node r, g e the source row of edge e, cf e the edge's coefficient and d r the node's squared
  inverse root degree, entry (r, c) of the kernel's head is
      sum over k of ((sum over e in L r of h(g e, k) · cf e) + h(r, k) · d r) · w(k, c)  +  b c
  and of the reference's
      (sum over e in L r of (sum over k of h(g e, k) · w(k, c)) · cf e) + (sum over k of h(r, k) · w(k, c)) · d r  +  b c .
  They agree when h, w, cf and d are finite: distributivity and an exchange of the two finite sums.
-/
import proofs.«174899_j84129819394641_2_alg».proof.Proof.Gen.ReferenceIdeal.Read
import proofs.«174899_j84129819394641_2_alg».proof.Proof.KStages
import proofs.«174899_j84129819394641_2_alg».proof.Proof.LibEdgeRead
import proofs.«174899_j84129819394641_2_alg».proof.Proof.LibAggLinear
import proofs.«174899_j84129819394641_2_alg».proof.Proof.LibColumn
import proofs.«174899_j84129819394641_2_alg».proof.Proof.LibRow
import proofs.«174899_j84129819394641_2_alg».proof.Proof.HeadsDef
import proofs.«174899_j84129819394641_2_alg».proof.Proof.HeadsRead
import proofs.«174899_j84129819394641_2_alg».proof.Proof.RefHidden
import Idealize.ShloMosaic.PureOps.Ideal.Laws

set_option maxRecDepth 16384

noncomputable section

open scoped BigOperators

namespace Cert.Bridge

open Idealize.ShloMosaic Idealize.ShloMosaic.ValueIdx
open Cert.KernelIdeal.KVal

variable (x0 : FVec Ideal Cert.ReferenceIdeal.S100000x256 .f32) (x1 : IVec Cert.ReferenceIdeal.S2x1600000 32) (x3 : FVec Ideal Cert.ReferenceIdeal.S256x128 .f32)
  (x4 : FVec Ideal Cert.ReferenceIdeal.S128 .f32)

/-- The two heads over ABSTRACT operands: any zero arrays Z, any index columns, any spreads C of an edge coefficient cf, D of a
    node coefficient dd and B of a bias bb. Aggregating h and then applying w equals applying w and then aggregating, when
    h, w, cf and dd are finite. -/
theorem head_abstract (h : FVec Ideal Cert.ReferenceIdeal.S100000x128 .f32) (w : FVec Ideal Cert.ReferenceIdeal.S128x64 .f32)
    (Z128 : FVec Ideal Cert.ReferenceIdeal.S100000x128 .f32) (Z64 : FVec Ideal Cert.ReferenceIdeal.S100000x64 .f32)
    (idS idG : IVec Cert.ReferenceIdeal.S1600000x1 32)
    (C128 : FVec Ideal Cert.ReferenceIdeal.S1600000x128 .f32) (C64 : FVec Ideal Cert.ReferenceIdeal.S1600000x64 .f32)
    (D64 B64 : FVec Ideal Cert.ReferenceIdeal.S100000x64 .f32) (d2c : FVec Ideal Cert.ReferenceIdeal.S100000x1 .f32) (brow : FVec Ideal Cert.ReferenceIdeal.S1x64 .f32)
    (cf : Fin 1600000 → EReal) (dd : Fin 100000 → EReal) (bb : Fin 64 → EReal)
    (hZ128 : ∀ i, Z128 i = 0) (hZ64 : ∀ i, Z64 i = 0)
    (hC128 : ∀ (e : Fin 1600000) (q : Fin 128), C128 (ix2 e q) = cf e) (hC64 : ∀ (e : Fin 1600000) (c : Fin 64), C64 (ix2 e c) = cf e)
    (hD64 : ∀ (r : Fin 100000) (c : Fin 64), D64 (ix2 r c) = dd r) (hd2c : ∀ r : Fin 100000, d2c (ix2 r 0) = dd r)
    (hB64 : ∀ (r : Fin 100000) (c : Fin 64), B64 (ix2 r c) = bb c) (hbrow : ∀ c : Fin 64, brow (ix2 0 c) = bb c)
    (hh : ∀ i, ∃ t : ℝ, h i = (t : EReal)) (hw : ∀ i, ∃ t : ℝ, w i = (t : EReal))
    (hcf : ∀ e, ∃ t : ℝ, cf e = (t : EReal)) (hdd : ∀ r, ∃ t : ℝ, dd r = (t : EReal)) :
    Cert.Spec.affine (Cert.Spec.selfMix (Host.scatterAdd Cert.KernelIdeal.scatter_S100000x128_S1600000x1_S1600000x128_1_0_0_1 Z128 idS (mulf (Host.gather Cert.KernelIdeal.gather_S100000x128_S1600000x1_S1600000x128_1_0_n_n_0_1_1128 h idG) C128)) h d2c) w brow
      = addf (addf (Host.scatterAdd Cert.ReferenceIdeal.scatter_S100000x64_S1600000x1_S1600000x64_1_0_0_1 Z64 idS (mulf (Host.gather Cert.ReferenceIdeal.gather_S100000x64_S1600000x1_S1600000x64_1_0_n_n_0_1_164 (Host.dotGeneral Cert.ReferenceIdeal.dot_S100000x128_S128x64_S100000x64_1_0_0_1_n_n none h w) idG) C64))
          (mulf (Host.dotGeneral Cert.ReferenceIdeal.dot_S100000x128_S128x64_S100000x64_1_0_0_1_n_n none h w) D64)) B64 := by
  funext i
  obtain ⟨r, c, rfl⟩ : ∃ (r : Fin 100000) (c : Fin 64), i = ix2 r c := ⟨i 0, i 1, eq_ix2 i⟩
  unfold Cert.Spec.affine Cert.Spec.selfMix
  show (∑ q : Fin 128, (Host.scatterAdd Cert.KernelIdeal.scatter_S100000x128_S1600000x1_S1600000x128_1_0_0_1 Z128 idS (mulf (Host.gather Cert.KernelIdeal.gather_S100000x128_S1600000x1_S1600000x128_1_0_n_n_0_1_1128 h idG) C128) (ix2 r q) + h (ix2 r q) * d2c (ix2 r 0)) * w (ix2 q c))
      + brow (ix2 0 c) = _
  rw [hd2c, hbrow, addf_apply, addf_apply, mulf_apply, Cert.EdgeRead.scatter_rows64_R, hZ64, dot_at, hD64, hB64]
  simp only [Cert.EdgeRead.scatter_rows128_K, hZ128, mulf_apply, Cert.EdgeRead.gather_rows128_K, Cert.EdgeRead.gather_rows64_R,
    hC128, hC64, dot_at]
  refine congrArg (· + bb c) ?_
  exact Cert.LibAggLinear.ereal_identity _ (fun e k => h (ix2 (Cert.EdgeRead.gRow idG e) k)) (fun k => h (ix2 r k))
    (fun k => w (ix2 k c)) cf (dd r) (fun e k => hh _) (fun k => hh _) (fun k => hw _) hcf (hdd r)

/-- THE HEADS AGREE on finite data. -/
theorem head_eq (h : FVec Ideal Cert.ReferenceIdeal.S100000x128 .f32) (w : FVec Ideal Cert.ReferenceIdeal.S128x64 .f32) (b : FVec Ideal Cert.ReferenceIdeal.S64 .f32)
    (hh : ∀ i, ∃ r : ℝ, h i = (r : EReal)) (hw : ∀ i, ∃ r : ℝ, w i = (r : EReal))
    (hc : ∀ e, ∃ r : ℝ, coef x1 e = (r : EReal)) (hd : ∀ i, ∃ r : ℝ, dinv x1 i = (r : EReal)) :
    Cert.Spec.affine (Cert.Spec.selfMix (aggregate h x1) h (d2col x1)) w (shapeCast _ b Cert.KernelIdeal.Facts₀.shapeCasts_S64_S1x64) = refHead h x1 w b := by
  have key := head_abstract h w (Cert.ReferenceIdeal.Read.val_main_v37 (F := Ideal)) (Cert.ReferenceIdeal.Read.val_main_v75 (F := Ideal)) (Cert.ReferenceIdeal.Read.val_main_v76 (F := Ideal) x1)
    (Cert.ReferenceIdeal.Read.val_main_v70 (F := Ideal) x1) (Cert.ReferenceIdeal.Read.val_main_v35 (F := Ideal) x1) (Cert.ReferenceIdeal.Read.val_main_v73 (F := Ideal) x1) (Cert.ReferenceIdeal.Read.val_main_v80 (F := Ideal) x1)
    (Cert.ReferenceIdeal.Read.val_main_v84 (F := Ideal) b) (d2col x1) (shapeCast _ b Cert.KernelIdeal.Facts₀.shapeCasts_S64_S1x64)
    (fun e => coef x1 (ix1 e)) (fun r => dinv x1 (ix1 r) * dinv x1 (ix1 r)) (fun c => b (ix1 c))
    zero128_at zero64_at (coef128_at x1) (coef64_at x1) (d2_64_at x1)
    (fun r => by unfold d2col; exact col_sq (dinv x1) _ r)
    (bias64_at b) (fun c => row_entry b _ c) hh hw (fun e => hc _)
    (fun r => by obtain ⟨t, ht⟩ := hd (ix1 r); exact ⟨t * t, by rw [ht, EReal.coe_mul]⟩)
  rw [aggregate_eq]
  unfold refHead
  exact key

end Cert.Bridge

end
-- ==== Proof.LibStats.lean ====
/-
  Sums over blocks of rows, the two formulas for a population variance, and which extended reals are finite.

  A batch statistic over `m * n` rows may be accumulated block by block (`m` blocks of `n` rows) or in one pass:
  in a commutative monoid the two sums agree.  The population variance of finitely many REAL numbers is
  both the mean of the squared deviations and the mean of the squares minus the squared mean, and it is never
  negative, so clamping the second form at zero changes nothing.  On the extended reals these identities need the
  numbers to be finite (a product distributes over a sum only away from the infinities), so the last part collects
  the closure properties of "finite" under the arithmetic the two programs use.
-/
import Idealize.ShloMosaic.PureOps.Ideal

noncomputable section

namespace Cert.LibStats

open Idealize.ShloMosaic

/-! ## Sums block by block -/

/-- A sum over `m * n` consecutive indices, taken as `m` blocks of `n`: row `n * b + r` is row `r` of block `b`. -/
theorem sum_blocks {M : Type*} [AddCommMonoid M] (m n : ℕ) (g : Fin (m * n) → M)
    (h : ∀ (b : Fin m) (r : Fin n), n * (b : ℕ) + (r : ℕ) < m * n) :
    ∑ b : Fin m, ∑ r : Fin n, g ⟨n * (b : ℕ) + (r : ℕ), h b r⟩ = ∑ i, g i := by
  rw [← Fintype.sum_prod_type' (f := fun (b : Fin m) (r : Fin n) => g ⟨n * (b : ℕ) + (r : ℕ), h b r⟩)]
  refine Fintype.sum_equiv finProdFinEquiv _ _ (fun p => ?_)
  refine congrArg g (Fin.ext ?_)
  simp [finProdFinEquiv, Nat.add_comm]

/-! ## Coercions -/

/-- The coercion of reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The two variance formulas, over the reals -/

/-- Mean of squares minus squared mean is the mean of squared deviations. -/
theorem var_forms {ι : Type*} [Fintype ι] (p : ι → ℝ) (N : ℝ) (hN : (Fintype.card ι : ℝ) = N) (hN0 : N ≠ 0) :
    (∑ i, p i * p i) / N - (∑ i, p i) / N * ((∑ i, p i) / N)
      = (∑ i, (p i - (∑ i, p i) / N) * (p i - (∑ i, p i) / N)) / N := by
  have h1 : ∑ i, (p i - (∑ i, p i) / N) * (p i - (∑ i, p i) / N)
      = (∑ i, p i * p i) - 2 * ((∑ i, p i) / N) * (∑ i, p i) + N * (((∑ i, p i) / N) * ((∑ i, p i) / N)) := by
    have : ∀ i, (p i - (∑ i, p i) / N) * (p i - (∑ i, p i) / N)
        = p i * p i - 2 * ((∑ i, p i) / N) * p i + ((∑ i, p i) / N) * ((∑ i, p i) / N) := fun i => by ring
    simp only [this, Finset.sum_add_distrib, Finset.sum_sub_distrib, ← Finset.mul_sum, Finset.sum_const, Finset.card_univ,
      nsmul_eq_mul, hN]
    ring
  rw [h1]
  field_simp
  ring

/-- The mean of squared deviations is not negative. -/
theorem var_nonneg {ι : Type*} [Fintype ι] (p : ι → ℝ) (μ N : ℝ) (hN : 0 < N) :
    0 ≤ (∑ i, (p i - μ) * (p i - μ)) / N :=
  div_nonneg (Finset.sum_nonneg fun i _ => mul_self_nonneg _) hN.le

/-- Clamping "mean of squares minus squared mean" at zero leaves the mean of squared deviations. -/
theorem var_clamped {ι : Type*} [Fintype ι] (p : ι → ℝ) (N : ℝ) (hN : (Fintype.card ι : ℝ) = N) (hN0 : 0 < N) :
    max ((∑ i, p i * p i) / N - (∑ i, p i) / N * ((∑ i, p i) / N)) 0
      = (∑ i, (p i - (∑ i, p i) / N) * (p i - (∑ i, p i) / N)) / N := by
  rw [var_forms p N hN hN0.ne']
  exact max_eq_left (var_nonneg p _ N hN0)

/-! ## Finite extended reals -/

/-- An extended real that is a real number. -/
def IsFin (x : EReal) : Prop := ∃ r : ℝ, x = (r : EReal)

theorem IsFin.coe (r : ℝ) : IsFin (r : EReal) := ⟨r, rfl⟩
theorem IsFin.zero : IsFin 0 := ⟨0, rfl⟩
theorem IsFin.one : IsFin 1 := ⟨1, rfl⟩
theorem IsFin.add {x y : EReal} : IsFin x → IsFin y → IsFin (x + y)
  | ⟨a, ha⟩, ⟨b, hb⟩ => ⟨a + b, by rw [ha, hb, EReal.coe_add]⟩
theorem IsFin.sub {x y : EReal} : IsFin x → IsFin y → IsFin (x - y)
  | ⟨a, ha⟩, ⟨b, hb⟩ => ⟨a - b, by rw [ha, hb, EReal.coe_sub]⟩
theorem IsFin.mul {x y : EReal} : IsFin x → IsFin y → IsFin (x * y)
  | ⟨a, ha⟩, ⟨b, hb⟩ => ⟨a * b, by rw [ha, hb, EReal.coe_mul]⟩
theorem IsFin.max {x y : EReal} : IsFin x → IsFin y → IsFin (max x y)
  | ⟨a, ha⟩, ⟨b, hb⟩ => ⟨Max.max a b, by rw [ha, hb]; exact (EReal.coe_strictMono.monotone.map_max).symm⟩
theorem IsFin.sum {ι : Type*} (s : Finset ι) (f : ι → EReal) (h : ∀ i ∈ s, IsFin (f i)) : IsFin (∑ i ∈ s, f i) := by
  classical
  induction s using Finset.induction_on with
  | empty => simpa using IsFin.zero
  | insert a s ha ih =>
    rw [Finset.sum_insert ha]
    exact (h a (Finset.mem_insert_self a s)).add (ih fun i hi => h i (Finset.mem_insert_of_mem hi))

/-- A quotient by a nonzero real is the real quotient. -/
theorem div_coe_coe (a b : ℝ) (hb : b ≠ 0) : Ideal.div (a : EReal) (b : EReal) = ((a / b : ℝ) : EReal) := by
  rw [Ideal.div_coe hb, ← EReal.coe_mul, mul_one_div]

theorem IsFin.div {x y : EReal} : IsFin x → IsFin y → y ≠ 0 → IsFin (Ideal.div x y)
  | ⟨a, ha⟩, ⟨b, hb⟩, h0 => ⟨a / b, by
      subst ha hb
      exact div_coe_coe a b (by rintro rfl; exact h0 rfl)⟩

/-- The square root of a nonnegative real. -/
theorem sqrt_coe (r : ℝ) (hr : 0 ≤ r) : Ideal.sqrt (r : EReal) = ((Real.sqrt r : ℝ) : EReal) := by
  show (if r < 0 then (⊥ : EReal) else (Real.sqrt r : EReal)) = _
  rw [if_neg (not_lt.mpr hr)]

/-- The reciprocal square root of a positive real. -/
theorem rsqrt_coe (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-! ## The variance formulas on finite extended reals -/

theorem coe_max (a b : ℝ) : ((Max.max a b : ℝ) : EReal) = Max.max (a : EReal) (b : EReal) :=
  EReal.coe_strictMono.monotone.map_max

/-- Finitely many finite extended reals are the coercions of reals. -/
theorem exists_real {ι : Type*} (x : ι → EReal) (hx : ∀ i, IsFin (x i)) : ∃ p : ι → ℝ, x = fun i => (p i : EReal) :=
  ⟨fun i => (hx i).choose, funext fun i => (hx i).choose_spec⟩

/-- For finite entries, "mean of squares minus squared mean, clamped at zero" is the mean of squared deviations. -/
theorem var_clamped_ereal {ι : Type*} [Fintype ι] (x : ι → EReal) (hx : ∀ i, IsFin (x i)) (N : ℝ)
    (hN : (Fintype.card ι : ℝ) = N) (hN0 : 0 < N) :
    Max.max (Ideal.div (∑ i, x i * x i) (N : EReal)
        - Ideal.div (∑ i, x i) (N : EReal) * Ideal.div (∑ i, x i) (N : EReal)) 0
      = Ideal.div (∑ i, (x i - Ideal.div (∑ i, x i) (N : EReal)) * (x i - Ideal.div (∑ i, x i) (N : EReal))) (N : EReal) := by
  obtain ⟨p, rfl⟩ := exists_real x hx
  simp only [← EReal.coe_mul, ← coe_sum, div_coe_coe _ _ hN0.ne', ← EReal.coe_sub]
  rw [← EReal.coe_zero, ← coe_max, var_clamped p N hN hN0]

/-! ## Signs -/

/-- A nonnegative real, as an extended real. -/
def IsNonneg (x : EReal) : Prop := ∃ r : ℝ, 0 ≤ r ∧ x = (r : EReal)
/-- A positive real, as an extended real. -/
def IsPos (x : EReal) : Prop := ∃ r : ℝ, 0 < r ∧ x = (r : EReal)

theorem IsNonneg.isFin {x : EReal} : IsNonneg x → IsFin x | ⟨r, _, h⟩ => ⟨r, h⟩
theorem IsPos.isFin {x : EReal} : IsPos x → IsFin x | ⟨r, _, h⟩ => ⟨r, h⟩
theorem IsPos.isNonneg {x : EReal} : IsPos x → IsNonneg x | ⟨r, h0, h⟩ => ⟨r, h0.le, h⟩
theorem IsPos.ne_zero {x : EReal} : IsPos x → x ≠ 0
  | ⟨r, h0, h⟩ => by rw [h]; exact_mod_cast h0.ne'
theorem IsNonneg.zero : IsNonneg 0 := ⟨0, le_rfl, rfl⟩
theorem IsFin.mul_self_nonneg {x : EReal} : IsFin x → IsNonneg (x * x)
  | ⟨a, ha⟩ => ⟨a * a, _root_.mul_self_nonneg a, by rw [ha, EReal.coe_mul]⟩
theorem IsNonneg.add {x y : EReal} : IsNonneg x → IsNonneg y → IsNonneg (x + y)
  | ⟨a, ha0, ha⟩, ⟨b, hb0, hb⟩ => ⟨a + b, add_nonneg ha0 hb0, by rw [ha, hb, EReal.coe_add]⟩
theorem IsNonneg.add_pos {x y : EReal} : IsNonneg x → IsPos y → IsPos (x + y)
  | ⟨a, ha0, ha⟩, ⟨b, hb0, hb⟩ => ⟨a + b, add_pos_of_nonneg_of_pos ha0 hb0, by rw [ha, hb, EReal.coe_add]⟩
theorem IsNonneg.sum {ι : Type*} (s : Finset ι) (f : ι → EReal) (h : ∀ i ∈ s, IsNonneg (f i)) : IsNonneg (∑ i ∈ s, f i) := by
  classical
  induction s using Finset.induction_on with
  | empty => simpa using IsNonneg.zero
  | insert a s ha ih =>
    rw [Finset.sum_insert ha]
    exact (h a (Finset.mem_insert_self a s)).add (ih fun i hi => h i (Finset.mem_insert_of_mem hi))
theorem IsNonneg.sqrt {x : EReal} : IsNonneg x → IsNonneg (Ideal.sqrt x)
  | ⟨a, ha0, ha⟩ => ⟨Real.sqrt a, Real.sqrt_nonneg a, by rw [ha, sqrt_coe a ha0]⟩
theorem IsNonneg.max_pos {x y : EReal} : IsNonneg x → IsPos y → IsPos (Max.max x y)
  | ⟨a, _, ha⟩, ⟨b, hb0, hb⟩ => ⟨Max.max a b, lt_max_of_lt_right hb0, by rw [ha, hb, coe_max]⟩
theorem IsFin.max_zero_nonneg {x : EReal} : IsFin x → IsNonneg (Max.max x 0)
  | ⟨a, ha⟩ => ⟨Max.max a 0, le_max_right a 0, by rw [ha, ← EReal.coe_zero, coe_max]⟩
theorem IsPos.rsqrt {x : EReal} : IsPos x → IsFin (Ideal.rsqrt x)
  | ⟨a, ha0, ha⟩ => ⟨(Real.sqrt a)⁻¹, by rw [ha, rsqrt_coe a ha0]⟩
theorem IsNonneg.div_pos {x y : EReal} : IsNonneg x → IsPos y → IsNonneg (Ideal.div x y)
  | ⟨a, ha0, ha⟩, ⟨b, hb0, hb⟩ => ⟨a / b, div_nonneg ha0 hb0.le, by rw [ha, hb, div_coe_coe a b hb0.ne']⟩
theorem IsFin.div_pos {x y : EReal} (hx : IsFin x) (hy : IsPos y) : IsFin (Ideal.div x y) :=
  hx.div hy.isFin hy.ne_zero

/-- Multiplying by the reciprocal of a nonzero divisor is dividing by it. -/
theorem mul_one_div (x y : EReal) (hy : y ≠ 0) : x * Ideal.div 1 y = Ideal.div x y := by
  rw [Ideal.div, Ideal.div, if_neg hy, if_neg hy, one_mul]

end Cert.LibStats

end
-- ==== Proof.Finite.lean ====
/-
  The kernel's intermediate stages take finite values: every entry is the coercion of a real number.

  The inverse root degree is the reciprocal square root of 1 plus a sum of ones (a nonnegative real whichever edges
  land on the node), hence of a positive real, hence real.  Every later stage is built from it and from the inputs
  by sums, products, maxima and re-indexings (casts, broadcasts, gathers), all of which keep entries finite; an
  accumulating scatter is the operand's entry plus a finite sum of update entries, finite whichever updates land.
-/
import proofs.«174899_j84129819394641_2_alg».proof.Proof.KStages
import proofs.«174899_j84129819394641_2_alg».proof.Proof.LibStats
import proofs.«174899_j84129819394641_2_alg».proof.Proof.Spec
import Idealize.ShloMosaic.Lib.ValueIdx
import Idealize.ShloMosaic.PureOps.Ideal.Laws

noncomputable section

open scoped BigOperators

namespace Cert.Finite

open Cert.KernelIdeal Cert.KernelIdeal.KVal Cert.LibStats Idealize.ShloMosaic Idealize.ShloMosaic.ValueIdx

/-! ## A property of every entry passes through the vector operations -/

section Entrywise
variable {s t si su : Shape} {w : Nat}

/-- The word 0x3F800000 denotes one. -/
theorem one_f32 : Ideal.ofBits .f32 0x3F800000#32 = (1 : EReal) := by
  simp [Ideal.ofBits, Ideal.ieee, -EReal.coe_mul]; norm_num

theorem isPos_one : IsPos (1 : EReal) := ⟨1, one_pos, rfl⟩

theorem isFin_zero_word : IsFin (Ideal.ofBits .f32 0x00000000#32) := by
  rw [Ideal.ofBits_zero_f32]; exact IsFin.zero
theorem isNonneg_zero_word : IsNonneg (Ideal.ofBits .f32 0x00000000#32) := by
  rw [Ideal.ofBits_zero_f32]; exact IsNonneg.zero
theorem isPos_one_word : IsPos (Ideal.ofBits .f32 0x3F800000#32) := by
  rw [one_f32]; exact isPos_one

/-- A product of finite entries is finite. -/
theorem fin_mulf (a b : FVec Ideal s .f32) (ha : ∀ i, IsFin (a i)) (hb : ∀ i, IsFin (b i)) :
    ∀ i, IsFin (mulf a b i) := fun i => (ha i).mul (hb i)
/-- A nonnegative entry plus a positive one is positive. -/
theorem pos_addf (a b : FVec Ideal s .f32) (ha : ∀ i, IsNonneg (a i)) (hb : ∀ i, IsPos (b i)) :
    ∀ i, IsPos (addf a b i) := fun i => (ha i).add_pos (hb i)
/-- The reciprocal square root of a positive entry is finite. -/
theorem fin_rsqrt (a : FVec Ideal s .f32) (ha : ∀ i, IsPos (a i)) : ∀ i, IsFin (Host.rsqrt a i) :=
  fun i => (ha i).rsqrt
/-- Every entry of a cast is an entry of its operand. -/
theorem all_shapeCast (P : EReal → Prop) (x : s.Idx → EReal) (h : s.ShapeCasts t) (hx : ∀ i, P (x i)) :
    ∀ j, P (shapeCast t x h j) := fun _ => hx _
/-- Every entry of a broadcast is an entry of its operand. -/
theorem all_broadcastInDim (P : EReal → Prop) (dims : Fin s.rank → Fin t.rank) (h : s.BroadcastsInDim t dims)
    (x : s.Idx → EReal) (hx : ∀ i, P (x i)) : ∀ j, P (broadcastInDim t dims h x j) := fun _ => hx _
/-- Every entry of a gather is an entry of its operand. -/
theorem all_gather (P : EReal → Prop) (d : GatherDims s si t) (x : s.Idx → EReal) (idx : IVec si w)
    (hx : ∀ i, P (x i)) : ∀ j, P (Host.gather d x idx j) := fun _ => hx _
/-- Every entry of a constant is its word's value. -/
theorem all_constant (P : EReal → Prop) (b : BitVec 32) (hb : P (Ideal.ofBits .f32 b)) :
    ∀ j, P (constant (F := Ideal) s .f32 b j) := fun _ => hb

/-- An accumulating scatter of nonnegative updates into nonnegative entries has nonnegative entries. -/
theorem scatterAdd_nonneg (d : ScatterDims s si su) (x : FVec Ideal s .f32)
    (idx : IVec si w) (upd : FVec Ideal su .f32) (hx : ∀ i, IsNonneg (x i)) (hu : ∀ j, IsNonneg (upd j)) :
    ∀ i, IsNonneg (Host.scatterAdd (F := Ideal) d x idx upd i) := by
  intro i
  show IsNonneg (Ideal.hostScatterAdd d x idx upd i)
  unfold Ideal.hostScatterAdd
  exact (hx i).add (IsNonneg.sum _ _ fun j _ => hu j)

/-- An accumulating scatter of finite updates into finite entries has finite entries. -/
theorem scatterAdd_fin (d : ScatterDims s si su) (x : FVec Ideal s .f32)
    (idx : IVec si w) (upd : FVec Ideal su .f32) (hx : ∀ i, IsFin (x i)) (hu : ∀ j, IsFin (upd j)) :
    ∀ i, IsFin (Host.scatterAdd (F := Ideal) d x idx upd i) := by
  intro i
  show IsFin (Ideal.hostScatterAdd d x idx upd i)
  unfold Ideal.hostScatterAdd
  exact (hx i).add (IsFin.sum _ _ fun j _ => hu j)

end Entrywise

/-! ## The stages -/

/-- The inverse root degree is a real number. -/
theorem fin_dinv (a1 : IVec S2x1600000 32) : ∀ i, IsFin (dinv a1 i) := by
  unfold dinv
  refine fin_rsqrt _ (pos_addf _ _ (scatterAdd_nonneg _ _ _ _ ?_ ?_) ?_)
  · exact all_broadcastInDim IsNonneg _ _ _ (all_constant IsNonneg _ isNonneg_zero_word)
  · exact all_broadcastInDim IsNonneg _ _ _ (all_constant IsNonneg _ isPos_one_word.isNonneg)
  · exact all_broadcastInDim IsPos _ _ _ (all_constant IsPos _ isPos_one_word)

/-- The squared inverse root degree, as a column, is real. -/
theorem fin_d2col (a1 : IVec S2x1600000 32) : ∀ i, IsFin (d2col a1 i) := by
  unfold d2col
  exact all_shapeCast IsFin _ _ (fin_mulf _ _ (fin_dinv a1) (fin_dinv a1))

/-- An edge's coefficient is real. -/
theorem fin_coef (a1 : IVec S2x1600000 32) : ∀ e, IsFin (coef a1 e) := by
  unfold coef
  exact fin_mulf _ _ (all_gather IsFin _ _ _ (fin_dinv a1)) (all_gather IsFin _ _ _ (fin_dinv a1))

/-- The neighbour aggregate of a matrix of reals is real. -/
theorem fin_aggregate (rows : FVec Ideal S100000x128 .f32) (a1 : IVec S2x1600000 32) (h : ∀ i, IsFin (rows i)) :
    ∀ i, IsFin (aggregate rows a1 i) := by
  unfold aggregate
  refine scatterAdd_fin _ _ _ _ ?_ ?_
  · exact all_broadcastInDim IsFin _ _ _ (all_constant IsFin _ isFin_zero_word)
  · exact fin_mulf _ _ (all_gather IsFin _ _ _ h)
      (all_broadcastInDim IsFin _ _ _ (all_broadcastInDim IsFin _ _ _ (fin_coef a1)))

/-- The first layer's transform of real inputs is real. -/
theorem fin_h1 (x0 : FVec Ideal S100000x256 .f32) (w1 : FVec Ideal S256x128 .f32)
    (hx : ∀ i, IsFin (x0 i)) (hw : ∀ i, IsFin (w1 i)) : ∀ i, IsFin (h1 x0 w1 i) := by
  intro i
  unfold h1 Cert.Spec.dense1
  exact IsFin.sum _ _ fun q _ => (hx _).mul (hw _)

/-- The hidden layer of real inputs is real. -/
theorem fin_hid (x0 : FVec Ideal S100000x256 .f32) (a1 : IVec S2x1600000 32) (w1 : FVec Ideal S256x128 .f32)
    (b1 : FVec Ideal S128 .f32) (hx : ∀ i, IsFin (x0 i)) (hw : ∀ i, IsFin (w1 i)) (hb : ∀ i, IsFin (b1 i)) :
    ∀ i, IsFin (hid x0 a1 w1 b1 i) := by
  intro i
  unfold hid Cert.Spec.reluLayer Cert.Spec.selfMix
  refine IsFin.max (IsFin.add (IsFin.add (fin_aggregate _ a1 (fin_h1 x0 w1 hx hw) i)
    (IsFin.mul (fin_h1 x0 w1 hx hw i) (fin_d2col a1 _))) ?_) isFin_zero_word
  exact all_shapeCast IsFin _ _ hb _

end Cert.Finite

end
-- ==== Proof.RefTail.lean ====
/-
  The reference's last two stages against the specification.
  * The sampled code: the reference adds to the mean head the noise times exp of one half of the log-variance head,
    entry by entry, which is the specification's reparametrisation of the two heads and the noise.
  * The edge scores: at edge e both sides are 1 / (1 + exp (-(the sum over the 64 code coordinates k of
    z(s e, k) · z(t e, k)))), with s e and t e the edge's source and target rows, a negative word raised by the node
    count and the result clamped into the row range. One side gathers rows of z and sums along the second axis; the
    other transposes z, gathers columns and sums along the first axis.
-/
import proofs.«174899_j84129819394641_2_alg».proof.Proof.Gen.ReferenceIdeal.Read
import proofs.«174899_j84129819394641_2_alg».proof.Proof.KStages
import proofs.«174899_j84129819394641_2_alg».proof.Proof.Spec
import proofs.«174899_j84129819394641_2_alg».proof.Proof.LibEdgeRead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.Bridge

open Idealize.ShloMosaic Idealize.ShloMosaic.ValueIdx
open Cert.KernelIdeal.Facts₀ Cert.KernelIdeal.Facts

variable (x0 : (⟨Cert.ReferenceIdeal.S100000x256, .f32⟩ : BufTy).Contents (Elt Ideal)) (x1 : (⟨Cert.ReferenceIdeal.S2x1600000, .i32⟩ : BufTy).Contents (Elt Ideal)) (x2 : (⟨Cert.ReferenceIdeal.S100000x64, .f32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x64, .f32⟩ : BufTy).Contents (Elt Ideal)) (x6 : (⟨Cert.ReferenceIdeal.S64, .f32⟩ : BufTy).Contents (Elt Ideal)) (x7 : (⟨Cert.ReferenceIdeal.S128x64, .f32⟩ : BufTy).Contents (Elt Ideal)) (x8 : (⟨Cert.ReferenceIdeal.S64, .f32⟩ : BufTy).Contents (Elt Ideal))

/-- The reference's sampled code is the specification's: mean plus noise times exp of one half the log-variance. -/
theorem r_z : Cert.ReferenceIdeal.Read.val_main_v127 (F := Ideal) x0 x1 x2 x3 x4 x5 x6 x7 x8
    = Cert.Spec.reparam (Cert.ReferenceIdeal.Read.val_main_v85 (F := Ideal) x0 x1 x3 x4 x5 x6) (Cert.ReferenceIdeal.Read.val_main_v122 (F := Ideal) x0 x1 x3 x4 x7 x8) x2 := by
  funext i
  rw [Cert.ReferenceIdeal.Read.val_main_v127_apply, Cert.ReferenceIdeal.Read.val_main_v126_apply, Cert.ReferenceIdeal.Read.val_main_v125_apply,
    Cert.ReferenceIdeal.Read.val_main_v124_apply, Cert.ReferenceIdeal.Read.val_main_v123_apply, Cert.ReferenceIdeal.Read.val_main_cst_22_apply]
  unfold Cert.Spec.reparam
  generalize Cert.ReferenceIdeal.Read.val_main_v85 (F := Ideal) x0 x1 x3 x4 x5 x6 i = a
  generalize Cert.ReferenceIdeal.Read.val_main_v122 (F := Ideal) x0 x1 x3 x4 x7 x8 i = b
  rfl

/-! ## The edge scores -/

/-- The edge scores as a function of a code matrix and the edge list: the code transposed, its columns gathered at
    the edges' sources and at their targets, and the logistic of the two columns' inner product. -/
def decOf (zz : FVec Ideal Cert.KernelIdeal.S100000x64 .f32) (x1 : IVec Cert.KernelIdeal.S2x1600000 32) :
    FVec Ideal Cert.KernelIdeal.S1600000 .f32 :=
  shapeCast _ (Cert.Spec.edgeScore
    (Host.gather Cert.KernelIdeal.gather_S64x100000_S1600000x1_S64x1600000_0_1_n_n_1_1_641
      (transpose Cert.KernelIdeal.S64x100000 [1, 0] zz transposes_S100000x64_S64x100000_1_0)
      (Cert.KernelIdeal.KVal.wrap (Cert.KernelIdeal.KVal.src x1)))
    (Host.gather Cert.KernelIdeal.gather_S64x100000_S1600000x1_S64x1600000_0_1_n_n_1_1_641
      (transpose Cert.KernelIdeal.S64x100000 [1, 0] zz transposes_S100000x64_S64x100000_1_0)
      (Cert.KernelIdeal.KVal.wrap (Cert.KernelIdeal.KVal.dst x1)))) shapeCasts_S1x1600000_S1600000

/-- At edge e: the logistic of the inner product of the source's and the target's code rows. -/
theorem decOf_apply (zz : FVec Ideal Cert.KernelIdeal.S100000x64 .f32) (x1 : IVec Cert.KernelIdeal.S2x1600000 32) (e : Fin 1600000) :
    decOf zz x1 (ix1 e) = Ideal.logistic (∑ r : Fin 64,
      zz (ix2 (Cert.EdgeRead.gRow (Cert.KernelIdeal.KVal.wrap (Cert.KernelIdeal.KVal.src x1)) e) r)
        * zz (ix2 (Cert.EdgeRead.gRow (Cert.KernelIdeal.KVal.wrap (Cert.KernelIdeal.KVal.dst x1)) e) r)) := by
  unfold decOf
  refine (shapeCast_1a_a_apply _ _ e).trans ?_
  unfold Cert.Spec.edgeScore
  refine congrArg Ideal.logistic (Finset.sum_congr rfl fun r _ => ?_)
  show Host.gather _ _ _ (ix2 r e) * Host.gather _ _ _ (ix2 r e) = _
  rw [Cert.EdgeRead.gather_cols64_K, Cert.EdgeRead.gather_cols64_K, transpose_ix2_apply, transpose_ix2_apply]

/-- The reference's wrapped source column is the kernel side's. -/
theorem wrap_src (x1 : IVec Cert.KernelIdeal.S2x1600000 32) :
    Cert.ReferenceIdeal.Read.val_main_v133 (F := Ideal) x1 = Cert.KernelIdeal.KVal.wrap (Cert.KernelIdeal.KVal.src x1) := rfl
/-- The reference's wrapped target column is the kernel side's. -/
theorem wrap_dst (x1 : IVec Cert.KernelIdeal.S2x1600000 32) :
    Cert.ReferenceIdeal.Read.val_main_v140 (F := Ideal) x1 = Cert.KernelIdeal.KVal.wrap (Cert.KernelIdeal.KVal.dst x1) := rfl

/-- The word 0x3F800000 denotes one. -/
theorem one_word : Ideal.ofBits .f32 0x3F800000#32 = (1 : EReal) := by
  simp [Ideal.ofBits, Ideal.ieee, -EReal.coe_mul]; norm_num

/-- The reference's edge score at edge e, over its own code matrix. -/
theorem ref_dec_apply (e : Fin 1600000) :
    Cert.ReferenceIdeal.Read.val_main_v149 (F := Ideal) x0 x1 x2 x3 x4 x5 x6 x7 x8 (ix1 e)
      = Ideal.logistic (∑ k : Fin 64,
          Cert.ReferenceIdeal.Read.val_main_v127 (F := Ideal) x0 x1 x2 x3 x4 x5 x6 x7 x8
              (ix2 (Cert.EdgeRead.gRow (Cert.ReferenceIdeal.Read.val_main_v133 (F := Ideal) x1) e) k)
            * Cert.ReferenceIdeal.Read.val_main_v127 (F := Ideal) x0 x1 x2 x3 x4 x5 x6 x7 x8
              (ix2 (Cert.EdgeRead.gRow (Cert.ReferenceIdeal.Read.val_main_v140 (F := Ideal) x1) e) k)) := by
  rw [Cert.ReferenceIdeal.Read.val_main_v149_apply, Cert.ReferenceIdeal.Read.val_main_v148_apply, Cert.ReferenceIdeal.Read.val_main_cst_29_apply,
    Cert.ReferenceIdeal.Read.val_main_v147_apply, Cert.ReferenceIdeal.Read.val_main_v146_apply, Cert.ReferenceIdeal.Read.val_main_cst_28_apply,
    Cert.ReferenceIdeal.Read.val_main_v145_apply, Cert.ReferenceIdeal.Read.val_main_v144_apply, Cert.ReferenceIdeal.Read.val_main_v143_apply,
    Cert.ReferenceIdeal.Read.val_main_cst_27_apply]
  have hs : ∀ k : Fin 64, Cert.ReferenceIdeal.Read.val_main_v142 (F := Ideal) x0 x1 x2 x3 x4 x5 x6 x7 x8 (Cert.ReferenceIdeal.Read.idx_main_v143 (ix1 e) k)
      = Cert.ReferenceIdeal.Read.val_main_v127 (F := Ideal) x0 x1 x2 x3 x4 x5 x6 x7 x8
              (ix2 (Cert.EdgeRead.gRow (Cert.ReferenceIdeal.Read.val_main_v133 (F := Ideal) x1) e) k)
            * Cert.ReferenceIdeal.Read.val_main_v127 (F := Ideal) x0 x1 x2 x3 x4 x5 x6 x7 x8
              (ix2 (Cert.EdgeRead.gRow (Cert.ReferenceIdeal.Read.val_main_v140 (F := Ideal) x1) e) k) := by
    intro k
    have hi : Cert.ReferenceIdeal.Read.idx_main_v143 (ix1 e) k = (ix2 e k : Cert.ReferenceIdeal.S1600000x64.Idx) := by
      funext a; match a with | ⟨0, _⟩ => rfl | ⟨1, _⟩ => rfl
    rw [hi, Cert.ReferenceIdeal.Read.val_main_v142_apply]
    unfold Cert.ReferenceIdeal.Read.val_main_v134 Cert.ReferenceIdeal.Read.val_main_v141
    generalize Cert.ReferenceIdeal.Read.val_main_v127 (F := Ideal) x0 x1 x2 x3 x4 x5 x6 x7 x8 = Z
    rw [Cert.EdgeRead.gather_rows64_R, Cert.EdgeRead.gather_rows64_R]
    rfl
  rw [Finset.sum_congr rfl fun k _ => hs k]
  generalize (∑ k : Fin 64, _ * _ : EReal) = S
  show Ideal.div (Ideal.ofBits .f32 0x3F800000#32) (Ideal.ofBits .f32 0x3F800000#32 + Ideal.exp (-(Ideal.ofBits .f32 0x00000000#32 + S))) = _
  rw [one_word, Ideal.ofBits_zero_f32, zero_add]
  rfl

/-- The reference's edge scores are the edge-score function of its own sampled code and the edge list. -/
theorem r_dec : Cert.ReferenceIdeal.Read.val_main_v149 (F := Ideal) x0 x1 x2 x3 x4 x5 x6 x7 x8
    = decOf (Cert.ReferenceIdeal.Read.val_main_v127 (F := Ideal) x0 x1 x2 x3 x4 x5 x6 x7 x8) x1 := by
  funext j
  obtain ⟨e, rfl⟩ : ∃ e : Fin 1600000, j = ix1 e := ⟨j 0, eq_ix1 j⟩
  rw [ref_dec_apply, decOf_apply, wrap_src, wrap_dst]

end Cert.Bridge

end
-- ==== Proof.Results.lean ====
/-
  The kernel's stage functions against the reference's values: the two heads, the sampled code and the edge scores.

  The mean and log-variance heads differ only in the order of the two linear steps (aggregate the hidden rows over the
  edges and then transform, or transform every row and then aggregate); on finite data the two orders agree. The
  sampled code and the edge scores are the same functions of the heads on both sides, so they follow by substitution.
-/
import proofs.«174899_j84129819394641_2_alg».proof.Proof.Heads
import proofs.«174899_j84129819394641_2_alg».proof.Proof.RefHidden
import proofs.«174899_j84129819394641_2_alg».proof.Proof.Finite
import proofs.«174899_j84129819394641_2_alg».proof.Proof.RefTail

set_option maxRecDepth 16384

noncomputable section

namespace Cert.Bridge

open Idealize.ShloMosaic

variable (x0 : FVec Ideal Cert.KernelIdeal.S100000x256 .f32) (x1 : IVec Cert.KernelIdeal.S2x1600000 32)
  (x2 : FVec Ideal Cert.KernelIdeal.S100000x64 .f32) (x3 : FVec Ideal Cert.KernelIdeal.S256x128 .f32)
  (x4 : FVec Ideal Cert.KernelIdeal.S128 .f32) (x5 : FVec Ideal Cert.KernelIdeal.S128x64 .f32)
  (x6 : FVec Ideal Cert.KernelIdeal.S64 .f32) (x7 : FVec Ideal Cert.KernelIdeal.S128x64 .f32)
  (x8 : FVec Ideal Cert.KernelIdeal.S64 .f32)

/-- The mean head: aggregating the hidden rows and then transforming is transforming and then aggregating. -/
theorem mu_eq (f0 : ∀ i, ∃ r : ℝ, x0 i = (r : EReal)) (f3 : ∀ i, ∃ r : ℝ, x3 i = (r : EReal))
    (f4 : ∀ i, ∃ r : ℝ, x4 i = (r : EReal)) (f5 : ∀ i, ∃ r : ℝ, x5 i = (r : EReal)) (f7 : ∀ i, ∃ r : ℝ, x7 i = (r : EReal)) :
    Cert.KernelIdeal.KVal.mu x0 x1 x3 x4 x5 x6 = Cert.ReferenceIdeal.Read.val_main_v85 (F := Ideal) x0 x1 x3 x4 x5 x6 := by
  rw [r_mu, r_hid]
  unfold Cert.KernelIdeal.KVal.mu Cert.KernelIdeal.KVal.mix
  exact head_eq x1 (Cert.KernelIdeal.KVal.hid x0 x1 x3 x4) x5 x6 (Cert.Finite.fin_hid x0 x1 x3 x4 f0 f3 f4) f5
    (Cert.Finite.fin_coef x1) (Cert.Finite.fin_dinv x1)

/-- The log-variance head, likewise. -/
theorem lv_eq (f0 : ∀ i, ∃ r : ℝ, x0 i = (r : EReal)) (f3 : ∀ i, ∃ r : ℝ, x3 i = (r : EReal))
    (f4 : ∀ i, ∃ r : ℝ, x4 i = (r : EReal)) (f5 : ∀ i, ∃ r : ℝ, x5 i = (r : EReal)) (f7 : ∀ i, ∃ r : ℝ, x7 i = (r : EReal)) :
    Cert.KernelIdeal.KVal.lv x0 x1 x3 x4 x7 x8 = Cert.ReferenceIdeal.Read.val_main_v122 (F := Ideal) x0 x1 x3 x4 x7 x8 := by
  rw [r_lv, r_hid]
  unfold Cert.KernelIdeal.KVal.lv Cert.KernelIdeal.KVal.mix
  exact head_eq x1 (Cert.KernelIdeal.KVal.hid x0 x1 x3 x4) x7 x8 (Cert.Finite.fin_hid x0 x1 x3 x4 f0 f3 f4) f7
    (Cert.Finite.fin_coef x1) (Cert.Finite.fin_dinv x1)

/-- The sampled code: the same function of equal heads and the same noise. -/
theorem z_eq (f0 : ∀ i, ∃ r : ℝ, x0 i = (r : EReal)) (f3 : ∀ i, ∃ r : ℝ, x3 i = (r : EReal))
    (f4 : ∀ i, ∃ r : ℝ, x4 i = (r : EReal)) (f5 : ∀ i, ∃ r : ℝ, x5 i = (r : EReal)) (f7 : ∀ i, ∃ r : ℝ, x7 i = (r : EReal)) :
    Cert.KernelIdeal.KVal.z x0 x1 x2 x3 x4 x5 x6 x7 x8 = Cert.ReferenceIdeal.Read.val_main_v127 (F := Ideal) x0 x1 x2 x3 x4 x5 x6 x7 x8 := by
  unfold Cert.KernelIdeal.KVal.z
  rw [mu_eq x0 x1 x3 x4 x5 x6 x7 f0 f3 f4 f5 f7, lv_eq x0 x1 x3 x4 x5 x7 x8 f0 f3 f4 f5 f7]
  exact (r_z x0 x1 x2 x3 x4 x5 x6 x7 x8).symm

/-- The edge scores: the same function of equal codes and the same edge list. -/
theorem dec_eq (f0 : ∀ i, ∃ r : ℝ, x0 i = (r : EReal)) (f3 : ∀ i, ∃ r : ℝ, x3 i = (r : EReal))
    (f4 : ∀ i, ∃ r : ℝ, x4 i = (r : EReal)) (f5 : ∀ i, ∃ r : ℝ, x5 i = (r : EReal)) (f7 : ∀ i, ∃ r : ℝ, x7 i = (r : EReal)) :
    Cert.KernelIdeal.KVal.dec x0 x1 x2 x3 x4 x5 x6 x7 x8 = Cert.ReferenceIdeal.Read.val_main_v149 (F := Ideal) x0 x1 x2 x3 x4 x5 x6 x7 x8 := by
  show decOf (Cert.KernelIdeal.KVal.z x0 x1 x2 x3 x4 x5 x6 x7 x8) x1 = _
  rw [z_eq x0 x1 x2 x3 x4 x5 x6 x7 x8 f0 f3 f4 f5 f7]
  exact (r_dec x0 x1 x2 x3 x4 x5 x6 x7 x8).symm

end Cert.Bridge

end
-- ==== Proof.FiniteInputs.lean ====
/-
  Finite inputs. The precondition states, for each float input, that every entry's absolute value lies
  strictly below the value of the +inf word, and conjoins the statements. On the extended reals the
  +inf word denotes the top element, and max x (-x) < top excludes both x = top and x = bottom, so
  every entry of every float input is (the coercion of) a real number.
-/
import proofs.«174899_j84129819394641_2_alg».proof.Pre_finite_inputs
import proofs.«174899_j84129819394641_2_alg».proof.Proof.Gen.Pre_finite_inputs
import Idealize.ShloMosaic.PureOps.Ideal
import Idealize.ShloMosaic.Lib.ValueIdx
import Idealize.ShloMosaic.Lib.ReduceAll

noncomputable section

namespace Cert.FiniteInputs

open Idealize.ShloMosaic Cert.Pre_finite_inputs

/-- The rank-0 shape has exactly one index. -/
instance : Subsingleton S_.Idx := ⟨fun a b => funext fun d => d.elim0⟩

/-- The +inf word denotes the top element of the extended reals. -/
theorem inf_word : Ideal.ofBits .f32 0x7F800000#32 = (⊤ : EReal) := by
  simp [Ideal.ofBits, Ideal.ieee]

/-- An extended real whose absolute value max x (-x) compares strictly below the +inf word is a real. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | top => simp [Ideal.cmp] at h
  | coe r => exact ⟨r, rfl⟩

/-- One conjunct of the precondition: if the conjunction (by the one-bit "and") over all entries of
    "|x i| < +inf" is 1, every entry of x is a real. -/
theorem all_real {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf x) (broadcastInDim s ![] hb (constant S_ .f32 0x7F800000#32)))
          init hr hu ValueIdx.ix0 = 1#1) :
    ∀ i, ∃ r : ℝ, x i = (r : EReal) := by
  intro i
  exact real_of_abs_lt_inf (x i) (Host.reduce_andi_all _ init hr hu ValueIdx.ix0 e i)

/-- The entrywise one-bit "and" of two rank-0 arrays, read at the one index. -/
theorem andi_at (a b : IVec S_ 1) (j : S_.Idx) : andi a b j = IntOp.andi (a j) (b j) := rfl

/-- Under the precondition every entry of every float input is a real number. -/
theorem real_of_pre (x0 : FVec Ideal S100000x256 .f32) (x1 : IVec S2x1600000 32) (x2 : FVec Ideal S100000x64 .f32) (x3 : FVec Ideal S256x128 .f32) (x4 : FVec Ideal S128 .f32) (x5 : FVec Ideal S128x64 .f32) (x6 : FVec Ideal S64 .f32) (x7 : FVec Ideal S128x64 .f32) (x8 : FVec Ideal S64 .f32)
    (h : Cert.Pre_finite_inputs.fn (F := Ideal) x0 x1 x2 x3 x4 x5 x6 x7 x8 = fun _ => 1#1) :
    (∀ i, ∃ r : ℝ, x0 i = (r : EReal)) ∧ (∀ i, ∃ r : ℝ, x2 i = (r : EReal)) ∧ (∀ i, ∃ r : ℝ, x3 i = (r : EReal)) ∧ (∀ i, ∃ r : ℝ, x4 i = (r : EReal)) ∧ (∀ i, ∃ r : ℝ, x5 i = (r : EReal)) ∧ (∀ i, ∃ r : ℝ, x6 i = (r : EReal)) ∧ (∀ i, ∃ r : ℝ, x7 i = (r : EReal)) ∧ (∀ i, ∃ r : ℝ, x8 i = (r : EReal)) := by
  have h0 := congrFun h ValueIdx.ix0
  dsimp only [fn, fn_part1, fn_part2] at h0
  simp only [andi_at, IntOp.andi_eq_one] at h0
  obtain ⟨⟨⟨⟨⟨⟨⟨e0, e2⟩, e3⟩, e4⟩, e5⟩, e6⟩, e7⟩, e8⟩ := h0
  exact ⟨all_real x0 _ _ _ _ e0, all_real x2 _ _ _ _ e2, all_real x3 _ _ _ _ e3, all_real x4 _ _ _ _ e4,
    all_real x5 _ _ _ _ e5, all_real x6 _ _ _ _ e6, all_real x7 _ _ _ _ e7, all_real x8 _ _ _ _ e8⟩

end Cert.FiniteInputs

end
-- ==== Proof.lean ====
/-
  The certificate of a two-layer graph auto-encoder with an inner-product edge decoder.

  The kernel computes, on 100000 nodes and 1600000 edges: the degree normalisation dinv = rsqrt (1 + in-degree); the first
  layer h = relu (A (x W1) + (x W1)·dinv² + b1), where A sums, over the edges landing on a node, the source's row
  times dinv(source)·dinv(target); then, sharing ONE aggregation s = A h + h·dinv², the mean mu = s Wmu + bmu and the
  log-variance lv = s Wlv + blv; the code z = mu + eps·exp (lv / 2); and for every edge the logistic of the inner
  product of its endpoints' codes. The reference applies Wmu and Wlv to h BEFORE aggregating.  On finite inputs the two
  orders agree (a weight matrix distributes over the aggregate and the two finite sums exchange); everything else is the
  same operations in another layout (row gathers against column gathers of the transpose, a sum over one axis
  against the other, 1 / (1 + exp (-t)) as one operation or four).

  The three frames: the two kernel programs' are their generated frame certificates; the reference has no kernel, and
  its frame is its run with the results dropped.  The idealization rewrote nothing, so the preservation claim is True.
  The value claim: the kernel's run read at its last boundary (KRun), the boundary's contents followed back to the
  arguments through the four regions and the host operations between them (KChain, over the regions' whole-array
  values Region0 … Region3), the reference's run read one operation at a time, and the four equalities (Results).
-/
import proofs.«174899_j84129819394641_2_alg».proof.Defs
import proofs.«174899_j84129819394641_2_alg».proof.Proof.Gen.Kernel
import proofs.«174899_j84129819394641_2_alg».proof.Proof.Gen.Kernel.Skeleton
import proofs.«174899_j84129819394641_2_alg».proof.Proof.Gen.Kernel.Launch
import proofs.«174899_j84129819394641_2_alg».proof.Proof.Gen.Kernel.Points
import proofs.«174899_j84129819394641_2_alg».proof.Proof.Gen.Kernel.Frame
import proofs.«174899_j84129819394641_2_alg».proof.Proof.Gen.KernelIdeal
import proofs.«174899_j84129819394641_2_alg».proof.Proof.Gen.KernelIdeal.Skeleton
import proofs.«174899_j84129819394641_2_alg».proof.Proof.Gen.KernelIdeal.Launch
import proofs.«174899_j84129819394641_2_alg».proof.Proof.Gen.KernelIdeal.Points
import proofs.«174899_j84129819394641_2_alg».proof.Proof.Gen.KernelIdeal.Frame
import proofs.«174899_j84129819394641_2_alg».proof.Proof.Gen.ReferenceIdeal
import proofs.«174899_j84129819394641_2_alg».proof.Proof.Gen.Pre_finite_inputs
import proofs.«174899_j84129819394641_2_alg».proof.Proof.Gen.ReferenceIdeal.Run
import proofs.«174899_j84129819394641_2_alg».proof.Proof.Gen.ReferenceIdeal.Read
import proofs.«174899_j84129819394641_2_alg».proof.Proof.KRun
import proofs.«174899_j84129819394641_2_alg».proof.Proof.KChain
import proofs.«174899_j84129819394641_2_alg».proof.Proof.Results
import proofs.«174899_j84129819394641_2_alg».proof.Proof.FiniteInputs
import Idealize.ShloMosaic.Adequacy
import Idealize.ShloMosaic.Init

set_option maxRecDepth 16384

noncomputable section

namespace Cert.Proof

open Idealize.ShloMosaic Idealize.SL.Sem

/-- The word-level kernel runs and leaves its arguments unchanged. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- The reference is host operations only: its run names every result, and the frame keeps the arguments' part. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- On finite inputs the idealized kernel and the idealized reference end with the same four arrays. -/
theorem algebraic : Cert.algebraic_KernelIdeal_ReferenceIdeal := by
  intro m ρ m' ρ' hpre hagree
  refine ⟨fun c => Cert.KernelIdeal.KVal.z (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.KernelIdeal.KVal.mu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.KernelIdeal.KVal.lv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.KernelIdeal.KVal.dec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono (fun r h c =>
      ⟨(h c).1.trans (Cert.KernelIdeal.KChain.k9_z m ρ c), (h c).2.1.trans (Cert.KernelIdeal.KChain.k9_mu m ρ c),
        (h c).2.2.1.trans (Cert.KernelIdeal.KChain.k9_lv m ρ c), (h c).2.2.2.1.trans (Cert.KernelIdeal.KChain.k9_dec m ρ c),
        (h c).2.2.2.2⟩) (Cert.KernelIdeal.KRun.run_boundary m ρ)
  · refine (θ_run Cert.ReferenceIdeal.defs _ _).mono (fun r h c => ?_) (Cert.ReferenceIdeal.Value.run (F := Ideal) m' ρ')
    obtain ⟨h0, h1, h2, h3, hargs⟩ := h c
    obtain ⟨e0, e1, e2, e3, e4, e5, e6, e7, e8⟩ := hagree c
    obtain ⟨f0, f2, f3, f4, f5, f6, f7, f8⟩ := Cert.FiniteInputs.real_of_pre _ _ _ _ _ _ _ _ _ (hpre c)
    refine ⟨h0.trans ?_, h1.trans ?_, h2.trans ?_, h3.trans ?_, hargs⟩
    · rw [Cert.ReferenceIdeal.Read.val_main_v127_eq, e0, e1, e2, e3, e4, e5, e6, e7, e8]
      exact (Cert.Bridge.z_eq _ _ _ _ _ _ _ _ _ f0 f3 f4 f5 f7).symm
    · rw [Cert.ReferenceIdeal.Read.val_main_v85_eq, e0, e1, e3, e4, e5, e6]
      exact (Cert.Bridge.mu_eq _ _ _ _ _ _ _ f0 f3 f4 f5 f7).symm
    · rw [Cert.ReferenceIdeal.Read.val_main_v122_eq, e0, e1, e3, e4, e7, e8]
      exact (Cert.Bridge.lv_eq _ _ _ _ _ _ _ f0 f3 f4 f5 f7).symm
    · rw [Cert.ReferenceIdeal.Read.val_main_v149_eq, e0, e1, e2, e3, e4, e5, e6, e7, e8]
      exact (Cert.Bridge.dec_eq _ _ _ _ _ _ _ _ _ f0 f3 f4 f5 f7).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
